-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S64x1024 : Shape := ⟨2, ![64, 1024]⟩
abbrev S64 : Shape := ⟨1, ![64]⟩
abbrev S65536x64 : Shape := ⟨2, ![65536, 64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S65536x64 : S_.BroadcastsInDim S65536x64 (![] : Fin 0 → Fin S65536x64.rank)
  reducesTo_S65536x64_S_d0_1 : S65536x64.ReducesTo [0, 1] S_

variable [Facts]

def fn_part2 {F : FTy → Type} [FloatOps F] (main_arg7 : FVec F S65536x64 .f32) (main_v33 : IVec S_ 1) : IVec S_ 1 :=
  let main_v34 : FVec F S65536x64 .f32 := Host.absf main_arg7
  let main_cst_12 : FVec F S_ .f32 := constant S_ .f32 0x7F800000#32
  let main_v35 : FVec F S65536x64 .f32 := broadcastInDim S65536x64 ![] bcast_S_S65536x64 main_cst_12
  let main_v36 : IVec S65536x64 1 := cmpf .olt main_v34 main_v35
  let main_c_13 : IVec S_ 1 := constantI S_ 1 1#1
  let main_v37 : IVec S_ 1 := (fun x v => Host.reduce IntOp.andi x v reducesTo_S65536x64_S_d0_1 h_S_) main_v36 main_c_13
  let main_v38 : IVec S_ 1 := andi main_v33 main_v37
  main_v38

def fn_part1 {F : FTy → Type} [FloatOps F] (main_arg4 : FVec F S64x1024 .f32) (main_arg5 : FVec F S64 .f32) (main_arg6 : FVec F S65536x64 .f32) (main_arg7 : FVec F S65536x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S65536x64 .f32 := Host.absf main_arg6
  let main_cst_10 : FVec F S_ .f32 := constant S_ .f32 0x7F800000#32
  let main_v30 : FVec F S65536x64 .f32 := broadcastInDim S65536x64 ![] bcast_S_S65536x64 main_cst_10
  let main_v31 : IVec S65536x64 1 := cmpf .olt main_v29 main_v30
  let main_c_11 : IVec S_ 1 := constantI S_ 1 1#1
  let main_v32 : IVec S_ 1 := (fun x v => Host.reduce IntOp.andi x v reducesTo_S65536x64_S_d0_1 h_S_) main_v31 main_c_11
  let main_v33 : IVec S_ 1 := andi main_v28 main_v32
  fn_part2 (F := F) main_arg7 main_v33

def fn {F : FTy → Type} [FloatOps F] (main_arg0 : FVec F S2048x512 .f32) (main_arg1 : FVec F S2048x512 .f32) (main_arg2 : FVec F S64x1024 .f32) (main_arg3 : FVec F S64 .f32) (main_arg4 : FVec F S64x1024 .f32) (main_arg5 : FVec F S64 .f32) (main_arg6 : FVec F S65536x64 .f32) (main_arg7 : FVec F S65536x64 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S2048x512 : Shape := ⟨2, ![2048, 512]⟩
abbrev S64x1024 : Shape := ⟨2, ![64, 1024]⟩
abbrev S64 : Shape := ⟨1, ![64]⟩
abbrev S65536x64 : Shape := ⟨2, ![65536, 64]⟩
abbrev S64x512 : Shape := ⟨2, ![64, 512]⟩
abbrev S2048x64 : Shape := ⟨2, ![2048, 64]⟩
abbrev S512x64 : Shape := ⟨2, ![512, 64]⟩
abbrev S1x64 : Shape := ⟨2, ![1, 64]⟩
abbrev S2048x1 : Shape := ⟨2, ![2048, 1]⟩
abbrev S1024x64 : Shape := ⟨2, ![1024, 64]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩
abbrev S2048 : Shape := ⟨1, ![2048]⟩
abbrev S512 : Shape := ⟨1, ![512]⟩
abbrev S1x512 : Shape := ⟨2, ![1, 512]⟩
abbrev S2048x128 : Shape := ⟨2, ![2048, 128]⟩
abbrev S512x2048 : Shape := ⟨2, ![512, 2048]⟩
abbrev S512x128 : Shape := ⟨2, ![512, 128]⟩
abbrev S512x1 : Shape := ⟨2, ![512, 1]⟩

abbrev nBuf : Space → Nat
  | .hbm => 18
  | .vmem => 35
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S64x1024, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S65536x64, .f32⟩
  | .hbm, ⟨7, _⟩ => ⟨S65536x64, .f32⟩
  | .hbm, ⟨8, _⟩ => ⟨S64x512, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x1, .f32⟩
  | .hbm, ⟨16, _⟩ => ⟨S2048x1, .f32⟩
  | .hbm, ⟨17, _⟩ => ⟨S65536x64, .f32⟩
  | .local _ .vmem, ⟨0, _⟩ => ⟨S2048x512, .f32⟩
  | .local _ .vmem, ⟨1, _⟩ => ⟨S2048x512, .f32⟩
  | .local _ .vmem, ⟨2, _⟩ => ⟨S64x512, .f32⟩
  | .local _ .vmem, ⟨3, _⟩ => ⟨S64x512, .f32⟩
  | .local _ .vmem, ⟨4, _⟩ => ⟨S64, .f32⟩
  | .local _ .vmem, ⟨5, _⟩ => ⟨S64x512, .f32⟩
  | .local _ .vmem, ⟨6, _⟩ => ⟨S64x512, .f32⟩
  | .local _ .vmem, ⟨7, _⟩ => ⟨S64, .f32⟩
  | .local _ .vmem, ⟨8, _⟩ => ⟨S2048x64, .f32⟩
  | .local _ .vmem, ⟨9, _⟩ => ⟨S2048x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | .local _ .vmem, ⟨28, _⟩ => ⟨S512x64, .f32⟩
  | .local _ .vmem, ⟨29, _⟩ => ⟨S2048x64, .f32⟩
  | .local _ .vmem, ⟨30, _⟩ => ⟨S2048x64, .f32⟩
  | .local _ .vmem, ⟨31, _⟩ => ⟨S2048x1, .f32⟩
  | .local _ .vmem, ⟨32, _⟩ => ⟨S2048x1, .f32⟩
  | .local _ .vmem, ⟨33, _⟩ => ⟨S512x64, .f32⟩
  | .local _ .vmem, ⟨34, _⟩ => ⟨S512x64, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v58 : BitVec 1 := Scalar.cmpi .eq arg1 c63_i32
  let v59 : BitVec 32 := Scalar.extui v58
  let c0_i32_28 : BitVec 32 := 0#32
  let v60 : BitVec 1 := Scalar.cmpi .ne v59 c0_i32_28
  v60

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S64x1024_S64x512_0_0 : S64x1024.Slices ![0, 0] S64x512
  slices_S64x1024_S64x512_0_512 : S64x1024.Slices ![0, 512] S64x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64_S64_0 : ∀ a, (![0] : Fin 1 → Nat) a + S64.size a ≤ S64.size a
  h_S64 : 0 < S64.numel
  transposes_S64x512_p1_0_S512x64 : S64x512.Transposes [1, 0] S512x64
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  reduces_S1024x64_S1024 : S1024x64.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  broadcasts_S1024x1_S1024x64 : S1024x1.Broadcasts S1024x64
  inb_S512x64_S512x64_0_0 : ∀ a, (![0, 0] : Fin 2 → Nat) a + S512x64.size a ≤ S512x64.size a
  h_S512x64 : 0 < S512x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  transposes_S512x64_p1_0_S64x512 : S512x64.Transposes [1, 0] S64x512
  reduces_S2048x64_S2048 : S2048x64.Reduces [1] S2048
  shapeCasts_S2048_S2048x1 : S2048.ShapeCasts S2048x1
  reduces_S512x64_S512 : S512x64.Reduces [1] S512
  shapeCasts_S512_S1x512 : S512.ShapeCasts S1x512
  broadcasts_S2048x1_S2048x512 : S2048x1.Broadcasts S2048x512
  broadcasts_S1x512_S2048x512 : S1x512.Broadcasts S2048x512
  iota_S2048x64_d1_w32 : S2048x64.Iotas .tc 32 [1]
  concatenates_S2048x64_S2048x64_S2048x128_d1 : Shape.Concatenates [S2048x64, S2048x64] S2048x128 1
  transposes_S2048x512_p1_0_S512x2048 : S2048x512.Transposes [1, 0] S512x2048
  slices_S512x128_o0_0_S512x64 : S512x128.Slices ![0, 0] S512x64
  slices_S512x128_o0_64_S512x1 : S512x128.Slices ![0, 64] S512x1
  broadcasts_S512x1_S512x64 : S512x1.Broadcasts S512x64
  dot_S2048x512_S512x64_S2048x64_1_0_0_1_n_n_wf : DotDims.WF S2048x512 S512x64 S2048x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S2048x64_S64x512_S2048x512_1_0_0_1_n_n_wf : DotDims.WF S2048x64 S64x512 S2048x512 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .f32 = 32 ∨ (Rect.block (s := S64x512) S64x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S2048x64.size a
  hwx0_8 : ∀ i : grid0.Coords, EltTy.bits .f32 = 32 ∨ (Rect.block (s := S2048x64) S2048x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x64.size a ≤ S2048x64.size a
  hwx0_9 : ∀ i : grid0.Coords, EltTy.bits .f32 = 32 ∨ (Rect.block (s := S2048x64) S2048x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S2048x64.size a
  hwx1_0 : ∀ i : grid1.Coords, EltTy.bits .f32 = 32 ∨ (Rect.block (s := S2048x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S65536x64.size a
  hwx1_1 : ∀ i : grid1.Coords, EltTy.bits .f32 = 32 ∨ (Rect.block (s := S65536x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S65536x64.size a
  hwx1_2 : ∀ i : grid1.Coords, EltTy.bits .f32 = 32 ∨ (Rect.block (s := S65536x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S2048x64.size a
  hwx1_3 : ∀ i : grid1.Coords, EltTy.bits .f32 = 32 ∨ (Rect.block (s := S2048x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S2048x1.size a
  hwx1_4 : ∀ i : grid1.Coords, EltTy.bits .f32 = 32 ∨ (Rect.block (s := S2048x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S2048x1.size a
  hwx1_5 : ∀ i : grid1.Coords, EltTy.bits .f32 = 32 ∨ (Rect.block (s := S2048x1) S1024x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S65536x64.size a
  hwx2_0 : ∀ i : grid2.Coords, EltTy.bits .f32 = 32 ∨ (Rect.block (s := S65536x64) S512x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S65536x64.size a
  hwx2_1 : ∀ i : grid2.Coords, EltTy.bits .f32 = 32 ∨ (Rect.block (s := S65536x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S2048x64.size a
  hwx2_2 : ∀ i : grid2.Coords, EltTy.bits .f32 = 32 ∨ (Rect.block (s := S2048x64) S2048x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S2048x64.size a
  hwx2_3 : ∀ i : grid2.Coords, EltTy.bits .f32 = 32 ∨ (Rect.block (s := S2048x64) S2048x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S2048x1.size a
  hwx2_4 : ∀ i : grid2.Coords, EltTy.bits .f32 = 32 ∨ (Rect.block (s := S2048x1) S2048x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S2048x1.size a
  hwx2_5 : ∀ i : grid2.Coords, EltTy.bits .f32 = 32 ∨ (Rect.block (s := S2048x1) S2048x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S65536x64.size a
  hwx2_6 : ∀ i : grid2.Coords, EltTy.bits .f32 = 32 ∨ (Rect.block (s := S65536x64) S512x64.size (cc2_transform_6 i) (hinb2_6 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S2048x64.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S2048x64.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1024x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_2) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun i => !(k1_cond2 i == 1#1) | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg6) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S2048x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S2048x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5_1) S2048x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5_2) S2048x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2048x512 : Shape := ⟨2, ![2048, 512]⟩
abbrev S64x1024 : Shape := ⟨2, ![64, 1024]⟩
abbrev S64 : Shape := ⟨1, ![64]⟩
abbrev S65536x64 : Shape := ⟨2, ![65536, 64]⟩
abbrev S2048x1024 : Shape := ⟨2, ![2048, 1024]⟩
abbrev S1024x64 : Shape := ⟨2, ![1024, 64]⟩
abbrev S2048x64 : Shape := ⟨2, ![2048, 64]⟩
abbrev S1x64 : Shape := ⟨2, ![1, 64]⟩
abbrev S_ : Shape := ⟨0, ![]⟩
abbrev S2048 : Shape := ⟨1, ![2048]⟩
abbrev S2048x1 : Shape := ⟨2, ![2048, 1]⟩
abbrev S65536 : Shape := ⟨1, ![65536]⟩
abbrev S1x65536 : Shape := ⟨2, ![1, 65536]⟩
abbrev S2048x65536 : Shape := ⟨2, ![2048, 65536]⟩
abbrev S64x65536 : Shape := ⟨2, ![64, 65536]⟩
abbrev S65536x2048 : Shape := ⟨2, ![65536, 2048]⟩
abbrev S65536x1 : Shape := ⟨2, ![65536, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S64x1024, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S65536x64, .f32⟩
  | .hbm, ⟨7, _⟩ => ⟨S65536x64, .f32⟩
  | .hbm, ⟨8, _⟩ => ⟨S2048x1024, .f32⟩
  | .hbm, ⟨9, _⟩ => ⟨S1024x64, .f32⟩
  | .hbm, ⟨10, _⟩ => ⟨S2048x64, .f32⟩
  | .hbm, ⟨11, _⟩ => ⟨S1x64, .f32⟩
  | .hbm, ⟨12, _⟩ => ⟨S2048x64, .f32⟩
  | .hbm, ⟨13, _⟩ => ⟨S2048x64, .f32⟩
  | .hbm, ⟨14, _⟩ => ⟨S1024x64, .f32⟩
  | .hbm, ⟨15, _⟩ => ⟨S2048x64, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S65536x64, .f32⟩
  | .hbm, ⟨24, _⟩ => ⟨S_, .f32⟩
  | .hbm, ⟨25, _⟩ => ⟨S65536, .f32⟩
  | .hbm, ⟨26, _⟩ => ⟨S1x65536, .f32⟩
  | .hbm, ⟨27, _⟩ => ⟨S2048x65536, .f32⟩
  | .hbm, ⟨28, _⟩ => ⟨S2048x65536, .f32⟩
  | .hbm, ⟨29, _⟩ => ⟨S2048x65536, .f32⟩
  | .hbm, ⟨30, _⟩ => ⟨S64x65536, .f32⟩
  | .hbm, ⟨31, _⟩ => ⟨S2048x65536, .f32⟩
  | .hbm, ⟨32, _⟩ => ⟨S_, .f32⟩
  | .hbm, ⟨33, _⟩ => ⟨S2048x65536, .f32⟩
  | .hbm, ⟨34, _⟩ => ⟨S2048x65536, .f32⟩
  | .hbm, ⟨35, _⟩ => ⟨S2048x65536, .f32⟩
  | .hbm, ⟨36, _⟩ => ⟨S2048x65536, .f32⟩
  | .hbm, ⟨37, _⟩ => ⟨S_, .f32⟩
  | .hbm, ⟨38, _⟩ => ⟨S2048x65536, .f32⟩
  | .hbm, ⟨39, _⟩ => ⟨S2048x65536, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1, .f32⟩
  | .hbm, ⟨46, _⟩ => ⟨S2048x65536, .f32⟩
  | .hbm, ⟨47, _⟩ => ⟨S2048x65536, .f32⟩
  | .hbm, ⟨48, _⟩ => ⟨S2048x65536, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x65536, .f32⟩
  | .hbm, ⟨53, _⟩ => ⟨S2048x65536, .f32⟩
  | .hbm, ⟨54, _⟩ => ⟨S2048x64, .f32⟩
  | .hbm, ⟨55, _⟩ => ⟨S_, .f32⟩
  | .hbm, ⟨56, _⟩ => ⟨S65536, .f32⟩
  | .hbm, ⟨57, _⟩ => ⟨S65536x2048, .f32⟩
  | .hbm, ⟨58, _⟩ => ⟨S65536x64, .f32⟩
  | .hbm, ⟨59, _⟩ => ⟨S65536x1, .f32⟩
  | .hbm, ⟨60, _⟩ => ⟨S65536x64, .f32⟩
  | .hbm, ⟨61, _⟩ => ⟨S65536x64, .f32⟩
  | .hbm, ⟨62, _⟩ => ⟨S65536x64, .f32⟩
  | .hbm, ⟨63, _⟩ => ⟨S_, .f32⟩
  | .hbm, ⟨64, _⟩ => ⟨S65536x64, .f32⟩
  | .hbm, ⟨65, _⟩ => ⟨S65536x64, .f32⟩
  | .hbm, ⟨66, _⟩ => ⟨S65536x64, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  concatenates_S2048x512_S2048x512_S2048x1024_d1 : Shape.Concatenates [S2048x512, S2048x512] S2048x1024 1
  transposes_S64x1024_S1024x64_1_0 : S64x1024.Transposes [1, 0] S1024x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  reducesTo_S2048x64_S2048_d1 : S2048x64.ReducesTo [1] S2048
  h_S_ : 0 < S_.numel
  bcast_S2048_S2048x1_0 : S2048.BroadcastsInDim S2048x1 (![0] : Fin 1 → Fin S2048x1.rank)
  reducesTo_S65536x64_S65536_d1 : S65536x64.ReducesTo [1] S65536
  bcast_S65536_S1x65536_1 : S65536.BroadcastsInDim S1x65536 (![1] : Fin 1 → Fin S1x65536.rank)
  bcast_S2048x1_S2048x65536_0_1 : S2048x1.BroadcastsInDim S2048x65536 (![0, 1] : Fin 2 → Fin S2048x65536.rank)
  bcast_S1x65536_S2048x65536_0_1 : S1x65536.BroadcastsInDim S2048x65536 (![0, 1] : Fin 2 → Fin S2048x65536.rank)
  transposes_S65536x64_S64x65536_1_0 : S65536x64.Transposes [1, 0] S64x65536
  bcast_S_S2048x65536 : S_.BroadcastsInDim S2048x65536 (![] : Fin 0 → Fin S2048x65536.rank)
  reducesTo_S2048x65536_S2048_d1 : S2048x65536.ReducesTo [1] S2048
  bcast_S_S2048 : S_.BroadcastsInDim S2048 (![] : Fin 0 → Fin S2048.rank)
  reducesTo_S2048x65536_S65536_d0 : S2048x65536.ReducesTo [0] S65536
  transposes_S2048x65536_S65536x2048_1_0 : S2048x65536.Transposes [1, 0] S65536x2048
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x64 : S_.BroadcastsInDim S65536x64 (![] : Fin 0 → Fin S65536x64.rank)
  dot_S2048x1024_S1024x64_S2048x64_1_0_0_1_n_n_wf : DotDims.WF S2048x1024 S1024x64 S2048x64 [1] [0] [0] [1] [] []
  dot_S2048x64_S64x65536_S2048x65536_1_0_0_1_n_n_wf : DotDims.WF S2048x64 S64x65536 S2048x65536 [1] [0] [0] [1] [] []
  dot_S2048x65536_S65536x64_S2048x64_1_0_0_1_n_n_wf : DotDims.WF S2048x65536 S65536x64 S2048x64 [1] [0] [0] [1] [] []
  dot_S65536x2048_S2048x64_S65536x64_1_0_0_1_n_n_wf : DotDims.WF S65536x2048 S2048x64 S65536x64 [1] [0] [0] [1] [] []

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x65536_S2048x65536_1_0_0_1_n_n : DotDims S2048x64 S64x65536 S2048x65536 where
  lhsContracting := [1]
  rhsContracting := [0]
  lhsNonContracting := [0]
  rhsNonContracting := [1]
  lhsBatch := []
  rhsBatch := []
  wf := dot_S2048x64_S64x65536_S2048x65536_1_0_0_1_n_n_wf
def dot_S2048x65536_S65536x64_S2048x64_1_0_0_1_n_n : DotDims S2048x65536 S65536x64 S2048x64 where
  lhsContracting := [1]
  rhsContracting := [0]
  lhsNonContracting := [0]
  rhsNonContracting := [1]
  lhsBatch := []
  rhsBatch := []
  wf := dot_S2048x65536_S65536x64_S2048x64_1_0_0_1_n_n_wf
def dot_S65536x2048_S2048x64_S65536x64_1_0_0_1_n_n : DotDims S65536x2048 S2048x64 S65536x64 where
  lhsContracting := [1]
  rhsContracting := [0]
  lhsNonContracting := [0]
  rhsNonContracting := [1]
  lhsBatch := []
  rhsBatch := []
  wf := dot_S65536x2048_S2048x64_S65536x64_1_0_0_1_n_n_wf

class Facts : Prop extends Facts₀ where

variable [Facts]
-- ==== Proof.KReg0.lean ====
/- The class-A half of region 0 of the program (the two projections k and m of the inputs, each stored whole once),
   at a parameter `V`: the buffer contents when the region is entered. Generic in the float type. -/
import proofs.«103804_j5325759447207_2_alg».proof.Proof.Gen.Kernel.Launch
import proofs.«103804_j5325759447207_2_alg».proof.Proof.Gen.Kernel.Skeleton
import proofs.«103804_j5325759447207_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.H

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__mlp_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data
    whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles -/

abbrev r0_0 : Rect S2048x512 := Rect.unit (s := S2048x512) ![0, 0] S2048x512.size inb_S2048x512_S2048x512_0_0
abbrev r0_1 : Rect S64x512 := Rect.unit (s := S64x512) ![0, 0] S64x512.size inb_S64x512_S64x512_0_0
abbrev r0_2 : Rect S64 := Rect.unit (s := S64) ![0] S64.size inb_S64_S64_0
abbrev r0_3 : Rect S2048x64 := Rect.unit (s := S2048x64) ![0, 0] S2048x64.size inb_S2048x64_S2048x64_0_0

/-! ## What the body leaves in each output window's buffer -/

/-- Window 8's staging buffer after the body, from the input blocks it reads: its one store as a piece. -/
def out0_8 (x0 : Vec F S2048x512 .f32) (x1 : Vec F S2048x512 .f32) (x2 : Vec F S64x512 .f32) (x3 : Vec F S64x512 .f32) (x4 : Vec F S64 .f32) : Vec F S2048x64 .f32 :=
  View.canon [⟨r0_3, k0_pay3 (View.ld x0 r0_0) (View.ld x1 r0_0) (View.ld x2 r0_1) (View.ld x3 r0_1) (View.ld x4 r0_2)⟩]

/-- The store is of the whole buffer, so it covers it. -/
theorem cover0_8 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

/-- Window 9's staging buffer after the body, from the input blocks it reads: its one store as a piece. -/
def out0_9 (x0 : Vec F S2048x512 .f32) (x1 : Vec F S2048x512 .f32) (x5 : Vec F S64x512 .f32) (x6 : Vec F S64x512 .f32) (x7 : Vec F S64 .f32) : Vec F S2048x64 .f32 :=
  View.canon [⟨r0_3, k0_pay4 (View.ld x0 r0_0) (View.ld x1 r0_0) (View.ld x5 r0_1) (View.ld x6 r0_1) (View.ld x7 r0_2)⟩]

/-- The store is of the whole buffer, so it covers it. -/
theorem cover0_9 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

/-! ## The body's triple -/

set_option maxHeartbeats 4000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (x0 : Vec F S2048x512 .f32) (x1 : Vec F S2048x512 .f32) (x2 : Vec F S64x512 .f32) (x3 : Vec F S64x512 .f32) (x4 : Vec F S64 .f32) (x5 : Vec F S64x512 .f32) (x6 : Vec F S64x512 .f32) (x7 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4) ∗ owns (c : Thread nD τ) arg10 fullShare (out0_9 x0 x1 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them; after the body at point `t` each
    input's buffer at its block and each output's at `out0_W` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 5 t) (iblk0 V c 6 t) (iblk0 V c 7 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.KReg1Runs.lean ====
/- Region 1 (the pass over blocks of prototype rows that carries a running row maximum, a running sum of exponentials
   and a running weighted sum in three scratch buffers): what its three control cases share. The body branches twice on
   the second grid coordinate nj: at nj = 0 it resets the three scratch buffers, at nj = 63 it stores the three results.
   Case A is nj = 0, case C is nj = 63, case B everything between. The three result windows are idle outside case C
   and written back only there. The entry contents of the TensorCore's buffers are a parameter V. -/
import proofs.«103804_j5325759447207_2_alg».proof.Proof.Gen.Kernel.Launch
import proofs.«103804_j5325759447207_2_alg».proof.Proof.Gen.Kernel.Skeleton
import proofs.«103804_j5325759447207_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The reset branch is taken: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

/-- The result branch is taken: the second grid coordinate is 63. -/
abbrev cond1_1 (i : grid1.Coords) : Prop := k1_cond2 i = 1#1
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle and where they are written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging and scratch memrefs -/

/-- One staging buffer of each result window, through which its contents are stated. -/
abbrev VO1_3 : View sig .tc .vmem S1024x64 .f32 := (Memref.whole cc1_stg3_0 : Memref sig .tc .vmem S1024x64 .f32).view
abbrev VO1_4 : View sig .tc .vmem S1024x1 .f32 := (Memref.whole cc1_stg4_0 : Memref sig .tc .vmem S1024x1 .f32).view
abbrev VO1_5 : View sig .tc .vmem S1024x1 .f32 := (Memref.whole cc1_stg5_0 : Memref sig .tc .vmem S1024x1 .f32).view
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The three scratch operands: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- The core's scoped buffers no window of this region stages, split at the region's own three scratch buffers. -/
theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)
            ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The remainder of the scoped rest, carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three scratch operands as memrefs owned at some contents. -/
theorem PhiA1_eq (c : Dev nD) :
    (Pipeline.ΦA spec1 c : sProp 𝕄)
      = iprop(iprop(((∃ d, owns (c : Thread nD τ) scM1_0 fullShare d) ∗ (∃ d, owns (c : Thread nD τ) scM1_1 fullShare d) ∗ (∃ d, owns (c : Thread nD τ) scM1_2 fullShare d))
          ∗ rest1 (F := F) c) ∗ (∃ r, prngReg c r)) := by
  unfold Pipeline.ΦA; rw [scopedRest1_split]; simp only [scM1_0, scM1_1, scM1_2, owns_whole]; try rfl

end Cert.Kernel.H

end
-- ==== Proof.KReg1RunA.lean ====
/- Region 1's body run whole in the case of the first block of a batch tile (nj = 0): the scratch buffers are reset, then take the block's maximum, sum and weighted sum; no result is stored. The pieces each buffer ends with are found by the run. -/
import proofs.«103804_j5325759447207_2_alg».proof.Proof.KReg1Runs

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the inputs' at their contents, the idle results' handed back untouched, the scratch at anything —
    the body runs to the continuation holding the inputs' as they were and each stored buffer with its pieces written. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i)
    (x0 : Vec F S1024x64 .f32) (x1 : Vec F S1024x64 .f32) (x2 : Vec F S1024x64 .f32) :
    Σ' (L3 : List (View.Piece (Elt F) S1024x64 .f32)) (L4 : List (View.Piece (Elt F) S1024x1 .f32)) (L5 : List (View.Piece (Elt F) S1024x1 .f32)) (LS0 : List (View.Piece (Elt F) S1024x1 .f32)) (LS1 : List (View.Piece (Elt F) S1024x1 .f32)), { LS2 : List (View.Piece (Elt F) S1024x64 .f32) //
      ∀ (xi3 : Vec F S1024x64 .f32) (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__pass_r_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc1__pass_r_kernel_eq_skeleton, k1_part1_eq_skeleton]; unfold cc1__pass_r_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.H

end
-- ==== Proof.KReg1RunB.lean ====
/- Region 1's body run whole in the case of a middle block (0 < nj < 63): the scratch buffers are read at what the block before left and take the rescaled running values; no result is stored. The pieces each buffer ends with are found by the run. -/
import proofs.«103804_j5325759447207_2_alg».proof.Proof.KReg1Runs

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the inputs' at their contents, the idle results' handed back untouched, the scratch at what the block before left —
    the body runs to the continuation holding the inputs' as they were and each stored buffer with its pieces written. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i)
    (x0 : Vec F S1024x64 .f32) (x1 : Vec F S1024x64 .f32) (x2 : Vec F S1024x64 .f32) (xs0 : Vec F S1024x1 .f32) (xs1 : Vec F S1024x1 .f32) (xs2 : Vec F S1024x64 .f32) :
    Σ' (L3 : List (View.Piece (Elt F) S1024x64 .f32)) (L4 : List (View.Piece (Elt F) S1024x1 .f32)) (L5 : List (View.Piece (Elt F) S1024x1 .f32)) (LS0 : List (View.Piece (Elt F) S1024x1 .f32)) (LS1 : List (View.Piece (Elt F) S1024x1 .f32)), { LS2 : List (View.Piece (Elt F) S1024x64 .f32) //
      ∀ (xi3 : Vec F S1024x64 .f32) (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__pass_r_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc1__pass_r_kernel_eq_skeleton, k1_part1_eq_skeleton]; unfold cc1__pass_r_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.H

end
-- ==== Proof.KReg1RunC.lean ====
/- Region 1's body run whole in the case of the last block (nj = 63): as a middle block, and then the three results are stored from the scratch buffers. The pieces each buffer ends with are found by the run. -/
import proofs.«103804_j5325759447207_2_alg».proof.Proof.KReg1Runs

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the inputs' at their contents, the results' at anything, the scratch at what the block before left —
    the body runs to the continuation holding the inputs' as they were and each stored buffer with its pieces written. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i)
    (x0 : Vec F S1024x64 .f32) (x1 : Vec F S1024x64 .f32) (x2 : Vec F S1024x64 .f32) (xs0 : Vec F S1024x1 .f32) (xs1 : Vec F S1024x1 .f32) (xs2 : Vec F S1024x64 .f32) :
    Σ' (L3 : List (View.Piece (Elt F) S1024x64 .f32)) (L4 : List (View.Piece (Elt F) S1024x1 .f32)) (L5 : List (View.Piece (Elt F) S1024x1 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__pass_r_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1__pass_r_kernel_eq_skeleton, k1_part1_eq_skeleton]; unfold cc1__pass_r_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.H

end
-- ==== Proof.KReg1.lean ====
/- Region 1's frame half: what the three result buffers and the three scratch buffers hold after each grid point, by
   recursion on the point (the first block of a batch tile starts afresh; every later block continues from what the block
   before left in the scratch; the last block also stores the results), the invariant that names the scratch contents
   between points, the proof data, and the body obligation at every point. -/
import proofs.«103804_j5325759447207_2_alg».proof.Proof.KReg1RunA
import proofs.«103804_j5325759447207_2_alg».proof.Proof.KReg1RunB
import proofs.«103804_j5325759447207_2_alg».proof.Proof.KReg1RunC

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's stores into scratch 0 cover it. -/
theorem scover1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2).2.2.2.1 S1024x1.size (by sl_kernel_rfl) y

/-- What case A leaves in scratch 0: its pieces read back. -/
def sout1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2).2.2.2.1)

/-- Case A's stores into scratch 1 cover it. -/
theorem scover1_A_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2).2.2.2.2.1 S1024x1.size (by sl_kernel_rfl) y

/-- What case A leaves in scratch 1: its pieces read back. -/
def sout1_A_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2).2.2.2.2.1)

/-- Case A's stores into scratch 2 cover it. -/
theorem scover1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) (y : S1024x64.Idx) :
    ∃ pc ∈ (kernelRun1_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2).2.2.2.2.2.1 S1024x64.size (by sl_kernel_rfl) y

/-- What case A leaves in scratch 2: its pieces read back. -/
def sout1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : Vec F S1024x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2).2.2.2.2.2.1)

/-- Case B's stores into scratch 0 cover it. -/
theorem scover1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 xs0 xs1 xs2).2.2.2.1 S1024x1.size (by sl_kernel_rfl) y

/-- What case B leaves in scratch 0: its pieces read back. -/
def sout1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 xs0 xs1 xs2).2.2.2.1)

/-- Case B's stores into scratch 1 cover it. -/
theorem scover1_B_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 xs0 xs1 xs2).2.2.2.2.1 S1024x1.size (by sl_kernel_rfl) y

/-- What case B leaves in scratch 1: its pieces read back. -/
def sout1_B_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 xs0 xs1 xs2).2.2.2.2.1)

/-- Case B's stores into scratch 2 cover it. -/
theorem scover1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x64.Idx) :
    ∃ pc ∈ (kernelRun1_B c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 xs0 xs1 xs2).2.2.2.2.2.1 S1024x64.size (by sl_kernel_rfl) y

/-- What case B leaves in scratch 2: its pieces read back. -/
def sout1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 xs0 xs1 xs2).2.2.2.2.2.1)

/-- Case C's stores into scratch 0 cover it. -/
theorem scover1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.2.1 S1024x1.size (by sl_kernel_rfl) y

/-- What case C leaves in scratch 0: its pieces read back. -/
def sout1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 xs0 xs1 xs2).2.2.2.1)

/-- Case C's stores into scratch 1 cover it. -/
theorem scover1_C_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.2.2.1 S1024x1.size (by sl_kernel_rfl) y

/-- What case C leaves in scratch 1: its pieces read back. -/
def sout1_C_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 xs0 xs1 xs2).2.2.2.2.1)

/-- Case C's stores into scratch 2 cover it. -/
theorem scover1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.2.2.2.1 S1024x64.size (by sl_kernel_rfl) y

/-- What case C leaves in scratch 2: its pieces read back. -/
def sout1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x64 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 xs0 xs1 xs2).2.2.2.2.2.1)

/-- Case C's store into result window 3 covers its block. -/
theorem cover1_C_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).1 S1024x64.size (by sl_kernel_rfl) y

/-- What case C leaves in result window 3's staging buffer. -/
def out1_C_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x64 .f32 :=
  VO1_3.read (Elt F) (VO1_3.writes (Elt F) VO1_3.junk (kernelRun1_C c i arg2 harg2 arg3 harg3 arg4 harg4 arg5 harg5 arg6 harg6 arg7 harg7 arg8 harg8 arg9 harg9 arg10 harg10 hc0 hc1 x0 x1 x2 xs0 xs1 xs2).1)

/-- A placeholder for result window 3 at the points where it is idle and not written back: nothing consults it. -/
def idle1_3 : Vec F S1024x64 .f32 := VO1_3.read (Elt F) VO1_3.junk

/-- Case C's store into result window 4 covers its block. -/
theorem cover1_C_4 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.1 S1024x1.size (by sl_kernel_rfl) y

/-- What case C leaves in result window 4's staging buffer. -/
def out1_C_4 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 x0 x1 x2 xs0 xs1 xs2).2.1)

/-- A placeholder for result window 4 at the points where it is idle and not written back: nothing consults it. -/
def idle1_4 : Vec F S1024x1 .f32 := VO1_4.read (Elt F) VO1_4.junk

/-- Case C's store into result window 5 covers its block. -/
theorem cover1_C_5 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.1 S1024x1.size (by sl_kernel_rfl) y

/-- What case C leaves in result window 5's staging buffer. -/
def out1_C_5 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 xs0 xs1 xs2).2.2.1)

/-- A placeholder for result window 5 at the points where it is idle and not written back: nothing consults it. -/
def idle1_5 : Vec F S1024x1 .f32 := VO1_5.read (Elt F) VO1_5.junk

/-! ## What the buffers hold after each point -/

/-- After the body at position n: the three result buffers (placeholders where idle) and the three scratch buffers. -/
def outsAt1 (c : Dev nD) : (n : ℕ) → n < cfg1.N → Vec F S1024x64 .f32 × Vec F S1024x1 .f32 × Vec F S1024x1 .f32 × Vec F S1024x1 .f32 × Vec F S1024x1 .f32 × Vec F S1024x64 .f32
  | 0, hn => (idle1_3, idle1_4, idle1_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : (n + 1) % 64 = 63 then
        False.elim (by omega)
      else
        (idle1_3, idle1_4, idle1_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 64 = 63 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)
      else
        (idle1_3, idle1_4, idle1_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)

theorem outsAt1_A (c : Dev nD) (t : Fin cfg1.N) (h0 : t.val % 64 = 0) (h1 : ¬t.val % 64 = 63) :
    outsAt1 V c t.val t.isLt = (idle1_3, idle1_4, idle1_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 64 = 0) (h1 : ¬t.val % 64 = 63) :
    outsAt1 V c t.val t.isLt = (idle1_3, idle1_4, idle1_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 64 = 0) (h1 : t.val % 64 = 63) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at the first point the class invariant (every scratch at anything); afterwards the three scratch
    buffers at what the point before left in them, the remaining scoped buffers unopened, the generator register at some state. -/
def PhiS1 (c : Dev nD) : (n : ℕ) → n ≤ cfg1.N → sProp 𝕄
  | 0, _ => Pipeline.ΦA spec1 c
  | n + 1, hn => iprop(iprop((owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ rest1 (F := F) c) ∗ (∃ r, prngReg c r)) := rfl

theorem PhiS1_pos (c : Dev nD) (n : ℕ) (h : n ≤ cfg1.N) (hz : n ≠ 0) :
    PhiS1 V c n h = iprop(iprop((owns (c : Thread nD τ) scM1_0 fullShare ((outsAt1 V c (n - 1) (by omega)).2.2.2.1) ∗ owns (c : Thread nD τ) scM1_1 fullShare ((outsAt1 V c (n - 1) (by omega)).2.2.2.2.1) ∗ owns (c : Thread nD τ) scM1_2 fullShare ((outsAt1 V c (n - 1) (by omega)).2.2.2.2.2)) ∗ rest1 (F := F) c) ∗ (∃ r, prngReg c r)) := by
  cases n with
  | zero => exact absurd rfl hz
  | succ n => rfl

/-! ## The proof data -/

/-- Pipeline 1's proof data on core c: the arrays as the region finds them; after the body each input's buffer at its
    block and each result's at the accumulation's component; the tracking invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the second grid coordinate says which case the point is
    in; the invariant hands the body the three scratch buffers at what the point before left (at anything at the very first
    point) and takes them back at this point's contents; an idle result buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 64 = 0
  · by_cases h1 : t.val % 64 = 63
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 3 t (idleAt1_3_A t hc0 hc1) (noFlush1_3_A t hc0 hc1)]
      rw [Dat.leavesExact_idle (dat1 V c) 4 t (idleAt1_4_A t hc0 hc1) (noFlush1_4_A t hc0 hc1)]
      rw [Dat.leavesExact_idle (dat1 V c) 5 t (idleAt1_5_A t hc0 hc1) (noFlush1_5_A t hc0 hc1)]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              isplitl [HS1]
              · unfold owns; iexists _; isplitr
                swap; · iexact HS1
                ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              unfold owns; iexists _; isplitr
              swap; · iexact HS2
              ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
            iexact Hrest
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              isplitl [HS1]
              · unfold owns; iexists _; isplitr
                swap; · iexact HS1
                ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              unfold owns; iexists _; isplitr
              swap; · iexact HS2
              ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
            iexact Hrest
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
  · by_cases h1 : t.val % 64 = 63
    · have hc0 : ¬cond1_0 (grid1.coords t) := fun h => h0 ((hcond1_0 t).mp h)
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3_C t hc0 hc1], after1_3]
      rw [show (dat1 V c).leavesExact 4 t = owns (c : Thread nD τ) (ms1_4 t) fullShare ((dat1 V c).after 4 t) from by
        unfold Dat.leavesExact; rw [liveAt1_4_C t hc0 hc1], after1_4]
      rw [show (dat1 V c).leavesExact 5 t = owns (c : Thread nD τ) (ms1_5 t) fullShare ((dat1 V c).after 5 t) from by
        unfold Dat.leavesExact; rw [liveAt1_5_C t hc0 hc1], after1_5]
      rw [outsAt1_C V c t h0 h1]
      unfold out1_C_3 out1_C_4 out1_C_5 sout1_C_0 sout1_C_1 sout1_C_2; (try dsimp only)
      have hz : t.val ≠ 0 := by omega
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            isplitl [HS1]
            · unfold owns; iexists _; isplitr
              swap; · iexact HS1
              ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            unfold owns; iexists _; isplitr
            swap; · iexact HS2
            ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
      isplitl [H4]
      · unfold owns; iexists _; isplitr
        swap; · iexact H4
        ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
      unfold owns; iexists _; isplitr
      swap; · iexact H5
      ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3_B t hc0 hc1) (noFlush1_3_B t hc0 hc1)]
      rw [Dat.leavesExact_idle (dat1 V c) 4 t (idleAt1_4_B t hc0 hc1) (noFlush1_4_B t hc0 hc1)]
      rw [Dat.leavesExact_idle (dat1 V c) 5 t (idleAt1_5_B t hc0 hc1) (noFlush1_5_B t hc0 hc1)]
      rw [outsAt1_B V c t h0 h1]
      unfold sout1_B_0 sout1_B_1 sout1_B_2; (try dsimp only)
      have hz : t.val ≠ 0 := by omega
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
          iexact Hrest
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch contents' names are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.H

end
-- ==== Proof.KReg2.lean ====
/- The class-A half of region 2 of the program (the buffer update, one output block stored whole once per point), at a
   parameter `V`: the buffer contents when the region is entered. Generic in the float type. -/
import proofs.«103804_j5325759447207_2_alg».proof.Proof.Gen.Kernel.Launch
import proofs.«103804_j5325759447207_2_alg».proof.Proof.Gen.Kernel.Skeleton
import proofs.«103804_j5325759447207_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.H

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__pass_buffer_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles -/

abbrev r2_0 : Rect S512x64 := Rect.unit (s := S512x64) ![0, 0] S512x64.size inb_S512x64_S512x64_0_0
abbrev r2_1 : Rect S2048x64 := Rect.unit (s := S2048x64) ![0, 0] S2048x64.size inb_S2048x64_S2048x64_0_0
abbrev r2_2 : Rect S2048x1 := Rect.unit (s := S2048x1) ![0, 0] S2048x1.size inb_S2048x1_S2048x1_0_0

/-! ## What the body leaves in each output window's buffer -/

/-- Window 6's staging buffer after the body, from the input blocks it reads: its one store as a piece. -/
def out2_6 (x0 : Vec F S512x64 .f32) (x1 : Vec F S512x64 .f32) (x2 : Vec F S2048x64 .f32) (x3 : Vec F S2048x64 .f32) (x4 : Vec F S2048x1 .f32) (x5 : Vec F S2048x1 .f32) : Vec F S512x64 .f32 :=
  View.canon [⟨r2_0, k2_pay1 (View.ld x1 r2_0) (k2_pay2 (View.ld x0 r2_0) (View.ld x2 r2_1) (View.ld x4 r2_2) (View.ld x5 r2_2)) (k2_pay3 (View.ld x3 r2_1)) (iota .tc S2048x64 32 [1] iota_S2048x64_d1_w32)⟩]

/-- The store is of the whole buffer, so it covers it. -/
theorem cover2_6 (p0 : Vec F S512x64 .f32) (y : S512x64.Idx) :
    ∃ pc ∈ ([⟨r2_0, p0⟩] : List (View.Piece (Elt F) S512x64 .f32)), y ∈ pc.1.set :=
  View.cover_of_tiled [⟨r2_0, p0⟩] S512x64.size (by rfl) y

/-! ## The body's triple -/

set_option maxHeartbeats 4000000 in
/-- The kernel body on whole staging memrefs, the inputs' at contents `xW` and the outputs' at anything, runs to the
    continuation holding the inputs' as they were and each output's at `out2_W` of the inputs'. -/
theorem sound_kernel2 (c : Dev nD) (E : Set ℕ) (i : grid2.Coords) (arg1 : Memref sig .tc .vmem S512x64 .f32) (harg1 : arg1.IsWhole) (arg2 : Memref sig .tc .vmem S512x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S512x64 .f32) (harg7 : arg7.IsWhole)
    (x0 : Vec F S512x64 .f32) (x1 : Vec F S512x64 .f32) (x2 : Vec F S2048x64 .f32) (x3 : Vec F S2048x64 .f32) (x4 : Vec F S2048x1 .f32) (x5 : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__pass_buffer_kernel i arg1 harg1 arg2 harg2 arg3 harg3 arg4 harg4 arg5 harg5 arg6 harg6 arg7 harg7) K := by
  simp only [cc2__pass_buffer_kernel_eq_skeleton]; unfold cc2__pass_buffer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2_6 _)

/-! ## The pipeline's proof data -/

/-- The proof data of pipeline 2 on core `c`: the arrays as the region finds them; after the body at point `t` each
    input's buffer at its block and each output's at `out2_W` of the input blocks; the class's invariant; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.KRun.lean ====
/- The run of the program from the launch to the return: the buffer contents at each segment boundary as a fold through @main
   (the four slices, then the three regions in a row), every region as a segment over one thread state, and the run's post: every
   unscoped buffer at the last boundary's contents. From it the frame (the arguments end as launched) and the two result arrays
   at what the pipelines' write-backs fold to. Generic in the float type. -/
import proofs.«103804_j5325759447207_2_alg».proof.Proof.KReg0
import proofs.«103804_j5325759447207_2_alg».proof.Proof.KReg1
import proofs.«103804_j5325759447207_2_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the four slices (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, region 2's entry contents). -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host operation and no region writes one (a region reads it through an input
    window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := (W2_arr m ρ c 7).trans (((dat0 (V1 m ρ) c).arrAt_in 7 rfl _).trans (A_eq0 (V1 m ρ) c 7))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 0).trans (((dat2 (V3 m ρ) c).arrAt_in 0 rfl _).trans (A_eq2 (V3 m ρ) c 0))
    _ = W2 m ρ c (Proc.devRef .tc main_arg6) := (W3_arr m ρ c 1).trans (((dat1 (V2 m ρ) c).arrAt_in 1 rfl _).trans (A_eq1 (V2 m ρ) c 1))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 1).trans (((dat2 (V3 m ρ) c).arrAt_in 1 rfl _).trans (A_eq2 (V3 m ρ) c 1))
    _ = W2 m ρ c (Proc.devRef .tc main_arg7) := (W3_arr m ρ c 2).trans (((dat1 (V2 m ρ) c).arrAt_in 2 rfl _).trans (A_eq1 (V2 m ρ) c 2))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents: a literal `match`, so that the pinned configuration
    at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the four slices allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W1`, left at `W2`. Its arrays split out of the
    unscoped buffers and put back at the exit contents; the generator register into the invariant and out; nothing owed;
    no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W2`, left at `W3`. Its arrays split out of the
    unscoped buffers and put back at the exit contents; the generator register into the invariant and out; nothing owed;
    no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W3`, left at `W4`. Its arrays split out of the
    unscoped buffers and put back at the exit contents; the generator register into the invariant and out; nothing owed;
    no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates, nothing
    faulting, and every final state holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: the frame claim's statement at any `F`: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

/-- THE RESULTS: the same run leaves in the two result arrays what the pipelines' write-backs fold to (region 1's window 3,
    region 2's window 6), beside the arguments as launched. -/
theorem results : θ_run defs (onTc (τ := τ) (main (F := F))) ⟨m, fun _ => 0, ρ⟩ (fun r => ∀ c : Dev nD,
      r.2.mem ((c.tc : Thread nD τ).loc main_v5_0) = (dat1 (V2 m ρ) c).arrAt 3 cfg1.N
      ∧ r.2.mem ((c.tc : Thread nD τ).loc main_v6) = (dat2 (V3 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5_0 (by decide))).trans ((W4_of_ne m ρ c main_v5_0 (by decide)).trans (W3_arr m ρ c 3)),
      (h c _ (mem_uc main_v6 (by decide))).trans (W4_arr m ρ c 6),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

end Cert.Kernel.H

end
-- ==== Proof.KIReg0.lean ====
/- The class-A half of region 0 of the program (the two projections k and m of the inputs, each stored whole once),
   at a parameter `V`: the buffer contents when the region is entered. Generic in the float type. -/
import proofs.«103804_j5325759447207_2_alg».proof.Proof.Gen.KernelIdeal.Launch
import proofs.«103804_j5325759447207_2_alg».proof.Proof.Gen.KernelIdeal.Skeleton
import proofs.«103804_j5325759447207_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.H

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__mlp_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data
    whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles -/

abbrev r0_0 : Rect S2048x512 := Rect.unit (s := S2048x512) ![0, 0] S2048x512.size inb_S2048x512_S2048x512_0_0
abbrev r0_1 : Rect S64x512 := Rect.unit (s := S64x512) ![0, 0] S64x512.size inb_S64x512_S64x512_0_0
abbrev r0_2 : Rect S64 := Rect.unit (s := S64) ![0] S64.size inb_S64_S64_0
abbrev r0_3 : Rect S2048x64 := Rect.unit (s := S2048x64) ![0, 0] S2048x64.size inb_S2048x64_S2048x64_0_0

/-! ## What the body leaves in each output window's buffer -/

/-- Window 8's staging buffer after the body, from the input blocks it reads: its one store as a piece. -/
def out0_8 (x0 : Vec F S2048x512 .f32) (x1 : Vec F S2048x512 .f32) (x2 : Vec F S64x512 .f32) (x3 : Vec F S64x512 .f32) (x4 : Vec F S64 .f32) : Vec F S2048x64 .f32 :=
  View.canon [⟨r0_3, k0_pay3 (View.ld x0 r0_0) (View.ld x1 r0_0) (View.ld x2 r0_1) (View.ld x3 r0_1) (View.ld x4 r0_2)⟩]

/-- The store is of the whole buffer, so it covers it. -/
theorem cover0_8 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

/-- Window 9's staging buffer after the body, from the input blocks it reads: its one store as a piece. -/
def out0_9 (x0 : Vec F S2048x512 .f32) (x1 : Vec F S2048x512 .f32) (x5 : Vec F S64x512 .f32) (x6 : Vec F S64x512 .f32) (x7 : Vec F S64 .f32) : Vec F S2048x64 .f32 :=
  View.canon [⟨r0_3, k0_pay4 (View.ld x0 r0_0) (View.ld x1 r0_0) (View.ld x5 r0_1) (View.ld x6 r0_1) (View.ld x7 r0_2)⟩]

/-- The store is of the whole buffer, so it covers it. -/
theorem cover0_9 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

/-! ## The body's triple -/

set_option maxHeartbeats 4000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (x0 : Vec F S2048x512 .f32) (x1 : Vec F S2048x512 .f32) (x2 : Vec F S64x512 .f32) (x3 : Vec F S64x512 .f32) (x4 : Vec F S64 .f32) (x5 : Vec F S64x512 .f32) (x6 : Vec F S64x512 .f32) (x7 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4) ∗ owns (c : Thread nD τ) arg10 fullShare (out0_9 x0 x1 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them; after the body at point `t` each
    input's buffer at its block and each output's at `out0_W` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 5 t) (iblk0 V c 6 t) (iblk0 V c 7 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KIReg1Runs.lean ====
/- Region 1 (the pass over blocks of prototype rows that carries a running row maximum, a running sum of exponentials
   and a running weighted sum in three scratch buffers): what its three control cases share. The body branches twice on
   the second grid coordinate nj: at nj = 0 it resets the three scratch buffers, at nj = 63 it stores the three results.
   Case A is nj = 0, case C is nj = 63, case B everything between. The three result windows are idle outside case C
   and written back only there. The entry contents of the TensorCore's buffers are a parameter V. -/
import proofs.«103804_j5325759447207_2_alg».proof.Proof.Gen.KernelIdeal.Launch
import proofs.«103804_j5325759447207_2_alg».proof.Proof.Gen.KernelIdeal.Skeleton
import proofs.«103804_j5325759447207_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The reset branch is taken: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

/-- The result branch is taken: the second grid coordinate is 63. -/
abbrev cond1_1 (i : grid1.Coords) : Prop := k1_cond2 i = 1#1
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle and where they are written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging and scratch memrefs -/

/-- One staging buffer of each result window, through which its contents are stated. -/
abbrev VO1_3 : View sig .tc .vmem S1024x64 .f32 := (Memref.whole cc1_stg3_0 : Memref sig .tc .vmem S1024x64 .f32).view
abbrev VO1_4 : View sig .tc .vmem S1024x1 .f32 := (Memref.whole cc1_stg4_0 : Memref sig .tc .vmem S1024x1 .f32).view
abbrev VO1_5 : View sig .tc .vmem S1024x1 .f32 := (Memref.whole cc1_stg5_0 : Memref sig .tc .vmem S1024x1 .f32).view
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The three scratch operands: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- The core's scoped buffers no window of this region stages, split at the region's own three scratch buffers. -/
theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)
            ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The remainder of the scoped rest, carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three scratch operands as memrefs owned at some contents. -/
theorem PhiA1_eq (c : Dev nD) :
    (Pipeline.ΦA spec1 c : sProp 𝕄)
      = iprop(iprop(((∃ d, owns (c : Thread nD τ) scM1_0 fullShare d) ∗ (∃ d, owns (c : Thread nD τ) scM1_1 fullShare d) ∗ (∃ d, owns (c : Thread nD τ) scM1_2 fullShare d))
          ∗ rest1 (F := F) c) ∗ (∃ r, prngReg c r)) := by
  unfold Pipeline.ΦA; rw [scopedRest1_split]; simp only [scM1_0, scM1_1, scM1_2, owns_whole]; try rfl

end Cert.KernelIdeal.H

end
-- ==== Proof.KIReg1RunA.lean ====
/- Region 1's body run whole in the case of the first block of a batch tile (nj = 0): the scratch buffers are reset, then take the block's maximum, sum and weighted sum; no result is stored. The pieces each buffer ends with are found by the run. -/
import proofs.«103804_j5325759447207_2_alg».proof.Proof.KIReg1Runs

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the inputs' at their contents, the idle results' handed back untouched, the scratch at anything —
    the body runs to the continuation holding the inputs' as they were and each stored buffer with its pieces written. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i)
    (x0 : Vec F S1024x64 .f32) (x1 : Vec F S1024x64 .f32) (x2 : Vec F S1024x64 .f32) :
    Σ' (L3 : List (View.Piece (Elt F) S1024x64 .f32)) (L4 : List (View.Piece (Elt F) S1024x1 .f32)) (L5 : List (View.Piece (Elt F) S1024x1 .f32)) (LS0 : List (View.Piece (Elt F) S1024x1 .f32)) (LS1 : List (View.Piece (Elt F) S1024x1 .f32)), { LS2 : List (View.Piece (Elt F) S1024x64 .f32) //
      ∀ (xi3 : Vec F S1024x64 .f32) (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__pass_r_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc1__pass_r_kernel_eq_skeleton, k1_part1_eq_skeleton]; unfold cc1__pass_r_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.H

end
-- ==== Proof.KIReg1RunB.lean ====
/- Region 1's body run whole in the case of a middle block (0 < nj < 63): the scratch buffers are read at what the block before left and take the rescaled running values; no result is stored. The pieces each buffer ends with are found by the run. -/
import proofs.«103804_j5325759447207_2_alg».proof.Proof.KIReg1Runs

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the inputs' at their contents, the idle results' handed back untouched, the scratch at what the block before left —
    the body runs to the continuation holding the inputs' as they were and each stored buffer with its pieces written. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i)
    (x0 : Vec F S1024x64 .f32) (x1 : Vec F S1024x64 .f32) (x2 : Vec F S1024x64 .f32) (xs0 : Vec F S1024x1 .f32) (xs1 : Vec F S1024x1 .f32) (xs2 : Vec F S1024x64 .f32) :
    Σ' (L3 : List (View.Piece (Elt F) S1024x64 .f32)) (L4 : List (View.Piece (Elt F) S1024x1 .f32)) (L5 : List (View.Piece (Elt F) S1024x1 .f32)) (LS0 : List (View.Piece (Elt F) S1024x1 .f32)) (LS1 : List (View.Piece (Elt F) S1024x1 .f32)), { LS2 : List (View.Piece (Elt F) S1024x64 .f32) //
      ∀ (xi3 : Vec F S1024x64 .f32) (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__pass_r_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc1__pass_r_kernel_eq_skeleton, k1_part1_eq_skeleton]; unfold cc1__pass_r_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.H

end
-- ==== Proof.KIReg1RunC.lean ====
/- Region 1's body run whole in the case of the last block (nj = 63): as a middle block, and then the three results are stored from the scratch buffers. The pieces each buffer ends with are found by the run. -/
import proofs.«103804_j5325759447207_2_alg».proof.Proof.KIReg1Runs

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the inputs' at their contents, the results' at anything, the scratch at what the block before left —
    the body runs to the continuation holding the inputs' as they were and each stored buffer with its pieces written. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i)
    (x0 : Vec F S1024x64 .f32) (x1 : Vec F S1024x64 .f32) (x2 : Vec F S1024x64 .f32) (xs0 : Vec F S1024x1 .f32) (xs1 : Vec F S1024x1 .f32) (xs2 : Vec F S1024x64 .f32) :
    Σ' (L3 : List (View.Piece (Elt F) S1024x64 .f32)) (L4 : List (View.Piece (Elt F) S1024x1 .f32)) (L5 : List (View.Piece (Elt F) S1024x1 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__pass_r_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1__pass_r_kernel_eq_skeleton, k1_part1_eq_skeleton]; unfold cc1__pass_r_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.H

end
-- ==== Proof.KIReg1.lean ====
/- Region 1's frame half: what the three result buffers and the three scratch buffers hold after each grid point, by
   recursion on the point (the first block of a batch tile starts afresh; every later block continues from what the block
   before left in the scratch; the last block also stores the results), the invariant that names the scratch contents
   between points, the proof data, and the body obligation at every point. -/
import proofs.«103804_j5325759447207_2_alg».proof.Proof.KIReg1RunA
import proofs.«103804_j5325759447207_2_alg».proof.Proof.KIReg1RunB
import proofs.«103804_j5325759447207_2_alg».proof.Proof.KIReg1RunC

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's stores into scratch 0 cover it. -/
theorem scover1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2).2.2.2.1 S1024x1.size (by sl_kernel_rfl) y

/-- What case A leaves in scratch 0: its pieces read back. -/
def sout1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2).2.2.2.1)

/-- Case A's stores into scratch 1 cover it. -/
theorem scover1_A_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2).2.2.2.2.1 S1024x1.size (by sl_kernel_rfl) y

/-- What case A leaves in scratch 1: its pieces read back. -/
def sout1_A_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2).2.2.2.2.1)

/-- Case A's stores into scratch 2 cover it. -/
theorem scover1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) (y : S1024x64.Idx) :
    ∃ pc ∈ (kernelRun1_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2).2.2.2.2.2.1 S1024x64.size (by sl_kernel_rfl) y

/-- What case A leaves in scratch 2: its pieces read back. -/
def sout1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : Vec F S1024x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2).2.2.2.2.2.1)

/-- Case B's stores into scratch 0 cover it. -/
theorem scover1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 xs0 xs1 xs2).2.2.2.1 S1024x1.size (by sl_kernel_rfl) y

/-- What case B leaves in scratch 0: its pieces read back. -/
def sout1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 xs0 xs1 xs2).2.2.2.1)

/-- Case B's stores into scratch 1 cover it. -/
theorem scover1_B_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 xs0 xs1 xs2).2.2.2.2.1 S1024x1.size (by sl_kernel_rfl) y

/-- What case B leaves in scratch 1: its pieces read back. -/
def sout1_B_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 xs0 xs1 xs2).2.2.2.2.1)

/-- Case B's stores into scratch 2 cover it. -/
theorem scover1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x64.Idx) :
    ∃ pc ∈ (kernelRun1_B c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 xs0 xs1 xs2).2.2.2.2.2.1 S1024x64.size (by sl_kernel_rfl) y

/-- What case B leaves in scratch 2: its pieces read back. -/
def sout1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 xs0 xs1 xs2).2.2.2.2.2.1)

/-- Case C's stores into scratch 0 cover it. -/
theorem scover1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.2.1 S1024x1.size (by sl_kernel_rfl) y

/-- What case C leaves in scratch 0: its pieces read back. -/
def sout1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 xs0 xs1 xs2).2.2.2.1)

/-- Case C's stores into scratch 1 cover it. -/
theorem scover1_C_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.2.2.1 S1024x1.size (by sl_kernel_rfl) y

/-- What case C leaves in scratch 1: its pieces read back. -/
def sout1_C_1 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 xs0 xs1 xs2).2.2.2.2.1)

/-- Case C's stores into scratch 2 cover it. -/
theorem scover1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.2.2.2.1 S1024x64.size (by sl_kernel_rfl) y

/-- What case C leaves in scratch 2: its pieces read back. -/
def sout1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x64 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 xs0 xs1 xs2).2.2.2.2.2.1)

/-- Case C's store into result window 3 covers its block. -/
theorem cover1_C_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x64.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).1 S1024x64.size (by sl_kernel_rfl) y

/-- What case C leaves in result window 3's staging buffer. -/
def out1_C_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x64 .f32 :=
  VO1_3.read (Elt F) (VO1_3.writes (Elt F) VO1_3.junk (kernelRun1_C c i arg2 harg2 arg3 harg3 arg4 harg4 arg5 harg5 arg6 harg6 arg7 harg7 arg8 harg8 arg9 harg9 arg10 harg10 hc0 hc1 x0 x1 x2 xs0 xs1 xs2).1)

/-- A placeholder for result window 3 at the points where it is idle and not written back: nothing consults it. -/
def idle1_3 : Vec F S1024x64 .f32 := VO1_3.read (Elt F) VO1_3.junk

/-- Case C's store into result window 4 covers its block. -/
theorem cover1_C_4 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.1 S1024x1.size (by sl_kernel_rfl) y

/-- What case C leaves in result window 4's staging buffer. -/
def out1_C_4 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 x0 x1 x2 xs0 xs1 xs2).2.1)

/-- A placeholder for result window 4 at the points where it is idle and not written back: nothing consults it. -/
def idle1_4 : Vec F S1024x1 .f32 := VO1_4.read (Elt F) VO1_4.junk

/-- Case C's store into result window 5 covers its block. -/
theorem cover1_C_5 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 xs0 xs1 xs2).2.2.1 S1024x1.size (by sl_kernel_rfl) y

/-- What case C leaves in result window 5's staging buffer. -/
def out1_C_5 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : Vec F S1024x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 xs0 xs1 xs2).2.2.1)

/-- A placeholder for result window 5 at the points where it is idle and not written back: nothing consults it. -/
def idle1_5 : Vec F S1024x1 .f32 := VO1_5.read (Elt F) VO1_5.junk

/-! ## What the buffers hold after each point -/

/-- After the body at position n: the three result buffers (placeholders where idle) and the three scratch buffers. -/
def outsAt1 (c : Dev nD) : (n : ℕ) → n < cfg1.N → Vec F S1024x64 .f32 × Vec F S1024x1 .f32 × Vec F S1024x1 .f32 × Vec F S1024x1 .f32 × Vec F S1024x1 .f32 × Vec F S1024x64 .f32
  | 0, hn => (idle1_3, idle1_4, idle1_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : (n + 1) % 64 = 63 then
        False.elim (by omega)
      else
        (idle1_3, idle1_4, idle1_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 64 = 63 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)
      else
        (idle1_3, idle1_4, idle1_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)

theorem outsAt1_A (c : Dev nD) (t : Fin cfg1.N) (h0 : t.val % 64 = 0) (h1 : ¬t.val % 64 = 63) :
    outsAt1 V c t.val t.isLt = (idle1_3, idle1_4, idle1_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 64 = 0) (h1 : ¬t.val % 64 = 63) :
    outsAt1 V c t.val t.isLt = (idle1_3, idle1_4, idle1_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 64 = 0) (h1 : t.val % 64 = 63) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at the first point the class invariant (every scratch at anything); afterwards the three scratch
    buffers at what the point before left in them, the remaining scoped buffers unopened, the generator register at some state. -/
def PhiS1 (c : Dev nD) : (n : ℕ) → n ≤ cfg1.N → sProp 𝕄
  | 0, _ => Pipeline.ΦA spec1 c
  | n + 1, hn => iprop(iprop((owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ rest1 (F := F) c) ∗ (∃ r, prngReg c r)) := rfl

theorem PhiS1_pos (c : Dev nD) (n : ℕ) (h : n ≤ cfg1.N) (hz : n ≠ 0) :
    PhiS1 V c n h = iprop(iprop((owns (c : Thread nD τ) scM1_0 fullShare ((outsAt1 V c (n - 1) (by omega)).2.2.2.1) ∗ owns (c : Thread nD τ) scM1_1 fullShare ((outsAt1 V c (n - 1) (by omega)).2.2.2.2.1) ∗ owns (c : Thread nD τ) scM1_2 fullShare ((outsAt1 V c (n - 1) (by omega)).2.2.2.2.2)) ∗ rest1 (F := F) c) ∗ (∃ r, prngReg c r)) := by
  cases n with
  | zero => exact absurd rfl hz
  | succ n => rfl

/-! ## The proof data -/

/-- Pipeline 1's proof data on core c: the arrays as the region finds them; after the body each input's buffer at its
    block and each result's at the accumulation's component; the tracking invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the second grid coordinate says which case the point is
    in; the invariant hands the body the three scratch buffers at what the point before left (at anything at the very first
    point) and takes them back at this point's contents; an idle result buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 64 = 0
  · by_cases h1 : t.val % 64 = 63
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 3 t (idleAt1_3_A t hc0 hc1) (noFlush1_3_A t hc0 hc1)]
      rw [Dat.leavesExact_idle (dat1 V c) 4 t (idleAt1_4_A t hc0 hc1) (noFlush1_4_A t hc0 hc1)]
      rw [Dat.leavesExact_idle (dat1 V c) 5 t (idleAt1_5_A t hc0 hc1) (noFlush1_5_A t hc0 hc1)]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              isplitl [HS1]
              · unfold owns; iexists _; isplitr
                swap; · iexact HS1
                ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              unfold owns; iexists _; isplitr
              swap; · iexact HS2
              ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
            iexact Hrest
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              isplitl [HS1]
              · unfold owns; iexists _; isplitr
                swap; · iexact HS1
                ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
              unfold owns; iexists _; isplitr
              swap; · iexact HS2
              ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t))
            iexact Hrest
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
  · by_cases h1 : t.val % 64 = 63
    · have hc0 : ¬cond1_0 (grid1.coords t) := fun h => h0 ((hcond1_0 t).mp h)
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3_C t hc0 hc1], after1_3]
      rw [show (dat1 V c).leavesExact 4 t = owns (c : Thread nD τ) (ms1_4 t) fullShare ((dat1 V c).after 4 t) from by
        unfold Dat.leavesExact; rw [liveAt1_4_C t hc0 hc1], after1_4]
      rw [show (dat1 V c).leavesExact 5 t = owns (c : Thread nD τ) (ms1_5 t) fullShare ((dat1 V c).after 5 t) from by
        unfold Dat.leavesExact; rw [liveAt1_5_C t hc0 hc1], after1_5]
      rw [outsAt1_C V c t h0 h1]
      unfold out1_C_3 out1_C_4 out1_C_5 sout1_C_0 sout1_C_1 sout1_C_2; (try dsimp only)
      have hz : t.val ≠ 0 := by omega
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            isplitl [HS1]
            · unfold owns; iexists _; isplitr
              swap; · iexact HS1
              ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            unfold owns; iexists _; isplitr
            swap; · iexact HS2
            ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
      isplitl [H4]
      · unfold owns; iexists _; isplitr
        swap; · iexact H4
        ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
      unfold owns; iexists _; isplitr
      swap; · iexact H5
      ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3_B t hc0 hc1) (noFlush1_3_B t hc0 hc1)]
      rw [Dat.leavesExact_idle (dat1 V c) 4 t (idleAt1_4_B t hc0 hc1) (noFlush1_4_B t hc0 hc1)]
      rw [Dat.leavesExact_idle (dat1 V c) 5 t (idleAt1_5_B t hc0 hc1) (noFlush1_5_B t hc0 hc1)]
      rw [outsAt1_B V c t h0 h1]
      unfold sout1_B_0 sout1_B_1 sout1_B_2; (try dsimp only)
      have hz : t.val ≠ 0 := by omega
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
            unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) _ _ _)
          iexact Hrest
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch contents' names are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.H

end
-- ==== Proof.KIReg2.lean ====
/- The class-A half of region 2 of the program (the buffer update, one output block stored whole once per point), at a
   parameter `V`: the buffer contents when the region is entered. Generic in the float type. -/
import proofs.«103804_j5325759447207_2_alg».proof.Proof.Gen.KernelIdeal.Launch
import proofs.«103804_j5325759447207_2_alg».proof.Proof.Gen.KernelIdeal.Skeleton
import proofs.«103804_j5325759447207_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.H

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__pass_buffer_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles -/

abbrev r2_0 : Rect S512x64 := Rect.unit (s := S512x64) ![0, 0] S512x64.size inb_S512x64_S512x64_0_0
abbrev r2_1 : Rect S2048x64 := Rect.unit (s := S2048x64) ![0, 0] S2048x64.size inb_S2048x64_S2048x64_0_0
abbrev r2_2 : Rect S2048x1 := Rect.unit (s := S2048x1) ![0, 0] S2048x1.size inb_S2048x1_S2048x1_0_0

/-! ## What the body leaves in each output window's buffer -/

/-- Window 6's staging buffer after the body, from the input blocks it reads: its one store as a piece. -/
def out2_6 (x0 : Vec F S512x64 .f32) (x1 : Vec F S512x64 .f32) (x2 : Vec F S2048x64 .f32) (x3 : Vec F S2048x64 .f32) (x4 : Vec F S2048x1 .f32) (x5 : Vec F S2048x1 .f32) : Vec F S512x64 .f32 :=
  View.canon [⟨r2_0, k2_pay1 (View.ld x1 r2_0) (k2_pay2 (View.ld x0 r2_0) (View.ld x2 r2_1) (View.ld x4 r2_2) (View.ld x5 r2_2)) (k2_pay3 (View.ld x3 r2_1)) (iota .tc S2048x64 32 [1] iota_S2048x64_d1_w32)⟩]

/-- The store is of the whole buffer, so it covers it. -/
theorem cover2_6 (p0 : Vec F S512x64 .f32) (y : S512x64.Idx) :
    ∃ pc ∈ ([⟨r2_0, p0⟩] : List (View.Piece (Elt F) S512x64 .f32)), y ∈ pc.1.set :=
  View.cover_of_tiled [⟨r2_0, p0⟩] S512x64.size (by rfl) y

/-! ## The body's triple -/

set_option maxHeartbeats 4000000 in
/-- The kernel body on whole staging memrefs, the inputs' at contents `xW` and the outputs' at anything, runs to the
    continuation holding the inputs' as they were and each output's at `out2_W` of the inputs'. -/
theorem sound_kernel2 (c : Dev nD) (E : Set ℕ) (i : grid2.Coords) (arg1 : Memref sig .tc .vmem S512x64 .f32) (harg1 : arg1.IsWhole) (arg2 : Memref sig .tc .vmem S512x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S512x64 .f32) (harg7 : arg7.IsWhole)
    (x0 : Vec F S512x64 .f32) (x1 : Vec F S512x64 .f32) (x2 : Vec F S2048x64 .f32) (x3 : Vec F S2048x64 .f32) (x4 : Vec F S2048x1 .f32) (x5 : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__pass_buffer_kernel i arg1 harg1 arg2 harg2 arg3 harg3 arg4 harg4 arg5 harg5 arg6 harg6 arg7 harg7) K := by
  simp only [cc2__pass_buffer_kernel_eq_skeleton]; unfold cc2__pass_buffer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2_6 _)

/-! ## The pipeline's proof data -/

/-- The proof data of pipeline 2 on core `c`: the arrays as the region finds them; after the body at point `t` each
    input's buffer at its block and each output's at `out2_W` of the input blocks; the class's invariant; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KIRun.lean ====
/- The run of the program from the launch to the return: the buffer contents at each segment boundary as a fold through @main
   (the four slices, then the three regions in a row), every region as a segment over one thread state, and the run's post: every
   unscoped buffer at the last boundary's contents. From it the frame (the arguments end as launched) and the two result arrays
   at what the pipelines' write-backs fold to. Generic in the float type. -/
import proofs.«103804_j5325759447207_2_alg».proof.Proof.KIReg0
import proofs.«103804_j5325759447207_2_alg».proof.Proof.KIReg1
import proofs.«103804_j5325759447207_2_alg».proof.Proof.KIReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the four slices (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, region 2's entry contents). -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host operation and no region writes one (a region reads it through an input
    window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := (W2_arr m ρ c 7).trans (((dat0 (V1 m ρ) c).arrAt_in 7 rfl _).trans (A_eq0 (V1 m ρ) c 7))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 0).trans (((dat2 (V3 m ρ) c).arrAt_in 0 rfl _).trans (A_eq2 (V3 m ρ) c 0))
    _ = W2 m ρ c (Proc.devRef .tc main_arg6) := (W3_arr m ρ c 1).trans (((dat1 (V2 m ρ) c).arrAt_in 1 rfl _).trans (A_eq1 (V2 m ρ) c 1))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 1).trans (((dat2 (V3 m ρ) c).arrAt_in 1 rfl _).trans (A_eq2 (V3 m ρ) c 1))
    _ = W2 m ρ c (Proc.devRef .tc main_arg7) := (W3_arr m ρ c 2).trans (((dat1 (V2 m ρ) c).arrAt_in 2 rfl _).trans (A_eq1 (V2 m ρ) c 2))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents: a literal `match`, so that the pinned configuration
    at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the four slices allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W1`, left at `W2`. Its arrays split out of the
    unscoped buffers and put back at the exit contents; the generator register into the invariant and out; nothing owed;
    no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W2`, left at `W3`. Its arrays split out of the
    unscoped buffers and put back at the exit contents; the generator register into the invariant and out; nothing owed;
    no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W3`, left at `W4`. Its arrays split out of the
    unscoped buffers and put back at the exit contents; the generator register into the invariant and out; nothing owed;
    no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates, nothing
    faulting, and every final state holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: the frame claim's statement at any `F`: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

/-- THE RESULTS: the same run leaves in the two result arrays what the pipelines' write-backs fold to (region 1's window 3,
    region 2's window 6), beside the arguments as launched. -/
theorem results : θ_run defs (onTc (τ := τ) (main (F := F))) ⟨m, fun _ => 0, ρ⟩ (fun r => ∀ c : Dev nD,
      r.2.mem ((c.tc : Thread nD τ).loc main_v5_0) = (dat1 (V2 m ρ) c).arrAt 3 cfg1.N
      ∧ r.2.mem ((c.tc : Thread nD τ).loc main_v6) = (dat2 (V3 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5_0 (by decide))).trans ((W4_of_ne m ρ c main_v5_0 (by decide)).trans (W3_arr m ρ c 3)),
      (h c _ (mem_uc main_v6 (by decide))).trans (W4_arr m ρ c 6),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run_main m ρ)

end Cert.KernelIdeal.H

end
-- ==== Proof.Spec.lean ====
/-
  The specification: what the two programs compute, as functions of the eight argument arrays on the extended reals,
  entry by entry, over literal extents (batch 2048, input halves 512 + 512, key / value width 64, bins 65536).

  k[b,d]  = (∑ j<512, x[b,j]·Wk[d,j] + ∑ j<512, ctx[b,j]·Wk[d,512+j]) + bk[d]          (and m likewise from Wc, bc)
  s[b,n]  = (0 − ((∑ d, k[b,d]² + ∑ d, p[n,d]²) − 2·∑ d, k[b,d]·p[n,d])) / 1            (minus the squared distance)
  mx[b]   = max (−∞) (max over n of s[b,n]),   e[b,n] = exp (s[b,n] − mx[b]),   l[b] = 0 + ∑ n, e[b,n]
  a[b,n]  = e[b,n] / l[b]                                                                  (the softmax weights)
  r[b,d]  = ∑ n, a[b,n]·buf[n,d]
  nb[n,d] = buf[n,d] + λ·(∑ b, a[b,n]·m[b,d] − (0 + ∑ b, a[b,n])·buf[n,d])
  The literals 2, 1 and λ are kept as the bit patterns both programs print.
-/
import Idealize.ShloMosaic.PureOps.Ideal.Laws
import Idealize.ShloMosaic.Lib.ValueIdx

noncomputable section

namespace Cert.Spec

open Idealize.ShloMosaic Idealize.ShloMosaic.ValueIdx

/-- A rank-two array of extended reals of literal extents. -/
abbrev A2 (a b : Nat) : Type := (⟨2, ![a, b]⟩ : Shape).Idx → EReal
/-- A rank-one array of extended reals of literal extent. -/
abbrev A1 (a : Nat) : Type := (⟨1, ![a]⟩ : Shape).Idx → EReal

/-- The literals both programs print. -/
def two : EReal := Ideal.ofBits .f32 0x40000000#32
def one : EReal := Ideal.ofBits .f32 0x3F800000#32
def lam : EReal := Ideal.ofBits .f32 0x384CCCCD#32

/-- A projection with the weight's two column halves given apart: `(x·wxᵀ + c·wcᵀ) + bias`. -/
def proj2 (x c : A2 2048 512) (wx wc : A2 64 512) (bias : A1 64) (b : Fin 2048) (d : Fin 64) : EReal :=
  ((∑ j : Fin 512, x (ix2 b j) * wx (ix2 d j)) + ∑ j : Fin 512, c (ix2 b j) * wc (ix2 d j)) + bias (ix1 d)

/-- The left and right column halves of a 64 × 1024 weight. -/
def halfL (W : A2 64 1024) : A2 64 512 := fun i => W (ix2 (n0 := 64) (n1 := 1024) ⟨(i 0).val, (i 0).isLt⟩ ⟨(i 1).val, by have h : (i 1).val < 512 := (i 1).isLt; omega⟩)
def halfR (W : A2 64 1024) : A2 64 512 := fun i => W (ix2 (n0 := 64) (n1 := 1024) ⟨(i 0).val, (i 0).isLt⟩ ⟨512 + (i 1).val, by have h : (i 1).val < 512 := (i 1).isLt; omega⟩)

/-- The projection of the concatenated input `[x | c]` by a 64 × 1024 weight. -/
def proj (x c : A2 2048 512) (W : A2 64 1024) (bias : A1 64) (b : Fin 2048) (d : Fin 64) : EReal :=
  proj2 x c (halfL W) (halfR W) bias b d

/-- Minus the squared distance between key row `b` and prototype row `n`, as both programs spell it. -/
def score (k : Fin 2048 → Fin 64 → EReal) (p : A2 65536 64) (b : Fin 2048) (n : Fin 65536) : EReal :=
  Ideal.div (0 - (((∑ d : Fin 64, k b d * k b d) + ∑ d : Fin 64, p (ix2 n d) * p (ix2 n d))
    - two * ∑ d : Fin 64, k b d * p (ix2 n d))) one

/-- A row's maximum score (folded from `−∞`, then once more against `−∞`). -/
def rowMax (s : Fin 2048 → Fin 65536 → EReal) (b : Fin 2048) : EReal :=
  max ⊥ ((Finset.univ : Finset (Fin 65536)).fold max ⊥ (s b))

/-- The unnormalised weight. -/
def expw (s : Fin 2048 → Fin 65536 → EReal) (b : Fin 2048) (n : Fin 65536) : EReal := Ideal.exp (s b n - rowMax s b)

/-- A row's sum of unnormalised weights. -/
def rowSum (s : Fin 2048 → Fin 65536 → EReal) (b : Fin 2048) : EReal := 0 + ∑ n : Fin 65536, expw s b n

/-- The softmax weight. -/
def attn (s : Fin 2048 → Fin 65536 → EReal) (b : Fin 2048) (n : Fin 65536) : EReal := Ideal.div (expw s b n) (rowSum s b)

/-- The retrieved value. -/
def retrieved (s : Fin 2048 → Fin 65536 → EReal) (buf : A2 65536 64) (b : Fin 2048) (d : Fin 64) : EReal :=
  ∑ n : Fin 65536, attn s b n * buf (ix2 n d)

/-- The updated buffer. -/
def updated (s : Fin 2048 → Fin 65536 → EReal) (m : Fin 2048 → Fin 64 → EReal) (buf : A2 65536 64) (n : Fin 65536) (d : Fin 64) : EReal :=
  buf (ix2 n d) + lam * ((∑ b : Fin 2048, attn s b n * m b d) - (0 + ∑ b : Fin 2048, attn s b n) * buf (ix2 n d))

/-- The first result, from the arguments. -/
def R (x c : A2 2048 512) (Wk : A2 64 1024) (bk : A1 64) (p buf : A2 65536 64) : A2 2048 64 := fun i =>
  retrieved (score (proj x c Wk bk) p) buf (i 0) (i 1)

/-- The second result, from the arguments. -/
def NB (x c : A2 2048 512) (Wk : A2 64 1024) (bk : A1 64) (Wc : A2 64 1024) (bc : A1 64) (p buf : A2 65536 64) : A2 65536 64 := fun i =>
  updated (score (proj x c Wk bk) p) (proj x c Wc bc) buf (i 0) (i 1)

end Cert.Spec

end
-- ==== Proof.KIGlue.lean ====
/- The buffer contents at the run's boundaries, array by array: what the four slices leave (the column halves of the two
   weights), what each region's entry contents hold of the arguments and of the earlier regions' results. -/
import proofs.«103804_j5325759447207_2_alg».proof.Proof.KIRun
import proofs.«103804_j5325759447207_2_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.SL.Sem
open Idealize.ShloMosaic.Pipeline (Dat)
open Idealize.ShloMosaic.ValueIdx

section Generic

variable {F : FTy → Type} [FloatOps F]
variable (m : (ℓ : Loc nD τ sig) → Buf (Elt F) ℓ) (ρ : Dev nD → PrngReg)

/-! ## After the four slices -/

/-- The slices write their four results only: every other buffer is as launched. -/
theorem W1_of_ne (c : Dev nD) (b : Ref sig .tc) (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3⟩))

theorem V1_main_arg0 (c : Dev nD) : V1 m ρ c main_arg0 = m ((c : Thread nD τ).loc main_arg0) :=
  W1_of_ne m ρ c main_arg0 (by decide) (by decide) (by decide) (by decide)
theorem V1_main_arg1 (c : Dev nD) : V1 m ρ c main_arg1 = m ((c : Thread nD τ).loc main_arg1) :=
  W1_of_ne m ρ c main_arg1 (by decide) (by decide) (by decide) (by decide)
theorem V1_main_arg2 (c : Dev nD) : V1 m ρ c main_arg2 = m ((c : Thread nD τ).loc main_arg2) :=
  W1_of_ne m ρ c main_arg2 (by decide) (by decide) (by decide) (by decide)
theorem V1_main_arg3 (c : Dev nD) : V1 m ρ c main_arg3 = m ((c : Thread nD τ).loc main_arg3) :=
  W1_of_ne m ρ c main_arg3 (by decide) (by decide) (by decide) (by decide)
theorem V1_main_arg4 (c : Dev nD) : V1 m ρ c main_arg4 = m ((c : Thread nD τ).loc main_arg4) :=
  W1_of_ne m ρ c main_arg4 (by decide) (by decide) (by decide) (by decide)
theorem V1_main_arg5 (c : Dev nD) : V1 m ρ c main_arg5 = m ((c : Thread nD τ).loc main_arg5) :=
  W1_of_ne m ρ c main_arg5 (by decide) (by decide) (by decide) (by decide)
theorem V1_main_arg6 (c : Dev nD) : V1 m ρ c main_arg6 = m ((c : Thread nD τ).loc main_arg6) :=
  W1_of_ne m ρ c main_arg6 (by decide) (by decide) (by decide) (by decide)
theorem V1_main_arg7 (c : Dev nD) : V1 m ρ c main_arg7 = m ((c : Thread nD τ).loc main_arg7) :=
  W1_of_ne m ρ c main_arg7 (by decide) (by decide) (by decide) (by decide)

/-- The slices' results: the column halves of the two weights. -/
theorem V1_main_v0 (c : Dev nD) : V1 m ρ c main_v0 = extractStridedSlice S64x512 ![0, 0] (m ((c : Thread nD τ).loc main_arg2)) slices_S64x1024_S64x512_0_0 := by
  show StableHlo.after hostOps0 (W0 m ρ c) (Proc.devRef .tc main_v0) = _
  after_results
theorem V1_main_v1 (c : Dev nD) : V1 m ρ c main_v1 = extractStridedSlice S64x512 ![0, 512] (m ((c : Thread nD τ).loc main_arg2)) slices_S64x1024_S64x512_0_512 := by
  show StableHlo.after hostOps0 (W0 m ρ c) (Proc.devRef .tc main_v1) = _
  after_results
theorem V1_main_v2 (c : Dev nD) : V1 m ρ c main_v2 = extractStridedSlice S64x512 ![0, 0] (m ((c : Thread nD τ).loc main_arg4)) slices_S64x1024_S64x512_0_0 := by
  show StableHlo.after hostOps0 (W0 m ρ c) (Proc.devRef .tc main_v2) = _
  after_results
theorem V1_main_v3 (c : Dev nD) : V1 m ρ c main_v3 = extractStridedSlice S64x512 ![0, 512] (m ((c : Thread nD τ).loc main_arg4)) slices_S64x1024_S64x512_0_512 := by
  show StableHlo.after hostOps0 (W0 m ρ c) (Proc.devRef .tc main_v3) = _
  after_results

/-! ## At region 1's entry -/

theorem V2_main_v4_0 (c : Dev nD) : V2 m ρ c main_v4_0 = (dat0 (V1 m ρ) c).arrAt 8 cfg0.N := W2_arr m ρ c 8
theorem V2_main_v4_1 (c : Dev nD) : V2 m ρ c main_v4_1 = (dat0 (V1 m ρ) c).arrAt 9 cfg0.N := W2_arr m ρ c 9
theorem V2_main_arg6 (c : Dev nD) : V2 m ρ c main_arg6 = m ((c : Thread nD τ).loc main_arg6) :=
  (W2_of_ne m ρ c main_arg6 (by decide)).trans (V1_main_arg6 m ρ c)
theorem V2_main_arg7 (c : Dev nD) : V2 m ρ c main_arg7 = m ((c : Thread nD τ).loc main_arg7) :=
  (W2_of_ne m ρ c main_arg7 (by decide)).trans (V1_main_arg7 m ρ c)

/-! ## At region 2's entry -/

theorem V3_main_v4_0 (c : Dev nD) : V3 m ρ c main_v4_0 = V2 m ρ c main_v4_0 :=
  (W3_arr m ρ c 0).trans (((dat1 (V2 m ρ) c).arrAt_in 0 rfl _).trans (A_eq1 (V2 m ρ) c 0))
theorem V3_main_v4_1 (c : Dev nD) : V3 m ρ c main_v4_1 = V2 m ρ c main_v4_1 := W3_of_ne m ρ c main_v4_1 (by decide)
theorem V3_main_arg6 (c : Dev nD) : V3 m ρ c main_arg6 = m ((c : Thread nD τ).loc main_arg6) :=
  ((W3_arr m ρ c 1).trans (((dat1 (V2 m ρ) c).arrAt_in 1 rfl _).trans (A_eq1 (V2 m ρ) c 1))).trans (V2_main_arg6 m ρ c)
theorem V3_main_arg7 (c : Dev nD) : V3 m ρ c main_arg7 = m ((c : Thread nD τ).loc main_arg7) :=
  ((W3_arr m ρ c 2).trans (((dat1 (V2 m ρ) c).arrAt_in 2 rfl _).trans (A_eq1 (V2 m ρ) c 2))).trans (V2_main_arg7 m ρ c)
theorem V3_main_v5_1 (c : Dev nD) : V3 m ρ c main_v5_1 = (dat1 (V2 m ρ) c).arrAt 4 cfg1.N := W3_arr m ρ c 4
theorem V3_main_v5_2 (c : Dev nD) : V3 m ρ c main_v5_2 = (dat1 (V2 m ρ) c).arrAt 5 cfg1.N := W3_arr m ρ c 5

end Generic

/-! ## Over the extended reals: the slices are the specification's column halves -/

section AtIdeal

theorem slice_halfL (X : Cert.Spec.A2 64 1024) : extractStridedSlice S64x512 ![0, 0] X slices_S64x1024_S64x512_0_0 = Cert.Spec.halfL X := by
  funext i
  unfold Cert.Spec.halfL
  refine extractStridedSlice_apply ![0, 0] X slices_S64x1024_S64x512_0_0 i _ fun a => ?_
  match a with
  | ⟨0, _⟩ => show (i 0).val = 0 + (i 0).val; omega
  | ⟨1, _⟩ => show (i 1).val = 0 + (i 1).val; omega

theorem slice_halfR (X : Cert.Spec.A2 64 1024) : extractStridedSlice S64x512 ![0, 512] X slices_S64x1024_S64x512_0_512 = Cert.Spec.halfR X := by
  funext i
  unfold Cert.Spec.halfR
  refine extractStridedSlice_apply ![0, 512] X slices_S64x1024_S64x512_0_512 i _ fun a => ?_
  match a with
  | ⟨0, _⟩ => show (i 0).val = 0 + (i 0).val; omega
  | ⟨1, _⟩ => show 512 + (i 1).val = 512 + (i 1).val; rfl

variable (m : (ℓ : Loc nD τ sig) → Buf (Elt Ideal) ℓ) (ρ : Dev nD → PrngReg)

theorem V1_main_v0_half (c : Dev nD) : V1 m ρ c main_v0 = Cert.Spec.halfL (m ((c : Thread nD τ).loc main_arg2)) :=
  (V1_main_v0 m ρ c).trans (slice_halfL _)
theorem V1_main_v1_half (c : Dev nD) : V1 m ρ c main_v1 = Cert.Spec.halfR (m ((c : Thread nD τ).loc main_arg2)) :=
  (V1_main_v1 m ρ c).trans (slice_halfR _)
theorem V1_main_v2_half (c : Dev nD) : V1 m ρ c main_v2 = Cert.Spec.halfL (m ((c : Thread nD τ).loc main_arg4)) :=
  (V1_main_v2 m ρ c).trans (slice_halfL _)
theorem V1_main_v3_half (c : Dev nD) : V1 m ρ c main_v3 = Cert.Spec.halfR (m ((c : Thread nD τ).loc main_arg4)) :=
  (V1_main_v3 m ρ c).trans (slice_halfR _)

end AtIdeal

end Cert.KernelIdeal.H

end
-- ==== Proof.LibLayoutCols.lean ====
/-
  Layout operations, a row reduction and a matrix product READ AT AN INDEX GIVEN BY COORDINATES, in the forms a
  "keep the reduced axis as a unit column" computation meets and the library's index-by-coordinates lemmas leave out:

  * a vector [a] cast to the column [a, 1], and a column [a, 1] broadcast over [a, b]
    (the row forms [a] -> [1, a] and [1, b] -> [a, b] are the library's shapeCast_a_1a_apply and
    broadcastTo_1b_ab_apply);
  * a matrix reduced along its second axis, at the extended reals: the sum, or the fold of max, over the row;
  * a matrix product [m, k] . [k, n] accumulated into the zero splat, at the extended reals: the sum over the
    contracted coordinate of the products.
  All general in the extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutCols

open Idealize.ShloMosaic Idealize.ShloMosaic.ValueIdx

variable {α : Type}

/-! ## A unit column -/

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix reduced along its second axis, at the extended reals -/

/-- Over a matrix reduced along axis 1, the source index above row r with the coordinate q put back is (r, q). -/
theorem lift_axis1 {a b : ℕ} (h : (⟨2, ![a, b]⟩ : Shape).Reduces [1] ⟨1, ![a]⟩) (r : Fin a) (q : Fin b) :
    h.lift (ix1 r) q = ix2 r q :=
  funext fun c => Fin.ext (by
    match c with
    | ⟨0, _⟩ => rfl
    | ⟨1, _⟩ => rfl)

/-- A sum-reduction of an f32 matrix along axis 1 from the zero pattern reads, at row r, the sum of that row. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ q : Fin b, src (ix2 r q) :=
  (Ideal.multiReduction_add_single src 0x00000000#32 h hφ hacc (ix1 r)).trans
    (Finset.sum_congr rfl fun q _ => congrArg src (lift_axis1 h r q))

/-- The f32 pattern of minus infinity is the bottom of the extended reals. -/
theorem ofBits_neg_inf_f32 : Ideal.ofBits .f32 0xFF800000#32 = ⊥ := by simp [Ideal.ofBits, Ideal.ieee]

/-- A max-reduction of an f32 matrix along axis 1 from the minus-infinity pattern reads, at row r, the fold of max
    from the bottom over that row. -/
theorem multiReduction_maximumf_axis1_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max ⊥ (fun q => src (ix2 r q)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [ofBits_neg_inf_f32]
  exact congrArg (fun f => (Finset.univ : Finset (Fin b)).fold max ⊥ f) (funext fun q => congrArg src (lift_axis1 h r q))

/-! ## A matrix product into the zero splat, at the extended reals -/

section Plain
variable {m k n : ℕ}

/-- The dimension numbers of a plain matrix product [m, k] . [k, n]: contract the first operand's columns with the
    second's rows, no batch axis. -/
abbrev plainOf (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

variable (wf : DotDims.WF ⟨2, ![m, k]⟩ ⟨2, ![k, n]⟩ ⟨2, ![m, n]⟩ [1] [0] [0] [1] [] [])

/-- The first operand's row is the result's row ... -/
theorem plain_lhs0 (j : (⟨2, ![m, n]⟩ : Shape).Idx) (qq : (plainOf wf).contr.Idx) :
    ((plainOf wf).lhsIdx j qq 0).val = (j 0).val := by
  unfold DotDims.lhsIdx
  rw [dif_neg (show ¬(0 : Fin (⟨2, ![m, k]⟩ : Shape).rank) ∈ (plainOf wf).lhsBatch from List.not_mem_nil),
    dif_pos (show (0 : Fin (⟨2, ![m, k]⟩ : Shape).rank) ∈ (plainOf wf).lhsNonContracting from List.mem_singleton.mpr rfl)]
  rfl
/-- ... its column the contracted coordinate; -/
theorem plain_lhs1 (j : (⟨2, ![m, n]⟩ : Shape).Idx) (qq : (plainOf wf).contr.Idx) :
    ((plainOf wf).lhsIdx j qq 1).val = (qq ⟨0, Nat.one_pos⟩).val :=
  (plainOf wf).lhsIdx_val_of_single rfl j qq
/-- the second operand's row is the contracted coordinate ... -/
theorem plain_rhs0 (j : (⟨2, ![m, n]⟩ : Shape).Idx) (qq : (plainOf wf).contr.Idx) :
    ((plainOf wf).rhsIdx j qq 0).val = (qq ⟨0, Nat.one_pos⟩).val :=
  (plainOf wf).rhsIdx_val_of_single rfl j qq
/-- ... and its column the result's column. -/
theorem plain_rhs1 (j : (⟨2, ![m, n]⟩ : Shape).Idx) (qq : (plainOf wf).contr.Idx) :
    ((plainOf wf).rhsIdx j qq 1).val = (j 1).val := by
  unfold DotDims.rhsIdx
  rw [dif_neg (show ¬(1 : Fin (⟨2, ![k, n]⟩ : Shape).rank) ∈ (plainOf wf).rhsBatch from List.not_mem_nil),
    dif_pos (show (1 : Fin (⟨2, ![k, n]⟩ : Shape).rank) ∈ (plainOf wf).rhsNonContracting from List.mem_singleton.mpr rfl)]
  rfl

/-- The plain product into the f32 zero splat, at (r, c): the sum over q of A (r, q) * B (q, c). -/
theorem matmul_plainOf_zero_apply {φ₁ φ₂ : FTy} (prec : Option ContractPrecision) (A : FVec Ideal ⟨2, ![m, k]⟩ φ₁)
    (B : FVec Ideal ⟨2, ![k, n]⟩ φ₂) (r : Fin m) (c : Fin n) :
    matmul (plainOf wf) prec A B (constant ⟨2, ![m, n]⟩ .f32 0x00000000#32) (ix2 r c)
      = ∑ q : Fin k, A (ix2 r q) * B (ix2 q c) := by
  simp only [matmul]
  rw [Ideal.matmul_constant_zero_apply, ← Equiv.sum_comp (contrEquiv1 (plainOf wf) k rfl rfl).symm]
  refine Finset.sum_congr rfl fun q _ => ?_
  have hq := contrEquiv1_symm_val (plainOf wf) k rfl rfl q
  have el : (plainOf wf).lhsIdx (ix2 r c) ((contrEquiv1 (plainOf wf) k rfl rfl).symm q) = ix2 r q :=
    funext fun a => Fin.ext (by
      match a with
      | ⟨0, _⟩ => exact plain_lhs0 wf _ _
      | ⟨1, _⟩ => exact (plain_lhs1 wf _ _).trans hq)
  have er : (plainOf wf).rhsIdx (ix2 r c) ((contrEquiv1 (plainOf wf) k rfl rfl).symm q) = ix2 q c :=
    funext fun a => Fin.ext (by
      match a with
      | ⟨0, _⟩ => exact (plain_rhs0 wf _ _).trans hq
      | ⟨1, _⟩ => exact plain_rhs1 wf _ _)
  rw [el, er]

end Plain

/-- A product of an [m, k] by a [k, n] matrix whose dimension numbers are the plain ones (contracting the first's
    columns with the second's rows, no batch axis), accumulated into the f32 zero splat, reads, at (r, c), the sum
    over q of A (r, q) * B (q, c). -/
theorem matmul_plain_zero_apply {m k n : ℕ} {φ₁ φ₂ : FTy} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![m, k]⟩ φ₁) (B : FVec Ideal ⟨2, ![k, n]⟩ φ₂) (r : Fin m) (c : Fin n) :
    matmul D prec A B (constant ⟨2, ![m, n]⟩ .f32 0x00000000#32) (ix2 r c) = ∑ q : Fin k, A (ix2 r q) * B (ix2 q c) := by
  obtain ⟨lc, rc, ln, rn, lb, rb, wf⟩ := D
  dsimp only at hlc hrc hln hrn hlb hrb
  subst hlc hrc hln hrn hlb hrb
  exact matmul_plainOf_zero_apply wf prec A B r c

end Cert.LayoutCols

end
-- ==== Proof.KPay0.lean ====
/-
  The two projection payloads of the first kernel region read at an index, on the extended reals: each is the
  projection of the two input halves by the two weight halves, plus the bias — the format changes and the
  same-shape reshape are identities there, the transposed weight read at (q, d) is the weight at (d, q), the product
  into the zero splat is the sum over the contracted coordinate, and the bias row is broadcast down the rows.
-/
import proofs.«103804_j5325759447207_2_alg».proof.Proof.Gen.KernelIdeal.Skeleton
import proofs.«103804_j5325759447207_2_alg».proof.Proof.Spec
import proofs.«103804_j5325759447207_2_alg».proof.Proof.LibLayoutCols
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx

/-! ## The payloads at an index -/

/-- The key projection's payload at (b, d). -/
theorem k0_pay3_apply (x c : Vec Ideal S2048x512 .f32) (wx wc : Vec Ideal S64x512 .f32) (bias : Vec Ideal S64 .f32)
    (b : Fin 2048) (d : Fin 64) : k0_pay3 x c wx wc bias (ix2 b d) = Cert.Spec.proj2 x c wx wc bias b d := by
  unfold k0_pay3 Cert.Spec.proj2
  dsimp only
  rw [addf_apply, addf_apply,
    Cert.LayoutCols.matmul_plain_zero_apply dot_S2048x512_S512x64_S2048x64_1_0_0_1_n_n rfl rfl rfl rfl rfl rfl,
    Cert.LayoutCols.matmul_plain_zero_apply dot_S2048x512_S512x64_S2048x64_1_0_0_1_n_n rfl rfl rfl rfl rfl rfl]
  refine congrArg₂ (· + ·) (congrArg₂ (· + ·) (Finset.sum_congr rfl fun q _ => ?_) (Finset.sum_congr rfl fun q _ => ?_)) ?_
  · exact congrArg (x (ix2 b q) * ·) ((transpose_ix2_apply _ _ q d).trans (congrFun (shapeCast_self wx _) (ix2 d q)))
  · exact congrArg (c (ix2 b q) * ·) ((transpose_ix2_apply _ _ q d).trans (congrFun (shapeCast_self wc _) (ix2 d q)))
  · exact (broadcastTo_1b_ab_apply _ _ b d).trans (shapeCast_a_1a_apply bias _ 0 d)

/-- The content projection's payload at (b, d). -/
theorem k0_pay4_apply (x c : Vec Ideal S2048x512 .f32) (wx wc : Vec Ideal S64x512 .f32) (bias : Vec Ideal S64 .f32)
    (b : Fin 2048) (d : Fin 64) : k0_pay4 x c wx wc bias (ix2 b d) = Cert.Spec.proj2 x c wx wc bias b d := by
  unfold k0_pay4 Cert.Spec.proj2
  dsimp only
  rw [addf_apply, addf_apply,
    Cert.LayoutCols.matmul_plain_zero_apply dot_S2048x512_S512x64_S2048x64_1_0_0_1_n_n rfl rfl rfl rfl rfl rfl,
    Cert.LayoutCols.matmul_plain_zero_apply dot_S2048x512_S512x64_S2048x64_1_0_0_1_n_n rfl rfl rfl rfl rfl rfl]
  refine congrArg₂ (· + ·) (congrArg₂ (· + ·) (Finset.sum_congr rfl fun q _ => ?_) (Finset.sum_congr rfl fun q _ => ?_)) ?_
  · exact congrArg (x (ix2 b q) * ·) ((transpose_ix2_apply _ _ q d).trans (congrFun (shapeCast_self wx _) (ix2 d q)))
  · exact congrArg (c (ix2 b q) * ·) ((transpose_ix2_apply _ _ q d).trans (congrFun (shapeCast_self wc _) (ix2 d q)))
  · exact (broadcastTo_1b_ab_apply _ _ b d).trans (shapeCast_a_1a_apply bias _ 0 d)

end Cert.KPay

end
-- ==== Proof.KIVal0.lean ====
/- The value of region 0 over the extended reals: the arrays its two outputs end holding are the specification's two
   projections of the arrays the region finds, index by index. -/
import proofs.«103804_j5325759447207_2_alg».proof.Proof.KIReg0
import proofs.«103804_j5325759447207_2_alg».proof.Proof.Spec
import proofs.«103804_j5325759447207_2_alg».proof.Proof.KPay0
import Idealize.ShloMosaic.Lib.Pipeline.Value
import Idealize.ShloMosaic.Lib.StableHlo.Run
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-! # The value of region 0: the two projections

The region's grid is one point and every window's block is its whole array, so each input block read is the array itself
and the one point's write-back is the whole output. -/

theorem hz2 : (![0, 0] : Fin 2 → Nat) = fun _ => 0 := funext fun a => by fin_cases a <;> rfl
theorem hz1 : (![0] : Fin 1 → Nat) = fun _ => 0 := funext fun a => by fin_cases a <;> rfl

/-- Every window's block index is zero on every axis, at the grid's one point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## Each input block is its array -/

theorem iblk0_w0 (c : Dev nD) (t : Fin cfg0.N) : (iblk0 V c 0 t : Vec Ideal S2048x512 .f32) = V c main_arg0 := by
  have e := idx0 t
  funext y
  unfold iblk0
  rw [View.read_apply]
  show V c main_arg0 _ = V c main_arg0 y
  congr 1
  funext a
  apply Fin.ext
  match a with
  | ⟨0, _⟩ => show win0_0.index t 0 * 2048 + 1 * (y 0).val = (y 0).val; omega
  | ⟨1, _⟩ => show win0_0.index t 1 * 512 + 1 * (y 1).val = (y 1).val; omega

theorem iblk0_w1 (c : Dev nD) (t : Fin cfg0.N) : (iblk0 V c 1 t : Vec Ideal S2048x512 .f32) = V c main_arg1 := by
  have e := idx0 t
  funext y
  unfold iblk0
  rw [View.read_apply]
  show V c main_arg1 _ = V c main_arg1 y
  congr 1
  funext a
  apply Fin.ext
  match a with
  | ⟨0, _⟩ => show win0_1.index t 0 * 2048 + 1 * (y 0).val = (y 0).val; omega
  | ⟨1, _⟩ => show win0_1.index t 1 * 512 + 1 * (y 1).val = (y 1).val; omega

theorem iblk0_w2 (c : Dev nD) (t : Fin cfg0.N) : (iblk0 V c 2 t : Vec Ideal S64x512 .f32) = V c main_v0 := by
  have e := idx0 t
  funext y
  unfold iblk0
  rw [View.read_apply]
  show V c main_v0 _ = V c main_v0 y
  congr 1
  funext a
  apply Fin.ext
  match a with
  | ⟨0, _⟩ => show win0_2.index t 0 * 64 + 1 * (y 0).val = (y 0).val; omega
  | ⟨1, _⟩ => show win0_2.index t 1 * 512 + 1 * (y 1).val = (y 1).val; omega

theorem iblk0_w3 (c : Dev nD) (t : Fin cfg0.N) : (iblk0 V c 3 t : Vec Ideal S64x512 .f32) = V c main_v1 := by
  have e := idx0 t
  funext y
  unfold iblk0
  rw [View.read_apply]
  show V c main_v1 _ = V c main_v1 y
  congr 1
  funext a
  apply Fin.ext
  match a with
  | ⟨0, _⟩ => show win0_3.index t 0 * 64 + 1 * (y 0).val = (y 0).val; omega
  | ⟨1, _⟩ => show win0_3.index t 1 * 512 + 1 * (y 1).val = (y 1).val; omega

theorem iblk0_w4 (c : Dev nD) (t : Fin cfg0.N) : (iblk0 V c 4 t : Vec Ideal S64 .f32) = V c main_arg3 := by
  have e := idx0 t
  funext y
  unfold iblk0
  rw [View.read_apply]
  show V c main_arg3 _ = V c main_arg3 y
  congr 1
  funext a
  apply Fin.ext
  match a with
  | ⟨0, _⟩ => show win0_4.index t 0 * 64 + 1 * (y 0).val = (y 0).val; omega

theorem iblk0_w5 (c : Dev nD) (t : Fin cfg0.N) : (iblk0 V c 5 t : Vec Ideal S64x512 .f32) = V c main_v2 := by
  have e := idx0 t
  funext y
  unfold iblk0
  rw [View.read_apply]
  show V c main_v2 _ = V c main_v2 y
  congr 1
  funext a
  apply Fin.ext
  match a with
  | ⟨0, _⟩ => show win0_5.index t 0 * 64 + 1 * (y 0).val = (y 0).val; omega
  | ⟨1, _⟩ => show win0_5.index t 1 * 512 + 1 * (y 1).val = (y 1).val; omega

theorem iblk0_w6 (c : Dev nD) (t : Fin cfg0.N) : (iblk0 V c 6 t : Vec Ideal S64x512 .f32) = V c main_v3 := by
  have e := idx0 t
  funext y
  unfold iblk0
  rw [View.read_apply]
  show V c main_v3 _ = V c main_v3 y
  congr 1
  funext a
  apply Fin.ext
  match a with
  | ⟨0, _⟩ => show win0_6.index t 0 * 64 + 1 * (y 0).val = (y 0).val; omega
  | ⟨1, _⟩ => show win0_6.index t 1 * 512 + 1 * (y 1).val = (y 1).val; omega

theorem iblk0_w7 (c : Dev nD) (t : Fin cfg0.N) : (iblk0 V c 7 t : Vec Ideal S64 .f32) = V c main_arg5 := by
  have e := idx0 t
  funext y
  unfold iblk0
  rw [View.read_apply]
  show V c main_arg5 _ = V c main_arg5 y
  congr 1
  funext a
  apply Fin.ext
  match a with
  | ⟨0, _⟩ => show win0_7.index t 0 * 64 + 1 * (y 0).val = (y 0).val; omega

/-! ## The payloads at an index, from their forms at literal coordinates -/

/-- The shape of a payload's value at literal coordinates: the projection of the specification. -/
abbrev PayIsProj (pay : Vec Ideal S2048x512 .f32 → Vec Ideal S2048x512 .f32 → Vec Ideal S64x512 .f32 → Vec Ideal S64x512 .f32 → Vec Ideal S64 .f32 → FVec Ideal S2048x64 .f32) : Prop :=
  ∀ (x c : Vec Ideal S2048x512 .f32) (wx wc : Vec Ideal S64x512 .f32) (bias : Vec Ideal S64 .f32) (b : Fin 2048) (d : Fin 64),
    pay x c wx wc bias (ix2 b d) = Cert.Spec.proj2 x c wx wc bias b d

theorem pay_at {pay} (hpay : PayIsProj pay) (x c : Vec Ideal S2048x512 .f32) (wx wc : Vec Ideal S64x512 .f32) (bias : Vec Ideal S64 .f32)
    (j : S2048x64.Idx) : pay x c wx wc bias j = Cert.Spec.proj2 x c wx wc bias (j 0) (j 1) := by
  obtain ⟨b, d, rfl⟩ : ∃ (b : Fin 2048) (d : Fin 64), j = ix2 b d := ⟨j 0, j 1, eq_ix2 j⟩
  exact hpay x c wx wc bias b d

/-! ## What the point writes back, and the arrays after the region -/

/-- The first projection of the arrays as the region finds them. -/
abbrev K8 (c : Dev nD) : S2048x64.Idx → EReal := fun i =>
  Cert.Spec.proj2 (V c main_arg0) (V c main_arg1) (V c main_v0) (V c main_v1) (V c main_arg3) (i 0) (i 1)
/-- The second. -/
abbrev K9 (c : Dev nD) : S2048x64.Idx → EReal := fun i =>
  Cert.Spec.proj2 (V c main_arg0) (V c main_arg1) (V c main_v2) (V c main_v3) (V c main_arg5) (i 0) (i 1)

theorem flushed0_8_eq (hpay : PayIsProj k0_pay3) (c : Dev nD) (t : Fin cfg0.N) :
    (dat0 V c).flushed 8 t = ((cfg0.win 8).blk t).view.read (Elt Ideal) (K8 V c) := by
  show (cfg0.win 8).cut (grid0.coords t) ((dat0 V c).after 8 t) = _
  rw [after0_8]
  unfold out0_8
  rw [View.canon_unit_zero hz2]
  simp only [View.ld_unit_zero (S := S2048x512) hz2, View.ld_unit_zero (S := S64x512) hz2, View.ld_unit_zero (S := S64) hz1]
  rw [iblk0_w0, iblk0_w1, iblk0_w2, iblk0_w3, iblk0_w4]
  have e := idx0 t
  funext j
  show k0_pay3 (V c main_arg0) (V c main_arg1) (V c main_v0) (V c main_v1) (V c main_arg3) j = K8 V c (((cfg0.win 8).blk t).view.emb j)
  have he : ((cfg0.win 8).blk t).view.emb j = j := by
    funext a; apply Fin.ext
    match a with
    | ⟨0, _⟩ => show win0_8.index t 0 * 2048 + 1 * (j 0).val = (j 0).val; omega
    | ⟨1, _⟩ => show win0_8.index t 1 * 64 + 1 * (j 1).val = (j 1).val; omega
  rw [he]
  exact pay_at hpay _ _ _ _ _ j

theorem flushed0_9_eq (hpay : PayIsProj k0_pay4) (c : Dev nD) (t : Fin cfg0.N) :
    (dat0 V c).flushed 9 t = ((cfg0.win 9).blk t).view.read (Elt Ideal) (K9 V c) := by
  show (cfg0.win 9).cut (grid0.coords t) ((dat0 V c).after 9 t) = _
  rw [after0_9]
  unfold out0_9
  rw [View.canon_unit_zero hz2]
  simp only [View.ld_unit_zero (S := S2048x512) hz2, View.ld_unit_zero (S := S64x512) hz2, View.ld_unit_zero (S := S64) hz1]
  rw [iblk0_w0, iblk0_w1, iblk0_w5, iblk0_w6, iblk0_w7]
  have e := idx0 t
  funext j
  show k0_pay4 (V c main_arg0) (V c main_arg1) (V c main_v2) (V c main_v3) (V c main_arg5) j = K9 V c (((cfg0.win 9).blk t).view.emb j)
  have he : ((cfg0.win 9).blk t).view.emb j = j := by
    funext a; apply Fin.ext
    match a with
    | ⟨0, _⟩ => show win0_9.index t 0 * 2048 + 1 * (j 0).val = (j 0).val; omega
    | ⟨1, _⟩ => show win0_9.index t 1 * 64 + 1 * (j 1).val = (j 1).val; omega
  rw [he]
  exact pay_at hpay _ _ _ _ _ j

/-- An index of the array is in the point's block iff each coordinate is in the block's range on its axis. -/
theorem mem_blk0_8 (t : Fin cfg0.N) (i : S2048x64.Idx) :
    i ∈ ((cfg0.win 8).blk t).view.set ↔ ∀ a : Fin 2, win0_8.index t a * S2048x64.size a ≤ (i a).val ∧ (i a).val < win0_8.index t a * S2048x64.size a + S2048x64.size a := by
  show i ∈ ((View.whole main_v4_0).slice (win0_8.rect t)).set ↔ _
  rw [View.set_slice_whole, Rect.mem_set_unit]
  exact Iff.rfl
theorem mem_blk0_9 (t : Fin cfg0.N) (i : S2048x64.Idx) :
    i ∈ ((cfg0.win 9).blk t).view.set ↔ ∀ a : Fin 2, win0_9.index t a * S2048x64.size a ≤ (i a).val ∧ (i a).val < win0_9.index t a * S2048x64.size a + S2048x64.size a := by
  show i ∈ ((View.whole main_v4_1).slice (win0_9.rect t)).set ↔ _
  rw [View.set_slice_whole, Rect.mem_set_unit]
  exact Iff.rfl

/-- THE FIRST PROJECTION's array after the region. -/
theorem final0_8_of (hpay : PayIsProj k0_pay3) (c : Dev nD) : (dat0 V c).arrAt 8 cfg0.N = K8 V c :=
  (dat0 V c).arrAt_eq_of_cover 8 (K8 V c) (fun t _ => flushed0_8_eq V hpay c t) fun i => by
    have e := idx0 t0_0
    have h0 : (i 0).val < 2048 := (i 0).isLt
    have h1 : (i 1).val < 64 := (i 1).isLt
    refine ⟨t0_0, flush0_8 t0_0, ?_⟩
    rw [mem_blk0_8]
    intro a
    match a with
    | ⟨0, _⟩ => show win0_8.index t0_0 (0 : Fin 2) * 2048 ≤ (i 0).val ∧ (i 0).val < win0_8.index t0_0 (0 : Fin 2) * 2048 + 2048; omega
    | ⟨1, _⟩ => show win0_8.index t0_0 (1 : Fin 2) * 64 ≤ (i 1).val ∧ (i 1).val < win0_8.index t0_0 (1 : Fin 2) * 64 + 64; omega

/-- THE SECOND PROJECTION's array after the region. -/
theorem final0_9_of (hpay : PayIsProj k0_pay4) (c : Dev nD) : (dat0 V c).arrAt 9 cfg0.N = K9 V c :=
  (dat0 V c).arrAt_eq_of_cover 9 (K9 V c) (fun t _ => flushed0_9_eq V hpay c t) fun i => by
    have e := idx0 t0_0
    have h0 : (i 0).val < 2048 := (i 0).isLt
    have h1 : (i 1).val < 64 := (i 1).isLt
    refine ⟨t0_0, flush0_9 t0_0, ?_⟩
    rw [mem_blk0_9]
    intro a
    match a with
    | ⟨0, _⟩ => show win0_9.index t0_0 (0 : Fin 2) * 2048 ≤ (i 0).val ∧ (i 0).val < win0_9.index t0_0 (0 : Fin 2) * 2048 + 2048; omega
    | ⟨1, _⟩ => show win0_9.index t0_0 (1 : Fin 2) * 64 ≤ (i 1).val ∧ (i 1).val < win0_9.index t0_0 (1 : Fin 2) * 64 + 64; omega

/-! ## With the payloads' values at literal coordinates -/

/-- THE FIRST PROJECTION's array after the region is the specification's projection of the arrays the region finds. -/
theorem final0_8 (c : Dev nD) : (dat0 V c).arrAt 8 cfg0.N = fun i =>
    Cert.Spec.proj2 (V c main_arg0) (V c main_arg1) (V c main_v0) (V c main_v1) (V c main_arg3) (i 0) (i 1) :=
  final0_8_of V Cert.KPay.k0_pay3_apply c
/-- THE SECOND PROJECTION's likewise. -/
theorem final0_9 (c : Dev nD) : (dat0 V c).arrAt 9 cfg0.N = fun i =>
    Cert.Spec.proj2 (V c main_arg0) (V c main_arg1) (V c main_v2) (V c main_v3) (V c main_arg5) (i 0) (i 1) :=
  final0_9_of V Cert.KPay.k0_pay4_apply c

end Cert.KernelIdeal.H

end
-- ==== Proof.KIReg1Pieces.lean ====
/- Region 1, what each case's found pieces are: one block's step of the running softmax on the three scratch buffers
   (the new maximum; the rescaled sum plus the block's sum of exponentials; the rescaled weighted sum plus the block's
   weighted sum), from the reset values at the first block of a batch tile and from what the block before left otherwise;
   at the last block the results are the weighted sum times the reciprocal of the sum, the maximum and the sum. Then the
   scratch contents after every point as that step iterated. -/
import proofs.«103804_j5325759447207_2_alg».proof.Proof.KIReg1
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One block's step: from the key block kb, the prototype block pb, the buffer block bb and the scratch contents
    (m, l, a) to the new scratch contents. -/
def step1 (kb pb bb : Vec F S1024x64 .f32) (m l : Vec F S1024x1 .f32) (a : Vec F S1024x64 .f32) :
    Vec F S1024x1 .f32 × Vec F S1024x1 .f32 × Vec F S1024x64 .f32 :=
  (k1_pay3 (k1_pay9 kb pb m), k1_pay1 (k1_pay10 kb pb m m) (k1_pay11 kb pb m) l, k1_pay2 bb (k1_pay10 kb pb m m) (k1_pay11 kb pb m) a)

theorem sout1_A_0_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : sout1_A_0 c i arg2 harg2 arg3 harg3 arg4 harg4 arg5 harg5 arg6 harg6 arg7 harg7 arg8 harg8 arg9 harg9 arg10 harg10 hc0 hc1 x0 x1 x2 = (step1 x0 x1 x2 (k1_pay5 (F := F)) (k1_pay6 (F := F)) (k1_pay7 (F := F))).1 := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2)]
  unfold kernelRun1_A
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_A_1_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : sout1_A_1 c i arg2 harg2 arg3 harg3 arg4 harg4 arg5 harg5 arg6 harg6 arg7 harg7 arg8 harg8 arg9 harg9 arg10 harg10 hc0 hc1 x0 x1 x2 = (step1 x0 x1 x2 (k1_pay5 (F := F)) (k1_pay6 (F := F)) (k1_pay7 (F := F))).2.1 := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2)]
  unfold kernelRun1_A
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_A_2_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond1_0 i) (hc1 : ¬cond1_1 i) (x0 : Vec F S1024x64 .f32) (x1 : Vec F S1024x64 .f32) (x2 : Vec F S1024x64 .f32) : sout1_A_2 c i arg2 harg2 arg3 harg3 arg4 harg4 arg5 harg5 arg6 harg6 arg7 harg7 arg8 harg8 arg9 harg9 arg10 harg10 hc0 hc1 x0 x1 x2 = (step1 x0 x1 x2 (k1_pay5 (F := F)) (k1_pay6 (F := F)) (k1_pay7 (F := F))).2.2 := by
  unfold sout1_A_2
  rw [View.read_writes_eq_canon _ _ _ (scover1_A_2 c i arg2 harg2 arg3 harg3 arg4 harg4 arg5 harg5 arg6 harg6 arg7 harg7 arg8 harg8 arg9 harg9 arg10 harg10 hc0 hc1 x0 x1 x2)]
  unfold kernelRun1_A
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_B_0_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : sout1_B_0 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).1 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 xs0 xs1 xs2)]
  unfold kernelRun1_B
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_B_1_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : sout1_B_1 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).2.1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 xs0 xs1 xs2)]
  unfold kernelRun1_B
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_B_2_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : ¬cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : sout1_B_2 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).2.2 := by
  unfold sout1_B_2
  rw [View.read_writes_eq_canon _ _ _ (scover1_B_2 c i arg2 harg2 arg3 harg3 arg4 harg4 arg5 harg5 arg6 harg6 arg7 harg7 arg8 harg8 arg9 harg9 arg10 harg10 hc0 hc1 x0 x1 x2 xs0 xs1 xs2)]
  unfold kernelRun1_B
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_C_0_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : sout1_C_0 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).1 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 xs0 xs1 xs2)]
  unfold kernelRun1_C
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_C_1_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : sout1_C_1 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).2.1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 xs0 xs1 xs2)]
  unfold kernelRun1_C
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem sout1_C_2_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : sout1_C_2 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).2.2 := by
  unfold sout1_C_2
  rw [View.read_writes_eq_canon _ _ _ (scover1_C_2 c i arg2 harg2 arg3 harg3 arg4 harg4 arg5 harg5 arg6 harg6 arg7 harg7 arg8 harg8 arg9 harg9 arg10 harg10 hc0 hc1 x0 x1 x2 xs0 xs1 xs2)]
  unfold kernelRun1_C
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem out1_C_3_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : out1_C_3 c i arg2 harg2 arg3 harg3 arg4 harg4 arg5 harg5 arg6 harg6 arg7 harg7 arg8 harg8 arg9 harg9 arg10 harg10 hc0 hc1 x0 x1 x2 xs0 xs1 xs2 = k1_pay4 (step1 x0 x1 x2 xs0 xs1 xs2).2.2 (step1 x0 x1 x2 xs0 xs1 xs2).2.1 := by
  unfold out1_C_3
  rw [View.read_writes_eq_canon _ _ _ (cover1_C_3 c i arg2 harg2 arg3 harg3 arg4 harg4 arg5 harg5 arg6 harg6 arg7 harg7 arg8 harg8 arg9 harg9 arg10 harg10 hc0 hc1 x0 x1 x2 xs0 xs1 xs2)]
  unfold kernelRun1_C
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem out1_C_4_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : out1_C_4 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).1 := by
  unfold out1_C_4
  rw [View.read_writes_eq_canon _ _ _ (cover1_C_4 c i arg2 harg2 arg3 harg3 arg4 harg4 arg5 harg5 arg6 harg6 arg7 harg7 arg8 harg8 arg9 harg9 arg10 harg10 hc0 hc1 x0 x1 x2 xs0 xs1 xs2)]
  unfold kernelRun1_C
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

theorem out1_C_5_eq (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond1_0 i) (hc1 : cond1_1 i) (x0 : Vec F S1024x64 .f32) (x1 : Vec F S1024x64 .f32) (x2 : Vec F S1024x64 .f32) (xs0 : Vec F S1024x1 .f32) (xs1 : Vec F S1024x1 .f32) (xs2 : Vec F S1024x64 .f32) : out1_C_5 c i arg2 harg2 arg3 harg3 arg4 harg4 arg5 harg5 arg6 harg6 arg7 harg7 arg8 harg8 arg9 harg9 arg10 harg10 hc0 hc1 x0 x1 x2 xs0 xs1 xs2 = (step1 x0 x1 x2 xs0 xs1 xs2).2.1 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 xs0 xs1 xs2)]
  unfold kernelRun1_C
  dsimp only
  sl_unfold_words
  simp only [View.canon_unit_zero (S := S1024x1) hz2, View.canon_unit_zero (S := S1024x64) hz2, View.canon_cons_unit_zero (S := S1024x1) hz2, View.canon_cons_unit_zero (S := S1024x64) hz2, View.readCov_unit_zero (S := S1024x1) _ hz2, View.readCov_unit_zero (S := S1024x64) _ hz2, View.readAt_eq_ld, harg2.read_unread, harg3.read_unread, harg4.read_unread, harg8.read_unread, harg9.read_unread, harg10.read_unread, View.ld_unit_zero (S := S1024x64) hz2, View.ld_unit_zero (S := S1024x1) hz2]
  rfl

variable (V : (c : Dev nD) → (b : Ref sig .tc) → Buf (Elt F) ((c : Thread nD τ).loc b))

/-- The three scratch buffers after position n: the step iterated, restarted at every first block of a batch tile. -/
def scr1 (c : Dev nD) : (n : ℕ) → n < cfg1.N → Vec F S1024x1 .f32 × Vec F S1024x1 .f32 × Vec F S1024x64 .f32
  | 0, hn => step1 (iblk1 V c 0 ⟨0, hn⟩) (iblk1 V c 1 ⟨0, hn⟩) (iblk1 V c 2 ⟨0, hn⟩) (k1_pay5 (F := F)) (k1_pay6 (F := F)) (k1_pay7 (F := F))
  | n + 1, hn =>
    if (n + 1) % 64 = 0 then
      step1 (iblk1 V c 0 ⟨n + 1, hn⟩) (iblk1 V c 1 ⟨n + 1, hn⟩) (iblk1 V c 2 ⟨n + 1, hn⟩) (k1_pay5 (F := F)) (k1_pay6 (F := F)) (k1_pay7 (F := F))
    else
      step1 (iblk1 V c 0 ⟨n + 1, hn⟩) (iblk1 V c 1 ⟨n + 1, hn⟩) (iblk1 V c 2 ⟨n + 1, hn⟩)
        (scr1 c n (Nat.lt_of_succ_lt hn)).1 (scr1 c n (Nat.lt_of_succ_lt hn)).2.1 (scr1 c n (Nat.lt_of_succ_lt hn)).2.2

/-- What the accumulation holds in the scratch buffers is the iterated step. -/
theorem outsAt1_scr (c : Dev nD) : ∀ (n : ℕ) (hn : n < cfg1.N),
    ((outsAt1 V c n hn).2.2.2.1, (outsAt1 V c n hn).2.2.2.2.1, (outsAt1 V c n hn).2.2.2.2.2) = scr1 V c n hn
  | 0, hn => by
    rw [outsAt1_A V c ⟨0, hn⟩ rfl (by show ¬(0 % 64 = 63); decide)]
    dsimp only
    rw [sout1_A_0_eq, sout1_A_1_eq, sout1_A_2_eq]
    rfl
  | n + 1, hn => by
    have ih := outsAt1_scr c n (Nat.lt_of_succ_lt hn)
    by_cases h0 : (n + 1) % 64 = 0
    · have h1 : ¬(n + 1) % 64 = 63 := by omega
      rw [outsAt1_A V c ⟨n + 1, hn⟩ h0 h1]
      dsimp only
      rw [sout1_A_0_eq, sout1_A_1_eq, sout1_A_2_eq]
      simp only [scr1, if_pos h0]
    · by_cases h1 : (n + 1) % 64 = 63
      · rw [outsAt1_C V c ⟨n + 1, hn⟩ h0 h1]
        dsimp only
        rw [sout1_C_0_eq, sout1_C_1_eq, sout1_C_2_eq]
        simp only [scr1, if_neg h0]
        rw [← ih]
        rfl
      · rw [outsAt1_B V c ⟨n + 1, hn⟩ h0 h1]
        dsimp only
        rw [sout1_B_0_eq, sout1_B_1_eq, sout1_B_2_eq]
        simp only [scr1, if_neg h0]
        rw [← ih]
        rfl

/-- At the last block of a batch tile the three result buffers hold the weighted sum over the sum, the maximum, the sum. -/
theorem outsAt1_res (c : Dev nD) (t : Fin cfg1.N) (h1 : t.val % 64 = 63) :
    (outsAt1 V c t.val t.isLt).1 = k1_pay4 (scr1 V c t.val t.isLt).2.2 (scr1 V c t.val t.isLt).2.1
    ∧ (outsAt1 V c t.val t.isLt).2.1 = (scr1 V c t.val t.isLt).1
    ∧ (outsAt1 V c t.val t.isLt).2.2.1 = (scr1 V c t.val t.isLt).2.1 := by
  obtain ⟨n, hn⟩ := t
  cases n with
  | zero => exact absurd h1 (by show ¬(0 % 64 = 63); decide)
  | succ n =>
    have h0 : ¬(n + 1) % 64 = 0 := by dsimp only at h1; omega
    have ih := outsAt1_scr V c n (Nat.lt_of_succ_lt hn)
    rw [outsAt1_C V c ⟨n + 1, hn⟩ h0 h1]
    dsimp only
    rw [out1_C_3_eq, out1_C_4_eq, out1_C_5_eq]
    simp only [scr1, if_neg h0]
    rw [← ih]
    exact ⟨rfl, rfl, rfl⟩

/-- At a first block of a batch tile the scratch contents are one step from the reset values. -/
theorem scr1_first (c : Dev nD) (n : ℕ) (hn : n < cfg1.N) (h0 : n % 64 = 0) :
    scr1 V c n hn = step1 (iblk1 V c 0 ⟨n, hn⟩) (iblk1 V c 1 ⟨n, hn⟩) (iblk1 V c 2 ⟨n, hn⟩) (k1_pay5 (F := F)) (k1_pay6 (F := F)) (k1_pay7 (F := F)) := by
  cases n with
  | zero => rfl
  | succ n => simp only [scr1, if_pos h0]

/-- At every other block they are one step from what the block before left. -/
theorem scr1_next (c : Dev nD) (n : ℕ) (hn : n + 1 < cfg1.N) (h0 : ¬(n + 1) % 64 = 0) :
    scr1 V c (n + 1) hn = step1 (iblk1 V c 0 ⟨n + 1, hn⟩) (iblk1 V c 1 ⟨n + 1, hn⟩) (iblk1 V c 2 ⟨n + 1, hn⟩)
      (scr1 V c n (Nat.lt_of_succ_lt hn)).1 (scr1 V c n (Nat.lt_of_succ_lt hn)).2.1 (scr1 V c n (Nat.lt_of_succ_lt hn)).2.2 := by
  simp only [scr1, if_neg h0]

end Cert.KernelIdeal.H

end
-- ==== Proof.KIVal1Blocks.lean ====
/-
  Region 1's blocks against its arrays. The region runs over a 2 × 64 grid; point t has row block t / 64 of the
  2048-row arrays and bin block t % 64 of the 65536-row arrays. An input window's block at point t is the array
  read at (block index × 1024 + the row inside the block); a result window's array, whose blocks are written back
  at the last point of each row block, ends holding any function that every written-back block is a block of.
-/
import proofs.«103804_j5325759447207_2_alg».proof.Proof.KIReg1
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

/-! ## The windows' block indices over the grid -/

/-- Point t's block indices: row block t / 64 for the windows over the 2048-row arrays, bin block t % 64 for the
    windows over the 65536-row arrays, column block 0 everywhere. -/
theorem idx1 : ∀ t : Fin cfg1.N,
    win1_0.index t (0 : Fin 2) = t.val / 64 ∧ win1_0.index t (1 : Fin 2) = 0
    ∧ win1_1.index t (0 : Fin 2) = t.val % 64 ∧ win1_1.index t (1 : Fin 2) = 0
    ∧ win1_2.index t (0 : Fin 2) = t.val % 64 ∧ win1_2.index t (1 : Fin 2) = 0
    ∧ win1_3.index t (0 : Fin 2) = t.val / 64 ∧ win1_3.index t (1 : Fin 2) = 0
    ∧ win1_4.index t (0 : Fin 2) = t.val / 64 ∧ win1_4.index t (1 : Fin 2) = 0
    ∧ win1_5.index t (0 : Fin 2) = t.val / 64 ∧ win1_5.index t (1 : Fin 2) = 0 :=
  (by decide +kernel : ∀ t : Fin grid1.N, _)

/-- A point is below 128. -/
theorem lt128 (t : Fin cfg1.N) : t.val < 128 := lt_of_lt_of_eq t.isLt (show cfg1.N = 128 from N_1)

/-! ## The input blocks read at coordinates -/

/-- The key block at point t, row r, column d: the key array at row (t / 64) · 1024 + r. -/
theorem iblk1_0_apply (c : Dev nD) (t : Fin cfg1.N) (r : Fin 1024) (d : Fin 64) :
    (iblk1 V c 0 t : Vec F S1024x64 .f32) (ix2 r d)
      = (V c main_v4_0 : S2048x64.Idx → Elt F .f32) (ix2 (⟨t.val / 64 * 1024 + r.val, by
          have hN := lt128 t; have hr : r.val < 1024 := r.isLt; omega⟩ : Fin 2048) d) := by
  obtain ⟨e0, e1, -⟩ := idx1 t
  unfold iblk1
  rw [View.read_apply]
  show V c main_v4_0 _ = V c main_v4_0 _
  congr 1
  funext a; apply Fin.ext
  match a with
  | ⟨0, _⟩ => show win1_0.index t (0 : Fin 2) * 1024 + 1 * r.val = t.val / 64 * 1024 + r.val; rw [e0]; omega
  | ⟨1, _⟩ => show win1_0.index t (1 : Fin 2) * 64 + 1 * d.val = d.val; rw [e1]; omega

/-- The prototype block at point t, row q, column d: the prototype array at row (t % 64) · 1024 + q. -/
theorem iblk1_1_apply (c : Dev nD) (t : Fin cfg1.N) (q : Fin 1024) (d : Fin 64) :
    (iblk1 V c 1 t : Vec F S1024x64 .f32) (ix2 q d)
      = (V c main_arg6 : S65536x64.Idx → Elt F .f32) (ix2 (⟨t.val % 64 * 1024 + q.val, by
          have hq : q.val < 1024 := q.isLt; omega⟩ : Fin 65536) d) := by
  obtain ⟨-, -, e10, e11, e20, e21, -⟩ := idx1 t
  unfold iblk1
  rw [View.read_apply]
  show V c main_arg6 _ = V c main_arg6 _
  congr 1
  funext a; apply Fin.ext
  match a with
  | ⟨0, _⟩ => show win1_1.index t (0 : Fin 2) * 1024 + 1 * q.val = t.val % 64 * 1024 + q.val; rw [e10]; omega
  | ⟨1, _⟩ => show win1_1.index t (1 : Fin 2) * 64 + 1 * d.val = d.val; rw [e11]; omega

/-- The buffer block at point t, row q, column d: the buffer array at row (t % 64) · 1024 + q. -/
theorem iblk1_2_apply (c : Dev nD) (t : Fin cfg1.N) (q : Fin 1024) (d : Fin 64) :
    (iblk1 V c 2 t : Vec F S1024x64 .f32) (ix2 q d)
      = (V c main_arg7 : S65536x64.Idx → Elt F .f32) (ix2 (⟨t.val % 64 * 1024 + q.val, by
          have hq : q.val < 1024 := q.isLt; omega⟩ : Fin 65536) d) := by
  obtain ⟨-, -, e10, e11, e20, e21, -⟩ := idx1 t
  unfold iblk1
  rw [View.read_apply]
  show V c main_arg7 _ = V c main_arg7 _
  congr 1
  funext a; apply Fin.ext
  match a with
  | ⟨0, _⟩ => show win1_2.index t (0 : Fin 2) * 1024 + 1 * q.val = t.val % 64 * 1024 + q.val; rw [e20]; omega
  | ⟨1, _⟩ => show win1_2.index t (1 : Fin 2) * 64 + 1 * d.val = d.val; rw [e21]; omega

/-! ## The result arrays from their written-back blocks -/

/-- The first result array: if every written-back block of window 3 is that block of G, the array ends holding G. -/
theorem final1_3 (c : Dev nD) (G : S2048x64.Idx → Elt F .f32)
    (h : ∀ (t : Fin cfg1.N), t.val % 64 = 63 → ∀ (r : Fin 1024) (d : Fin 64),
      ((dat1 V c).after 3 t : Vec F S1024x64 .f32) (ix2 r d)
        = G (ix2 (⟨t.val / 64 * 1024 + r.val, by
            have hN := lt128 t; have hr : r.val < 1024 := r.isLt; omega⟩ : Fin 2048) d)) :
    (dat1 V c).arrAt 3 cfg1.N = G := by
  refine (dat1 V c).arrAt_eq_of_cover 3 G (fun t hf => ?_) (fun i => ?_)
  · have h63 : t.val % 64 = 63 := (flush1_3 t).mp hf
    obtain ⟨-, -, -, -, -, -, e0, e1, -⟩ := idx1 t
    show (cfg1.win 3).cut (grid1.coords t) ((dat1 V c).after 3 t) = _
    funext j
    rw [View.read_apply]
    obtain ⟨r, d, rfl⟩ : ∃ (r : Fin 1024) (d : Fin 64), j = ix2 r d := ⟨j 0, j 1, eq_ix2 (n0 := 1024) (n1 := 64) j⟩
    show ((dat1 V c).after 3 t : Vec F S1024x64 .f32) (ix2 r d) = G _
    rw [h t h63 r d]
    congr 1
    funext a; apply Fin.ext
    match a with
    | ⟨0, _⟩ => show t.val / 64 * 1024 + r.val = win1_3.index t (0 : Fin 2) * 1024 + 1 * r.val; rw [e0]; omega
    | ⟨1, _⟩ => show d.val = win1_3.index t (1 : Fin 2) * 64 + 1 * d.val; rw [e1]; omega
  · have hi0 : (i 0).val < 2048 := (i 0).isLt
    have hi1 : (i 1).val < 64 := (i 1).isLt
    have hN : cfg1.N = 128 := N_1
    obtain ⟨t, ht⟩ : ∃ t : Fin cfg1.N, t.val = 64 * ((i 0).val / 1024) + 63 := ⟨⟨64 * ((i 0).val / 1024) + 63, by omega⟩, rfl⟩
    obtain ⟨-, -, -, -, -, -, e0, e1, -⟩ := idx1 t
    refine ⟨t, (flush1_3 t).mpr (by omega), ?_⟩
    show i ∈ ((View.whole main_v5_0).slice (win1_3.rect t)).set
    rw [View.set_slice_whole, Rect.mem_set_unit]
    intro a
    match a with
    | ⟨0, _⟩ => show win1_3.index t (0 : Fin 2) * 1024 ≤ (i 0).val ∧ (i 0).val < win1_3.index t (0 : Fin 2) * 1024 + 1024; rw [e0]; omega
    | ⟨1, _⟩ => show win1_3.index t (1 : Fin 2) * 64 ≤ (i 1).val ∧ (i 1).val < win1_3.index t (1 : Fin 2) * 64 + 64; rw [e1]; omega

/-- The second result array (one column), from window 4's written-back blocks. -/
theorem final1_4 (c : Dev nD) (G : S2048x1.Idx → Elt F .f32)
    (h : ∀ (t : Fin cfg1.N), t.val % 64 = 63 → ∀ (r : Fin 1024) (d : Fin 1),
      ((dat1 V c).after 4 t : Vec F S1024x1 .f32) (ix2 r d)
        = G (ix2 (⟨t.val / 64 * 1024 + r.val, by
            have hN := lt128 t; have hr : r.val < 1024 := r.isLt; omega⟩ : Fin 2048) d)) :
    (dat1 V c).arrAt 4 cfg1.N = G := by
  refine (dat1 V c).arrAt_eq_of_cover 4 G (fun t hf => ?_) (fun i => ?_)
  · have h63 : t.val % 64 = 63 := (flush1_4 t).mp hf
    obtain ⟨-, -, -, -, -, -, -, -, e0, e1, -⟩ := idx1 t
    show (cfg1.win 4).cut (grid1.coords t) ((dat1 V c).after 4 t) = _
    funext j
    rw [View.read_apply]
    obtain ⟨r, d, rfl⟩ : ∃ (r : Fin 1024) (d : Fin 1), j = ix2 r d := ⟨j 0, j 1, eq_ix2 (n0 := 1024) (n1 := 1) j⟩
    show ((dat1 V c).after 4 t : Vec F S1024x1 .f32) (ix2 r d) = G _
    rw [h t h63 r d]
    congr 1
    funext a; apply Fin.ext
    match a with
    | ⟨0, _⟩ => show t.val / 64 * 1024 + r.val = win1_4.index t (0 : Fin 2) * 1024 + 1 * r.val; rw [e0]; omega
    | ⟨1, _⟩ => show d.val = win1_4.index t (1 : Fin 2) * 1 + 1 * d.val; rw [e1]; omega
  · have hi0 : (i 0).val < 2048 := (i 0).isLt
    have hi1 : (i 1).val < 1 := (i 1).isLt
    have hN : cfg1.N = 128 := N_1
    obtain ⟨t, ht⟩ : ∃ t : Fin cfg1.N, t.val = 64 * ((i 0).val / 1024) + 63 := ⟨⟨64 * ((i 0).val / 1024) + 63, by omega⟩, rfl⟩
    obtain ⟨-, -, -, -, -, -, -, -, e0, e1, -⟩ := idx1 t
    refine ⟨t, (flush1_4 t).mpr (by omega), ?_⟩
    show i ∈ ((View.whole main_v5_1).slice (win1_4.rect t)).set
    rw [View.set_slice_whole, Rect.mem_set_unit]
    intro a
    match a with
    | ⟨0, _⟩ => show win1_4.index t (0 : Fin 2) * 1024 ≤ (i 0).val ∧ (i 0).val < win1_4.index t (0 : Fin 2) * 1024 + 1024; rw [e0]; omega
    | ⟨1, _⟩ => show win1_4.index t (1 : Fin 2) * 1 ≤ (i 1).val ∧ (i 1).val < win1_4.index t (1 : Fin 2) * 1 + 1; rw [e1]; omega

/-- The third result array (one column), from window 5's written-back blocks. -/
theorem final1_5 (c : Dev nD) (G : S2048x1.Idx → Elt F .f32)
    (h : ∀ (t : Fin cfg1.N), t.val % 64 = 63 → ∀ (r : Fin 1024) (d : Fin 1),
      ((dat1 V c).after 5 t : Vec F S1024x1 .f32) (ix2 r d)
        = G (ix2 (⟨t.val / 64 * 1024 + r.val, by
            have hN := lt128 t; have hr : r.val < 1024 := r.isLt; omega⟩ : Fin 2048) d)) :
    (dat1 V c).arrAt 5 cfg1.N = G := by
  refine (dat1 V c).arrAt_eq_of_cover 5 G (fun t hf => ?_) (fun i => ?_)
  · have h63 : t.val % 64 = 63 := (flush1_5 t).mp hf
    obtain ⟨-, -, -, -, -, -, -, -, -, -, e0, e1⟩ := idx1 t
    show (cfg1.win 5).cut (grid1.coords t) ((dat1 V c).after 5 t) = _
    funext j
    rw [View.read_apply]
    obtain ⟨r, d, rfl⟩ : ∃ (r : Fin 1024) (d : Fin 1), j = ix2 r d := ⟨j 0, j 1, eq_ix2 (n0 := 1024) (n1 := 1) j⟩
    show ((dat1 V c).after 5 t : Vec F S1024x1 .f32) (ix2 r d) = G _
    rw [h t h63 r d]
    congr 1
    funext a; apply Fin.ext
    match a with
    | ⟨0, _⟩ => show t.val / 64 * 1024 + r.val = win1_5.index t (0 : Fin 2) * 1024 + 1 * r.val; rw [e0]; omega
    | ⟨1, _⟩ => show d.val = win1_5.index t (1 : Fin 2) * 1 + 1 * d.val; rw [e1]; omega
  · have hi0 : (i 0).val < 2048 := (i 0).isLt
    have hi1 : (i 1).val < 1 := (i 1).isLt
    have hN : cfg1.N = 128 := N_1
    obtain ⟨t, ht⟩ : ∃ t : Fin cfg1.N, t.val = 64 * ((i 0).val / 1024) + 63 := ⟨⟨64 * ((i 0).val / 1024) + 63, by omega⟩, rfl⟩
    obtain ⟨-, -, -, -, -, -, -, -, -, -, e0, e1⟩ := idx1 t
    refine ⟨t, (flush1_5 t).mpr (by omega), ?_⟩
    show i ∈ ((View.whole main_v5_2).slice (win1_5.rect t)).set
    rw [View.set_slice_whole, Rect.mem_set_unit]
    intro a
    match a with
    | ⟨0, _⟩ => show win1_5.index t (0 : Fin 2) * 1024 ≤ (i 0).val ∧ (i 0).val < win1_5.index t (0 : Fin 2) * 1024 + 1024; rw [e0]; omega
    | ⟨1, _⟩ => show win1_5.index t (1 : Fin 2) * 1 ≤ (i 1).val ∧ (i 1).val < win1_5.index t (1 : Fin 2) * 1 + 1; rw [e1]; omega

end Cert.KernelIdeal.H

end
-- ==== Proof.LibOnlineSoftmax.lean ====
/-
  A general lemma about the "running softmax" recurrence over blocks of scores.

  A row's scores come in blocks `s 0, s 1, …` (each a function on a finite nonempty set `Q` of positions) with a
  value `v t q` beside every score. The recurrence keeps a running maximum `m`, a running sum `l` of
  `exp (score − m)` and a running weighted sum `a` of `exp (score − m) · value`; when a block raises the maximum
  from `m` to `m'`, the two sums are rescaled by `exp (m − m')`. It starts from `m = −∞`, `l = a = 0`.
  For REAL scores and values, after `t ≥ 1` blocks the three are the maximum of all scores seen, the sum of
  `exp (score − max)` over them and the weighted sum: exactly the quantities a softmax computed in one piece uses.
  The rescaling identity is `exp (m − m') · exp (x − m) = exp (x − m')`, and distributing `exp (m − m')` over the
  old sum needs the sums to be real — on the extended reals it would fail at the infinities, which is why the
  statement is about real scores.
-/
import Idealize.ShloMosaic.PureOps.Ideal.Laws

noncomputable section

namespace Cert.OnlineSoftmax

open Idealize.ShloMosaic

variable {Q : Type} [Fintype Q] [Nonempty Q]

/-! ## One block's step on the extended reals, as the recurrence computes it -/

/-- The maximum after a block: the old maximum against the block's own (a fold of `max` from `−∞`). -/
def newMax (m : EReal) (s : Q → EReal) : EReal := max m (Finset.univ.fold max ⊥ s)

/-- The running sum after a block. -/
def newSum (m l : EReal) (s : Q → EReal) : EReal :=
  Ideal.exp (m - newMax m s) * l + ∑ q, Ideal.exp (s q - newMax m s)

/-- The running weighted sum after a block. -/
def newAcc (m a : EReal) (s v : Q → EReal) : EReal :=
  Ideal.exp (m - newMax m s) * a + ∑ q, Ideal.exp (s q - newMax m s) * v q

/-- The state `(m, l, a)` after `t` blocks. -/
def run (s v : ℕ → Q → EReal) : ℕ → EReal × EReal × EReal
  | 0 => (⊥, 0, 0)
  | t + 1 => (newMax (run s v t).1 (s t), newSum (run s v t).1 (run s v t).2.1 (s t),
      newAcc (run s v t).1 (run s v t).2.2 (s t) (v t))

/-! ## Coercions -/

/-- A finite sum of reals, coerced, is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A block's maximum over real scores. -/
def bmax (s : Q → ℝ) : ℝ := Finset.univ.sup' Finset.univ_nonempty s

theorem le_bmax (s : Q → ℝ) (q : Q) : s q ≤ bmax s := Finset.le_sup' s (Finset.mem_univ q)

theorem exists_eq_bmax (s : Q → ℝ) : ∃ q, s q = bmax s := by
  obtain ⟨q, -, hq⟩ := Finset.exists_mem_eq_sup' Finset.univ_nonempty s
  exact ⟨q, hq.symm⟩

/-- The fold of `max` from `−∞` over coerced real scores is the coerced maximum. -/
theorem fold_max_coe (s : Q → ℝ) : Finset.univ.fold max (⊥ : EReal) (fun q => (s q : EReal)) = (bmax s : EReal) := by
  apply le_antisymm
  · rw [Finset.fold_max_le]
    exact ⟨bot_le, fun q _ => EReal.coe_le_coe_iff.mpr (le_bmax s q)⟩
  · obtain ⟨q, hq⟩ := exists_eq_bmax s
    rw [Finset.le_fold_max]
    exact Or.inr ⟨q, Finset.mem_univ q, by rw [hq]⟩

/-! ## The first block, from the empty state -/

theorem newMax_bot (s : Q → ℝ) : newMax ⊥ (fun q => (s q : EReal)) = (bmax s : EReal) := by
  unfold newMax; rw [fold_max_coe, max_eq_right bot_le]

theorem newSum_bot (s : Q → ℝ) :
    newSum ⊥ 0 (fun q => (s q : EReal)) = ((∑ q, Real.exp (s q - bmax s) : ℝ) : EReal) := by
  unfold newSum; rw [newMax_bot, EReal.bot_sub, Ideal.exp_bot, zero_mul, zero_add, coe_sum]
  exact Finset.sum_congr rfl fun q _ => by rw [← EReal.coe_sub, Ideal.exp_coe]

theorem newAcc_bot (s v : Q → ℝ) :
    newAcc ⊥ 0 (fun q => (s q : EReal)) (fun q => (v q : EReal))
      = ((∑ q, Real.exp (s q - bmax s) * v q : ℝ) : EReal) := by
  unfold newAcc; rw [newMax_bot, EReal.bot_sub, Ideal.exp_bot, zero_mul, zero_add, coe_sum]
  exact Finset.sum_congr rfl fun q _ => by rw [← EReal.coe_sub, Ideal.exp_coe, ← EReal.coe_mul]

/-! ## A later block, from a real state -/

theorem newMax_coe (M : ℝ) (s : Q → ℝ) : newMax (M : EReal) (fun q => (s q : EReal)) = ((max M (bmax s) : ℝ) : EReal) := by
  unfold newMax; rw [fold_max_coe]; exact (EReal.coe_strictMono.monotone.map_max).symm

theorem newSum_coe (M L : ℝ) (s : Q → ℝ) :
    newSum (M : EReal) (L : EReal) (fun q => (s q : EReal))
      = ((Real.exp (M - max M (bmax s)) * L + ∑ q, Real.exp (s q - max M (bmax s)) : ℝ) : EReal) := by
  unfold newSum
  rw [newMax_coe, ← EReal.coe_sub, Ideal.exp_coe, ← EReal.coe_mul, EReal.coe_add, coe_sum]
  exact congrArg _ (Finset.sum_congr rfl fun q _ => by rw [← EReal.coe_sub, Ideal.exp_coe])

theorem newAcc_coe (M A : ℝ) (s v : Q → ℝ) :
    newAcc (M : EReal) (A : EReal) (fun q => (s q : EReal)) (fun q => (v q : EReal))
      = ((Real.exp (M - max M (bmax s)) * A + ∑ q, Real.exp (s q - max M (bmax s)) * v q : ℝ) : EReal) := by
  unfold newAcc
  rw [newMax_coe, ← EReal.coe_sub, Ideal.exp_coe, ← EReal.coe_mul, EReal.coe_add, coe_sum]
  exact congrArg _ (Finset.sum_congr rfl fun q _ => by rw [← EReal.coe_sub, Ideal.exp_coe, ← EReal.coe_mul])

/-! ## The closed forms over the blocks seen so far -/

/-- The maximum of the scores of blocks `0 … t − 1` (junk `0` at `t = 0`). -/
def Mr (s : ℕ → Q → ℝ) : ℕ → ℝ
  | 0 => 0
  | 1 => bmax (s 0)
  | t + 2 => max (Mr s (t + 1)) (bmax (s (t + 1)))

/-- The sum of `exp (score − Mr t)` over blocks `0 … t − 1`. -/
def Lr (s : ℕ → Q → ℝ) (t : ℕ) : ℝ := ∑ t' ∈ Finset.range t, ∑ q, Real.exp (s t' q - Mr s t)

/-- The sum of `exp (score − Mr t) · value` over blocks `0 … t − 1`. -/
def Ar (s v : ℕ → Q → ℝ) (t : ℕ) : ℝ := ∑ t' ∈ Finset.range t, ∑ q, Real.exp (s t' q - Mr s t) * v t' q

theorem Mr_succ_succ (s : ℕ → Q → ℝ) (t : ℕ) : Mr s (t + 2) = max (Mr s (t + 1)) (bmax (s (t + 1))) := rfl

/-- Rescaling: `exp (M − M') · exp (x − M) = exp (x − M')`. -/
theorem exp_rescale (M M' x : ℝ) : Real.exp (M - M') * Real.exp (x - M) = Real.exp (x - M') := by
  rw [← Real.exp_add]; congr 1; ring

theorem Lr_succ (s : ℕ → Q → ℝ) (t : ℕ) :
    Real.exp (Mr s (t + 1) - Mr s (t + 2)) * Lr s (t + 1) + ∑ q, Real.exp (s (t + 1) q - Mr s (t + 2)) = Lr s (t + 2) := by
  unfold Lr
  rw [Finset.sum_range_succ _ (t + 1), Finset.mul_sum]
  congr 1
  exact Finset.sum_congr rfl fun t' _ => by
    rw [Finset.mul_sum]; exact Finset.sum_congr rfl fun q _ => exp_rescale _ _ _

theorem Ar_succ (s v : ℕ → Q → ℝ) (t : ℕ) :
    Real.exp (Mr s (t + 1) - Mr s (t + 2)) * Ar s v (t + 1) + ∑ q, Real.exp (s (t + 1) q - Mr s (t + 2)) * v (t + 1) q
      = Ar s v (t + 2) := by
  unfold Ar
  rw [Finset.sum_range_succ _ (t + 1), Finset.mul_sum]
  congr 1
  exact Finset.sum_congr rfl fun t' _ => by
    rw [Finset.mul_sum]; exact Finset.sum_congr rfl fun q _ => by rw [← mul_assoc, exp_rescale]

/-- THE RECURRENCE IS THE CLOSED FORM: after `t + 1` blocks of real scores and values the state is the maximum, the
    sum of exponentials and the weighted sum over all the blocks seen. -/
theorem run_coe (s v : ℕ → Q → ℝ) (t : ℕ) :
    run (fun t q => (s t q : EReal)) (fun t q => (v t q : EReal)) (t + 1)
      = (((Mr s (t + 1) : ℝ) : EReal), ((Lr s (t + 1) : ℝ) : EReal), ((Ar s v (t + 1) : ℝ) : EReal)) := by
  induction t with
  | zero =>
    show (newMax ⊥ _, newSum ⊥ 0 _, newAcc ⊥ 0 _ _) = _
    rw [newMax_bot, newSum_bot, newAcc_bot]
    simp [Mr, Lr, Ar]
  | succ t ih =>
    show (newMax (run _ _ (t + 1)).1 _, newSum (run _ _ (t + 1)).1 (run _ _ (t + 1)).2.1 _,
      newAcc (run _ _ (t + 1)).1 (run _ _ (t + 1)).2.2 _ _) = _
    rw [ih]
    dsimp only
    rw [newMax_coe, newSum_coe, newAcc_coe, ← Mr_succ_succ, Lr_succ, Ar_succ]

/-! ## The closed forms against a softmax in one piece -/

/-- Every score seen is below the running maximum … -/
theorem le_Mr (s : ℕ → Q → ℝ) (t : ℕ) : ∀ t' < t + 1, ∀ q, s t' q ≤ Mr s (t + 1) := by
  induction t with
  | zero => intro t' ht' q; obtain rfl : t' = 0 := by omega
            exact le_bmax _ q
  | succ t ih =>
    intro t' ht' q
    rw [Mr_succ_succ]
    rcases Nat.lt_succ_iff_lt_or_eq.mp ht' with h | rfl
    · exact (ih t' h q).trans (le_max_left _ _)
    · exact (le_bmax _ q).trans (le_max_right _ _)

/-- … and one of them attains it. -/
theorem exists_eq_Mr (s : ℕ → Q → ℝ) (t : ℕ) : ∃ t' < t + 1, ∃ q, s t' q = Mr s (t + 1) := by
  induction t with
  | zero => obtain ⟨q, hq⟩ := exists_eq_bmax (s 0); exact ⟨0, by omega, q, hq⟩
  | succ t ih =>
    rw [Mr_succ_succ]
    rcases le_total (Mr s (t + 1)) (bmax (s (t + 1))) with h | h
    · obtain ⟨q, hq⟩ := exists_eq_bmax (s (t + 1))
      exact ⟨t + 1, by omega, q, by rw [max_eq_right h, hq]⟩
    · obtain ⟨t', ht', q, hq⟩ := ih
      exact ⟨t', by omega, q, by rw [max_eq_left h, hq]⟩

/-- The sum of exponentials is positive: the block attaining the maximum contributes `exp 0 = 1`. -/
theorem Lr_pos (s : ℕ → Q → ℝ) (t : ℕ) : 0 < Lr s (t + 1) := by
  unfold Lr
  apply Finset.sum_pos
  · intro t' _; exact Finset.sum_pos (fun q _ => Real.exp_pos _) Finset.univ_nonempty
  · exact ⟨0, Finset.mem_range.mpr (by omega)⟩

/-- The last step of the recurrence, `a · (1 / l)`, is the real quotient. -/
theorem acc_mul_inv (A L : ℝ) (hL : L ≠ 0) : (A : EReal) * Ideal.div 1 (L : EReal) = ((A / L : ℝ) : EReal) := by
  rw [Ideal.div_coe hL, one_mul, ← EReal.coe_mul]; congr 1; rw [one_div, div_eq_mul_inv]

/-- A normalised weight as the one-piece softmax computes it, `exp (x − M) / (0 + l)`, is the real quotient. -/
theorem exp_div (x M L : ℝ) (hL : L ≠ 0) :
    Ideal.div (Ideal.exp ((x : EReal) - (M : EReal))) (0 + (L : EReal)) = ((Real.exp (x - M) / L : ℝ) : EReal) := by
  rw [zero_add, Ideal.div_coe hL, ← EReal.coe_sub, Ideal.exp_coe, ← EReal.coe_mul]; congr 1
  rw [one_div, div_eq_mul_inv]

/-- The weight as the recurrence's consumer rebuilds it, `exp (x − M) · (1 / l)`: the same quotient. -/
theorem exp_mul_inv (x M L : ℝ) (hL : L ≠ 0) :
    Ideal.exp ((x : EReal) - (M : EReal)) * Ideal.div 1 (L : EReal) = ((Real.exp (x - M) / L : ℝ) : EReal) := by
  rw [Ideal.div_coe hL, one_mul, ← EReal.coe_sub, Ideal.exp_coe, ← EReal.coe_mul]; congr 1
  rw [one_div, div_eq_mul_inv]

/-- The weighted sum divided by the sum is the sum of the normalised weights times the values. -/
theorem Ar_div_Lr (s v : ℕ → Q → ℝ) (t : ℕ) :
    Ar s v (t + 1) / Lr s (t + 1)
      = ∑ t' ∈ Finset.range (t + 1), ∑ q, Real.exp (s t' q - Mr s (t + 1)) / Lr s (t + 1) * v t' q := by
  unfold Ar
  rw [Finset.sum_div]
  exact Finset.sum_congr rfl fun t' _ => by
    rw [Finset.sum_div]; exact Finset.sum_congr rfl fun q _ => by ring

end Cert.OnlineSoftmax

end
-- ==== Proof.Consts.lean ====
/-
  The float constants the two programs spell, as the extended reals their bit patterns denote: −∞, +∞, 1 and 2.
  They are stated once here and read from here by the other modules.
-/
import proofs.«103804_j5325759447207_2_alg».proof.Proof.Spec
import Idealize.ShloMosaic.PureOps.Ideal.Laws

noncomputable section

namespace Cert.Consts

open Idealize.ShloMosaic

/-- The pattern of −∞ denotes the bottom of the extended reals. -/
theorem neg_inf : Ideal.ofBits .f32 0xFF800000#32 = (⊥ : EReal) := by
  simp [Ideal.ofBits, Ideal.ieee]

/-- The pattern of +∞ denotes the top of the extended reals. -/
theorem pos_inf : Ideal.ofBits .f32 0x7F800000#32 = (⊤ : EReal) := by
  simp [Ideal.ofBits, Ideal.ieee]

/-- The pattern of 1.0 denotes 1. -/
theorem one_eq : Cert.Spec.one = 1 := by
  unfold Cert.Spec.one
  simp [Ideal.ofBits, Ideal.ieee, -EReal.coe_mul]; norm_num

/-- The pattern of 2.0 denotes 2. -/
theorem two_eq : Cert.Spec.two = 2 := by
  unfold Cert.Spec.two
  simp [Ideal.ofBits, Ideal.ieee, -EReal.coe_mul]; norm_num
  rfl

/-- The pattern of 1.0 denotes the real 1, coerced. -/
theorem one_coe : Cert.Spec.one = ((1 : ℝ) : EReal) := by rw [one_eq, EReal.coe_one]

/-- The pattern of 2.0 denotes the real 2, coerced. -/
theorem two_coe : Cert.Spec.two = ((2 : ℝ) : EReal) := by rw [two_eq]; rfl

end Cert.Consts

end
-- ==== Proof.KSpec.lean ====
/-
  The specification in blocked form: a row's 65536 scores taken as 64 blocks of 1024, with the running maximum, the
  running sum of exponentials and the running weighted sum carried from block to block, and the softmax weights
  rebuilt from the final maximum and sum.
-/
import proofs.«103804_j5325759447207_2_alg».proof.Proof.Spec
import proofs.«103804_j5325759447207_2_alg».proof.Proof.LibOnlineSoftmax
import proofs.«103804_j5325759447207_2_alg».proof.Proof.Consts

noncomputable section

namespace Cert.KSpec

open Cert.Spec Idealize.ShloMosaic Idealize.ShloMosaic.ValueIdx

/-- The bin at position `q` of block `t`. -/
def binOf (t : Fin 64) (q : Fin 1024) : Fin 65536 := ⟨t.val * 1024 + q.val, by have := t.isLt; have := q.isLt; omega⟩

/-- Row `b`'s scores by blocks (junk `0` past the last block). -/
def sblk (s : Fin 2048 → Fin 65536 → EReal) (b : Fin 2048) : ℕ → Fin 1024 → EReal :=
  fun t q => if h : t < 64 then s b (binOf ⟨t, h⟩ q) else 0

/-- Column `d` of the buffer by blocks (junk `0` past the last block). -/
def vblk (buf : A2 65536 64) (d : Fin 64) : ℕ → Fin 1024 → EReal :=
  fun t q => if h : t < 64 then buf (ix2 (binOf ⟨t, h⟩ q) d) else 0

/-- The running state (maximum, sum, weighted sum) of row `b` against column `d` after `t` blocks. -/
def st (s : Fin 2048 → Fin 65536 → EReal) (buf : A2 65536 64) (b : Fin 2048) (d : Fin 64) (t : ℕ) : EReal × EReal × EReal :=
  Cert.OnlineSoftmax.run (sblk s b) (vblk buf d) t

/-- Row `b`'s final running maximum. -/
def kmax (s : Fin 2048 → Fin 65536 → EReal) (b : Fin 2048) : EReal :=
  (Cert.OnlineSoftmax.run (sblk s b) (fun _ _ => (0 : EReal)) 64).1

/-- Row `b`'s final running sum. -/
def ksum (s : Fin 2048 → Fin 65536 → EReal) (b : Fin 2048) : EReal :=
  (Cert.OnlineSoftmax.run (sblk s b) (fun _ _ => (0 : EReal)) 64).2.1

/-- The retrieved value: the final weighted sum times the reciprocal of the final sum. -/
def kret (s : Fin 2048 → Fin 65536 → EReal) (buf : A2 65536 64) (b : Fin 2048) (d : Fin 64) : EReal :=
  (st s buf b d 64).2.2 * Ideal.div Cert.Spec.one (st s buf b d 64).2.1

/-- The softmax weight rebuilt from the final maximum and sum. -/
def kattn (s : Fin 2048 → Fin 65536 → EReal) (b : Fin 2048) (n : Fin 65536) : EReal :=
  Ideal.exp (s b n - kmax s b) * Ideal.div Cert.Spec.one (ksum s b)

/-- The updated buffer from the rebuilt weights. -/
def kupd (s : Fin 2048 → Fin 65536 → EReal) (m : Fin 2048 → Fin 64 → EReal) (buf : A2 65536 64) (n : Fin 65536) (d : Fin 64) : EReal :=
  buf (ix2 n d) + Cert.Spec.lam * ((∑ b : Fin 2048, kattn s b n * m b d) - (∑ b : Fin 2048, kattn s b n * 1) * buf (ix2 n d))

/-- The running maximum and the running sum do not depend on the values beside the scores. -/
theorem run_fst_indep {Q : Type} [Fintype Q] (s v v' : ℕ → Q → EReal) (t : ℕ) :
    (Cert.OnlineSoftmax.run s v t).1 = (Cert.OnlineSoftmax.run s v' t).1
      ∧ (Cert.OnlineSoftmax.run s v t).2.1 = (Cert.OnlineSoftmax.run s v' t).2.1 := by
  induction t with
  | zero => exact ⟨rfl, rfl⟩
  | succ t ih =>
    show Cert.OnlineSoftmax.newMax (Cert.OnlineSoftmax.run s v t).1 (s t) = Cert.OnlineSoftmax.newMax (Cert.OnlineSoftmax.run s v' t).1 (s t)
      ∧ Cert.OnlineSoftmax.newSum (Cert.OnlineSoftmax.run s v t).1 (Cert.OnlineSoftmax.run s v t).2.1 (s t)
        = Cert.OnlineSoftmax.newSum (Cert.OnlineSoftmax.run s v' t).1 (Cert.OnlineSoftmax.run s v' t).2.1 (s t)
    rw [ih.1, ih.2]
    exact ⟨rfl, rfl⟩

/-- For every column the state's maximum is the row's. -/
theorem st_max (s : Fin 2048 → Fin 65536 → EReal) (buf : A2 65536 64) (b : Fin 2048) (d : Fin 64) :
    (st s buf b d 64).1 = kmax s b := (run_fst_indep (sblk s b) (vblk buf d) (fun _ _ => (0 : EReal)) 64).1

/-- For every column the state's sum is the row's. -/
theorem st_sum (s : Fin 2048 → Fin 65536 → EReal) (buf : A2 65536 64) (b : Fin 2048) (d : Fin 64) :
    (st s buf b d 64).2.1 = ksum s b := (run_fst_indep (sblk s b) (vblk buf d) (fun _ _ => (0 : EReal)) 64).2

/-- The literal 1.0 is 1. -/
theorem one_eq : Cert.Spec.one = 1 := Cert.Consts.one_eq

/-- The literal 2.0 is 2. -/
theorem two_eq : Cert.Spec.two = 2 := Cert.Consts.two_eq

end Cert.KSpec

end
-- ==== Proof.KPay1.lean ====
/-
  One block step of the running softmax, entry by entry on the extended reals: each value the second kernel's body
  computes (the block's scores, the new running maximum, the rescaling factor, the block's unnormalised weights, the
  new running sum and weighted sum, the final normalisation, the initial state) read at an index given by coordinates.
-/
import proofs.«103804_j5325759447207_2_alg».proof.Proof.Gen.KernelIdeal.Skeleton
import proofs.«103804_j5325759447207_2_alg».proof.Proof.Spec
import proofs.«103804_j5325759447207_2_alg».proof.Proof.LibOnlineSoftmax
import proofs.«103804_j5325759447207_2_alg».proof.Proof.LibLayoutCols
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx Cert.LayoutCols

/-- The block's score at (r, q): minus the squared distance of key row r and prototype row q, as the body spells it. -/
theorem k1_pay8_apply (kb pb : Vec Ideal S1024x64 .f32) (r q : Fin 1024) :
    k1_pay8 kb pb (ix2 r q) = Ideal.div (0 - (((∑ d : Fin 64, kb (ix2 r d) * kb (ix2 r d)) + ∑ d : Fin 64, pb (ix2 q d) * pb (ix2 q d)) - Cert.Spec.two * ∑ d : Fin 64, kb (ix2 r d) * pb (ix2 q d))) Cert.Spec.one := by
  have ht : ∀ d : Fin 64, transpose S64x1024 [1, 0] (truncf (F := Ideal) .bf16 (pb : FVec Ideal S1024x64 .f32) bitsLt_bf16_f32) transposes_S1024x64_p1_0_S64x1024 (ix2 d q) = pb (ix2 q d) :=
    fun d => transpose_ix2_apply (truncf (F := Ideal) .bf16 (pb : FVec Ideal S1024x64 .f32) bitsLt_bf16_f32) _ d q
  unfold k1_pay8
  simp only [shapeCast_self, divf_apply, subf_apply, addf_apply, mulf_apply, broadcast_apply,
    broadcastTo_a1_ab_apply, shapeCast_a_a1_apply, broadcastTo_1b_ab_apply, shapeCast_a_1a_apply,
    matmul_plain_zero_apply dot_S1024x64_S64x1024_S1024x1024_1_0_0_1_n_n rfl rfl rfl rfl rfl rfl, truncf_apply, ht]
  have ex := multiReduction_add_axis1_apply (mulf (kb : FVec Ideal S1024x64 .f32) kb) reduces_S1024x64_S1024 (.inl rfl) rfl r
  have ey := multiReduction_add_axis1_apply (mulf (pb : FVec Ideal S1024x64 .f32) pb) reduces_S1024x64_S1024 (.inl rfl) rfl q
  exact congrArg₂ Ideal.div (congrArg₂ (· - ·) Ideal.ofBits_zero_f32 (congrArg₂ (· - ·) (congrArg₂ (· + ·) ex ey) rfl)) rfl

/-- The new running maximum of row r: the old one against the fold of max, from the bottom, of the block's scores. -/
theorem k1_pay9_apply (kb pb : Vec Ideal S1024x64 .f32) (m : Vec Ideal S1024x1 .f32) (r : Fin 1024) :
    k1_pay9 kb pb m (ix2 r (0 : Fin 1))
      = Cert.OnlineSoftmax.newMax (m (ix2 r (0 : Fin 1))) (fun q : Fin 1024 => k1_pay8 kb pb (ix2 r q)) := by
  unfold k1_pay9
  rw [maximumf_apply, shapeCast_a_a1_apply]
  exact congrArg (max (m (ix2 r (0 : Fin 1))))
    (multiReduction_maximumf_axis1_apply (k1_pay8 kb pb) reduces_S1024x1024_S1024 (.inl rfl) rfl r)

/-- An exponential at an index, at the extended reals, is the exponential of the element. -/
theorem exp_apply {s : Shape} {φ : FTy} (a : FVec Ideal s φ) (i : s.Idx) : exp a i = Ideal.exp (a i) := rfl

/-- The rescaling factor of row r. -/
theorem k1_pay10_apply (kb pb : Vec Ideal S1024x64 .f32) (m m' : Vec Ideal S1024x1 .f32) (r : Fin 1024) :
    k1_pay10 kb pb m m' (ix2 r (0 : Fin 1)) = Ideal.exp (m' (ix2 r (0 : Fin 1)) - k1_pay9 kb pb m (ix2 r (0 : Fin 1))) := by
  unfold k1_pay10
  rw [exp_apply, subf_apply]

/-- The block's unnormalised weight at (r, q). -/
theorem k1_pay11_apply (kb pb : Vec Ideal S1024x64 .f32) (m : Vec Ideal S1024x1 .f32) (r q : Fin 1024) :
    k1_pay11 kb pb m (ix2 r q) = Ideal.exp (k1_pay8 kb pb (ix2 r q) - k1_pay9 kb pb m (ix2 r (0 : Fin 1))) := by
  unfold k1_pay11
  rw [exp_apply, subf_apply, broadcastTo_a1_ab_apply]

/-- The new running sum of row r. -/
theorem k1_pay1_apply (α : FVec Ideal S1024x1 .f32) (P : FVec Ideal S1024x1024 .f32) (l : Vec Ideal S1024x1 .f32) (r : Fin 1024) :
    k1_pay1 α P l (ix2 r (0 : Fin 1)) = α (ix2 r (0 : Fin 1)) * l (ix2 r (0 : Fin 1)) + ∑ q : Fin 1024, P (ix2 r q) := by
  unfold k1_pay1
  rw [shapeCast_self, addf_apply, mulf_apply, shapeCast_a_a1_apply]
  exact congrArg (α (ix2 r (0 : Fin 1)) * l (ix2 r (0 : Fin 1)) + ·)
    (multiReduction_add_axis1_apply P reduces_S1024x1024_S1024 (.inl rfl) rfl r)

/-- The new running weighted sum at (r, d). -/
theorem k1_pay2_apply (bb : Vec Ideal S1024x64 .f32) (α : FVec Ideal S1024x1 .f32) (P : FVec Ideal S1024x1024 .f32)
    (acc : Vec Ideal S1024x64 .f32) (r : Fin 1024) (d : Fin 64) :
    k1_pay2 bb α P acc (ix2 r d) = α (ix2 r (0 : Fin 1)) * acc (ix2 r d) + ∑ q : Fin 1024, P (ix2 r q) * bb (ix2 q d) := by
  unfold k1_pay2
  rw [shapeCast_self, addf_apply, mulf_apply, broadcastTo_a1_ab_apply,
    matmul_plain_zero_apply dot_S1024x1024_S1024x64_S1024x64_1_0_0_1_n_n rfl rfl rfl rfl rfl rfl]
  rfl

/-- The stored maximum is the new maximum. -/
theorem k1_pay3_eq (v : FVec Ideal S1024x1 .f32) : k1_pay3 v = v := shapeCast_self v _

/-- The final normalisation at (r, d). -/
theorem k1_pay4_apply (acc : Vec Ideal S1024x64 .f32) (l : Vec Ideal S1024x1 .f32) (r : Fin 1024) (d : Fin 64) :
    k1_pay4 acc l (ix2 r d) = acc (ix2 r d) * Ideal.div Cert.Spec.one (l (ix2 r (0 : Fin 1))) := by
  unfold k1_pay4
  rw [mulf_apply, broadcastTo_a1_ab_apply, divf_apply, broadcast_apply]
  rfl

/-- The initial running maximum is the bottom ... -/
theorem k1_pay5_apply (r : Fin 1024) : k1_pay5 (F := Ideal) (ix2 r (0 : Fin 1)) = ⊥ := by
  unfold k1_pay5
  rw [shapeCast_self, broadcast_apply]
  exact ofBits_neg_inf_f32

/-- ... the initial running sum zero ... -/
theorem k1_pay6_apply (r : Fin 1024) : k1_pay6 (F := Ideal) (ix2 r (0 : Fin 1)) = 0 := by
  unfold k1_pay6
  rw [shapeCast_self, broadcast_apply]
  exact Ideal.ofBits_zero_f32

/-- ... and the initial running weighted sum zero. -/
theorem k1_pay7_apply (r : Fin 1024) (d : Fin 64) : k1_pay7 (F := Ideal) (ix2 r d) = 0 := by
  unfold k1_pay7
  rw [shapeCast_self, broadcast_apply]
  exact Ideal.ofBits_zero_f32

end Cert.KPay

end
-- ==== Proof.KIVal1.lean ====
/- Region 1 at the ideal instance: the three scratch buffers after the block nj of batch tile bi hold, at row r (and column d),
   the running-softmax state after nj + 1 blocks of the scores of batch row 1024·bi + r against all prototypes, with the
   buffer's column d as values; so the three results are, row by row, the weighted sum over the sum, the maximum and the sum
   after all 64 blocks. The induction is over the grid point; one step is the payloads read at an index. -/
import proofs.«103804_j5325759447207_2_alg».proof.Proof.KIReg1Pieces
import proofs.«103804_j5325759447207_2_alg».proof.Proof.KIVal1Blocks
import proofs.«103804_j5325759447207_2_alg».proof.Proof.KSpec
import proofs.«103804_j5325759447207_2_alg».proof.Proof.KPay1

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.OnlineSoftmax Cert.KSpec Cert.KPay Idealize.ShloMosaic.ValueIdx

variable (V : (c : Dev nD) → (b : Ref sig .tc) → Buf (Elt Ideal) ((c : Thread nD τ).loc b))

/-- The keys, the prototypes and the buffer as region 1 finds them, by literal coordinates; the scores. -/
def kA (c : Dev nD) : Fin 2048 → Fin 64 → EReal := fun b d => (V c main_v4_0 : S2048x64.Idx → EReal) (ix2 b d)
def pA (c : Dev nD) : Cert.Spec.A2 65536 64 := (V c main_arg6 : S65536x64.Idx → EReal)
def bA (c : Dev nD) : Cert.Spec.A2 65536 64 := (V c main_arg7 : S65536x64.Idx → EReal)
def sA (c : Dev nD) : Fin 2048 → Fin 65536 → EReal := Cert.Spec.score (kA V c) (pA V c)

/-- Batch row of row r of the batch tile that point n belongs to; the block of bins of point n. -/
def rowOf (n : ℕ) (hn : n < 128) (r : Fin 1024) : Fin 2048 := ⟨n / 64 * 1024 + r.val, by have := r.isLt; omega⟩
def blkOf (n : ℕ) : Fin 64 := ⟨n % 64, Nat.mod_lt _ (by decide)⟩

theorem st_zero (s : Fin 2048 → Fin 65536 → EReal) (buf : Cert.Spec.A2 65536 64) (b : Fin 2048) (d : Fin 64) :
    st s buf b d 0 = (⊥, 0, 0) := rfl

/-- One more block of the recurrence, at the block tt. -/
theorem st_step (s : Fin 2048 → Fin 65536 → EReal) (buf : Cert.Spec.A2 65536 64) (b : Fin 2048) (d : Fin 64) (t : ℕ) (tt : Fin 64) (h : tt.val = t) :
    st s buf b d (t + 1) = (newMax (st s buf b d t).1 (fun q => s b (binOf tt q)),
      newSum (st s buf b d t).1 (st s buf b d t).2.1 (fun q => s b (binOf tt q)),
      newAcc (st s buf b d t).1 (st s buf b d t).2.2 (fun q => s b (binOf tt q)) (fun q => buf (ix2 (binOf tt q) d))) := by
  subst h
  show (newMax _ (sblk s b tt.val), newSum _ _ (sblk s b tt.val), newAcc _ _ (sblk s b tt.val) (vblk buf d tt.val)) = _
  have e1 : sblk s b tt.val = fun q => s b (binOf tt q) := by
    funext q; unfold sblk; rw [dif_pos tt.isLt]
  have e2 : vblk buf d tt.val = fun q => buf (ix2 (binOf tt q) d) := by
    funext q; unfold vblk; rw [dif_pos tt.isLt]
  rw [e1, e2]
  rfl

/-- One block's step read at row r and column d. -/
theorem step1_apply (kb pb bb : Vec Ideal S1024x64 .f32) (m l : Vec Ideal S1024x1 .f32) (a : Vec Ideal S1024x64 .f32) (r : Fin 1024) (d : Fin 64) :
    (step1 kb pb bb m l a).1 (ix2 r (0 : Fin 1)) = newMax (m (ix2 r (0 : Fin 1))) (fun q : Fin 1024 => k1_pay8 kb pb (ix2 r q))
    ∧ (step1 kb pb bb m l a).2.1 (ix2 r (0 : Fin 1)) = newSum (m (ix2 r (0 : Fin 1))) (l (ix2 r (0 : Fin 1))) (fun q : Fin 1024 => k1_pay8 kb pb (ix2 r q))
    ∧ (step1 kb pb bb m l a).2.2 (ix2 r d) = newAcc (m (ix2 r (0 : Fin 1))) (a (ix2 r d)) (fun q : Fin 1024 => k1_pay8 kb pb (ix2 r q)) (fun q : Fin 1024 => bb (ix2 q d)) := by
  have h9 := k1_pay9_apply kb pb m r
  refine ⟨?_, ?_, ?_⟩
  · show k1_pay3 (k1_pay9 kb pb m) (ix2 r (0 : Fin 1)) = _
    rw [k1_pay3_eq]; exact h9
  · show k1_pay1 (k1_pay10 kb pb m m) (k1_pay11 kb pb m) l (ix2 r (0 : Fin 1)) = _
    rw [k1_pay1_apply, k1_pay10_apply, h9]
    unfold newSum
    exact congrArg _ (Finset.sum_congr rfl fun q _ => by rw [k1_pay11_apply, h9])
  · show k1_pay2 bb (k1_pay10 kb pb m m) (k1_pay11 kb pb m) a (ix2 r d) = _
    rw [k1_pay2_apply, k1_pay10_apply, h9]
    unfold newAcc
    exact congrArg _ (Finset.sum_congr rfl fun q _ => by rw [k1_pay11_apply, h9])

/-- A block's scores are the scores of the batch row against the block's bins. -/
theorem score_blk (c : Dev nD) (t : Fin cfg1.N) (r q : Fin 1024) :
    k1_pay8 (iblk1 V c 0 t) (iblk1 V c 1 t) (ix2 r q) = sA V c (rowOf t.val (lt128 t) r) (binOf (blkOf t.val) q) := by
  rw [k1_pay8_apply]
  unfold sA Cert.Spec.score kA pA
  simp only [iblk1_0_apply V c t, iblk1_1_apply V c t]
  rfl

/-- One step at point t, from any scratch contents whose row r (column d) is the state T. -/
theorem step_val (c : Dev nD) (t : Fin cfg1.N) (m l : Vec Ideal S1024x1 .f32) (a : Vec Ideal S1024x64 .f32) (r : Fin 1024) (d : Fin 64)
    (T : EReal × EReal × EReal) (hm : m (ix2 r (0 : Fin 1)) = T.1) (hl : l (ix2 r (0 : Fin 1)) = T.2.1) (ha : a (ix2 r d) = T.2.2) :
    (step1 (iblk1 V c 0 t) (iblk1 V c 1 t) (iblk1 V c 2 t) m l a).1 (ix2 r (0 : Fin 1))
        = newMax T.1 (fun q => sA V c (rowOf t.val (lt128 t) r) (binOf (blkOf t.val) q))
    ∧ (step1 (iblk1 V c 0 t) (iblk1 V c 1 t) (iblk1 V c 2 t) m l a).2.1 (ix2 r (0 : Fin 1))
        = newSum T.1 T.2.1 (fun q => sA V c (rowOf t.val (lt128 t) r) (binOf (blkOf t.val) q))
    ∧ (step1 (iblk1 V c 0 t) (iblk1 V c 1 t) (iblk1 V c 2 t) m l a).2.2 (ix2 r d)
        = newAcc T.1 T.2.2 (fun q => sA V c (rowOf t.val (lt128 t) r) (binOf (blkOf t.val) q)) (fun q => bA V c (ix2 (binOf (blkOf t.val) q) d)) := by
  obtain ⟨e1, e2, e3⟩ := step1_apply (iblk1 V c 0 t) (iblk1 V c 1 t) (iblk1 V c 2 t) m l a r d
  have hs : (fun q : Fin 1024 => k1_pay8 (iblk1 V c 0 t) (iblk1 V c 1 t) (ix2 r q))
      = fun q => sA V c (rowOf t.val (lt128 t) r) (binOf (blkOf t.val) q) := funext fun q => score_blk V c t r q
  have hv : (fun q : Fin 1024 => (iblk1 V c 2 t : Vec Ideal S1024x64 .f32) (ix2 q d))
      = fun q => bA V c (ix2 (binOf (blkOf t.val) q) d) := funext fun q => by
    rw [iblk1_2_apply V c t q d]; rfl
  rw [e1, e2, e3, hs, hv, hm, hl, ha]
  exact ⟨rfl, rfl, rfl⟩

/-- THE INDUCTION: after point n the scratch buffers hold the recurrence's state after n % 64 + 1 blocks. -/
theorem scr1_val (c : Dev nD) : ∀ (n : ℕ) (hn : n < cfg1.N) (r : Fin 1024) (d : Fin 64),
    (scr1 V c n hn).1 (ix2 r (0 : Fin 1)) = (st (sA V c) (bA V c) (rowOf n (lt128 ⟨n, hn⟩) r) d (n % 64 + 1)).1
    ∧ (scr1 V c n hn).2.1 (ix2 r (0 : Fin 1)) = (st (sA V c) (bA V c) (rowOf n (lt128 ⟨n, hn⟩) r) d (n % 64 + 1)).2.1
    ∧ (scr1 V c n hn).2.2 (ix2 r d) = (st (sA V c) (bA V c) (rowOf n (lt128 ⟨n, hn⟩) r) d (n % 64 + 1)).2.2 := by
  intro n
  induction n with
  | zero =>
    intro hn r d
    rw [scr1_first V c 0 hn rfl, st_step (sA V c) (bA V c) _ d (0 % 64) (blkOf 0) rfl]
    exact step_val V c ⟨0, hn⟩ _ _ _ r d (⊥, 0, 0) (k1_pay5_apply r) (k1_pay6_apply r) (k1_pay7_apply r d)
  | succ n ih =>
    intro hn r d
    have hN : n + 1 < 128 := lt128 ⟨n + 1, hn⟩
    by_cases h0 : (n + 1) % 64 = 0
    · rw [scr1_first V c (n + 1) hn h0, st_step (sA V c) (bA V c) _ d ((n + 1) % 64) (blkOf (n + 1)) rfl, h0]
      exact step_val V c ⟨n + 1, hn⟩ _ _ _ r d (⊥, 0, 0) (k1_pay5_apply r) (k1_pay6_apply r) (k1_pay7_apply r d)
    · obtain ⟨i1, i2, i3⟩ := ih (Nat.lt_of_succ_lt hn) r d
      have e : (n + 1) % 64 = n % 64 + 1 := by omega
      have eb : rowOf (n + 1) hN r = rowOf n (lt128 ⟨n, Nat.lt_of_succ_lt hn⟩) r := Fin.ext (by unfold rowOf; dsimp only; omega)
      rw [scr1_next V c n hn h0, st_step (sA V c) (bA V c) _ d ((n + 1) % 64) (blkOf (n + 1)) rfl]
      rw [show st (sA V c) (bA V c) (rowOf (n + 1) (lt128 ⟨n + 1, hn⟩) r) d ((n + 1) % 64)
        = st (sA V c) (bA V c) (rowOf n (lt128 ⟨n, Nat.lt_of_succ_lt hn⟩) r) d (n % 64 + 1) from by rw [e, eb]]
      exact step_val V c ⟨n + 1, hn⟩ _ _ _ r d _ i1 i2 i3

/-! ## The three results -/

/-- The first result is, row by row, the recurrence's weighted sum over its sum after all 64 blocks. -/
theorem final1_r (c : Dev nD) : (dat1 V c).arrAt 3 cfg1.N = fun i : S2048x64.Idx => kret (sA V c) (bA V c) (i 0) (i 1) := by
  refine final1_3 V c _ fun t ht r d => ?_
  have hN := lt128 t
  obtain ⟨_, i2, i3⟩ := scr1_val V c t.val t.isLt r d
  rw [after1_3, (outsAt1_res V c t ht).1, k1_pay4_apply, i2, i3]
  have e : t.val % 64 + 1 = 64 := by omega
  rw [e]
  rfl

/-- The second is the maximum. -/
theorem final1_max (c : Dev nD) : (dat1 V c).arrAt 4 cfg1.N = fun i : S2048x1.Idx => kmax (sA V c) (i 0) := by
  refine final1_4 V c _ fun t ht r d => ?_
  have hN := lt128 t
  obtain rfl : d = 0 := Subsingleton.elim _ _
  obtain ⟨i1, _, _⟩ := scr1_val V c t.val t.isLt r 0
  rw [after1_4, (outsAt1_res V c t ht).2.1, i1]
  have e : t.val % 64 + 1 = 64 := by omega
  rw [e, st_max]
  rfl

/-- The third is the sum. -/
theorem final1_sum (c : Dev nD) : (dat1 V c).arrAt 5 cfg1.N = fun i : S2048x1.Idx => ksum (sA V c) (i 0) := by
  refine final1_5 V c _ fun t ht r d => ?_
  have hN := lt128 t
  obtain rfl : d = 0 := Subsingleton.elim _ _
  obtain ⟨_, i2, _⟩ := scr1_val V c t.val t.isLt r 0
  rw [after1_5, (outsAt1_res V c t ht).2.2, i2]
  have e : t.val % 64 + 1 = 64 := by omega
  rw [e, st_sum]
  rfl

end Cert.KernelIdeal.H

end
-- ==== Proof.KRow.lean ====
/-
  One bin's row of the buffer update, as functions on the extended reals: the score of a key row against the bin's
  prototype row (minus the squared distance, as both programs spell it), the normalised weight rebuilt from the stored
  row maximum and row sum, and the updated entry of the bin's buffer row.
-/
import proofs.«103804_j5325759447207_2_alg».proof.Proof.Spec

noncomputable section

namespace Cert.KPay

open Idealize.ShloMosaic

/-- Minus the squared distance between key row b and a prototype row. -/
def scoreRow (k : Fin 2048 → Fin 64 → EReal) (prow : Fin 64 → EReal) (b : Fin 2048) : EReal :=
  Ideal.div (0 - (((∑ d : Fin 64, k b d * k b d) + ∑ d : Fin 64, prow d * prow d)
    - Cert.Spec.two * ∑ d : Fin 64, k b d * prow d)) Cert.Spec.one

/-- The normalised weight of key row b for the bin, from the stored row maximum and row sum. -/
def wRow (k : Fin 2048 → Fin 64 → EReal) (mx ls : Fin 2048 → EReal) (prow : Fin 64 → EReal) (b : Fin 2048) : EReal :=
  Ideal.exp (scoreRow k prow b - mx b) * Ideal.div Cert.Spec.one (ls b)

/-- The updated entry d of the bin's buffer row. -/
def updRow (k m : Fin 2048 → Fin 64 → EReal) (mx ls : Fin 2048 → EReal) (prow : Fin 64 → EReal) (bufv : EReal)
    (d : Fin 64) : EReal :=
  bufv + Cert.Spec.lam * ((∑ b : Fin 2048, wRow k mx ls prow b * m b d) - (∑ b : Fin 2048, wRow k mx ls prow b * 1) * bufv)

end Cert.KPay

end
-- ==== Proof.KPay2.lean ====
/-
  The buffer update of one block of 512 bins, entry by entry on the extended reals: the normalised weights of the
  block's bins rebuilt from the stored row maxima and row sums, and the update of the block from the weighted sums
  of the values. The body gets the two weighted sums out of ONE matrix product, by putting a column of ones beside
  the values: column 64 of the product is the sum of the weights.
-/
import proofs.«103804_j5325759447207_2_alg».proof.Proof.Gen.KernelIdeal.Skeleton
import proofs.«103804_j5325759447207_2_alg».proof.Proof.Spec
import proofs.«103804_j5325759447207_2_alg».proof.Proof.LibOnlineSoftmax
import proofs.«103804_j5325759447207_2_alg».proof.Proof.LibLayoutCols
import proofs.«103804_j5325759447207_2_alg».proof.Proof.KRow
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx Cert.LayoutCols

/-- An exponential at an index, at the extended reals, is the exponential of the element. -/
theorem exp_apply' {s : Shape} {φ : FTy} (a : FVec Ideal s φ) (i : s.Idx) : exp a i = Ideal.exp (a i) := rfl

/-- The stored values pass through unchanged (a change of format is the identity on the extended reals). -/
theorem k2_pay3_apply (mm : Vec Ideal S2048x64 .f32) (i : S2048x64.Idx) : k2_pay3 mm i = mm i := by
  unfold k2_pay3
  rw [truncf_apply, shapeCast_self]

/-- The normalised weight of key row b for bin n of the block. -/
theorem k2_pay2_apply (pb : Vec Ideal S512x64 .f32) (k : Vec Ideal S2048x64 .f32) (mx ls : Vec Ideal S2048x1 .f32)
    (b : Fin 2048) (n : Fin 512) :
    k2_pay2 pb k mx ls (ix2 b n)
      = Ideal.exp (Ideal.div (0 - (((∑ d : Fin 64, k (ix2 b d) * k (ix2 b d)) + ∑ d : Fin 64, pb (ix2 n d) * pb (ix2 n d))
            - Cert.Spec.two * ∑ d : Fin 64, k (ix2 b d) * pb (ix2 n d))) Cert.Spec.one - mx (ix2 b (0 : Fin 1)))
          * Ideal.div Cert.Spec.one (ls (ix2 b (0 : Fin 1))) := by
  have ht : ∀ d : Fin 64, transpose S64x512 [1, 0] (truncf (F := Ideal) .bf16 (pb : FVec Ideal S512x64 .f32) bitsLt_bf16_f32)
      transposes_S512x64_p1_0_S64x512 (ix2 d n) = pb (ix2 n d) :=
    fun d => transpose_ix2_apply (truncf (F := Ideal) .bf16 (pb : FVec Ideal S512x64 .f32) bitsLt_bf16_f32) _ d n
  unfold k2_pay2
  simp only [shapeCast_self, divf_apply, subf_apply, addf_apply, mulf_apply, broadcast_apply, exp_apply',
    broadcastTo_a1_ab_apply, shapeCast_a_a1_apply, broadcastTo_1b_ab_apply, shapeCast_a_1a_apply,
    matmul_plain_zero_apply dot_S2048x64_S64x512_S2048x512_1_0_0_1_n_n rfl rfl rfl rfl rfl rfl, truncf_apply, ht]
  have ex := multiReduction_add_axis1_apply (mulf (k : FVec Ideal S2048x64 .f32) k) reduces_S2048x64_S2048 (.inl rfl) rfl b
  have ey := multiReduction_add_axis1_apply (mulf (pb : FVec Ideal S512x64 .f32) pb) reduces_S512x64_S512 (.inl rfl) rfl n
  exact congrArg₂ (· * ·) (congrArg Ideal.exp (congrArg₂ (· - ·) (congrArg₂ Ideal.div (congrArg₂ (· - ·) Ideal.ofBits_zero_f32
    (congrArg₂ (· - ·) (congrArg₂ (· + ·) ex ey) rfl)) rfl) rfl)) rfl

/-! ## The product with the ones-column -/

section Concat
variable {α : Type}

/-- Two matrices side by side read, at a column inside the first, the first. -/
theorem concat_cols_left {a b₁ b₂ c : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, c]⟩ 1) (i : Fin a) (j : Fin c) (j' : Fin b₁)
    (hj : j'.val = j.val) :
    concatenate ⟨2, ![a, c]⟩ 1 [⟨⟨2, ![a, b₁]⟩, x₁⟩, ⟨⟨2, ![a, b₂]⟩, x₂⟩] h (ix2 i j) = x₁ (ix2 i j') :=
  concatenate_pair_apply_left 1 x₁ x₂ h (ix2 i j) rfl (ix2 i j') fun b => by
    match b with
    | ⟨0, _⟩ => rfl
    | ⟨1, _⟩ => exact hj

/-- Two matrices side by side read, at a column past the first, the second at that column less the first's width. -/
theorem concat_cols_right {a b₁ b₂ c : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, c]⟩ 1) (i : Fin a) (j : Fin c) (j' : Fin b₂)
    (hj : j'.val + b₁ = j.val) :
    concatenate ⟨2, ![a, c]⟩ 1 [⟨⟨2, ![a, b₁]⟩, x₁⟩, ⟨⟨2, ![a, b₂]⟩, x₂⟩] h (ix2 i j) = x₂ (ix2 i j') :=
  concatenate_pair_apply_right 1 x₁ x₂ h (ix2 i j) rfl rfl (ix2 i j') (fun b hb => by
    match b, hb with
    | ⟨0, _⟩, _ => rfl
    | ⟨1, _⟩, hb => exact absurd (Fin.ext rfl) hb) hj

end Concat

/-- The product of the transposed weights with a 2048 x 128 operand, into the zero splat, at (n, j). -/
theorem aug_apply (P : FVec Ideal S2048x512 .bf16) (C : FVec Ideal S2048x128 .bf16) (n : Fin 512) (j : Fin 128) :
    matmul dot_S512x2048_S2048x128_S512x128_1_0_0_1_n_n none
        (transpose S512x2048 [1, 0] P transposes_S2048x512_p1_0_S512x2048) C (constant S512x128 .f32 0x00000000#32) (ix2 n j)
      = ∑ b : Fin 2048, P (ix2 b n) * C (ix2 b j) := by
  rw [matmul_plain_zero_apply dot_S512x2048_S2048x128_S512x128_1_0_0_1_n_n rfl rfl rfl rfl rfl rfl]
  exact Finset.sum_congr rfl fun b _ => congrArg (· * C (ix2 b j)) (transpose_ix2_apply P _ n b)

/-- The block that is one in column 0 and zero elsewhere, as the body builds it from the count along the columns. -/
def onesCol : FVec Ideal S2048x64 .bf16 :=
  truncf .bf16 (select (cmpi .eq (iota .tc S2048x64 32 [1] iota_S2048x64_d1_w32) (broadcast S2048x64 0#32))
    (broadcast S2048x64 (Scalar.ofBits (F := Ideal) .f32 0x3F800000#32))
    (broadcast S2048x64 (Scalar.ofBits (F := Ideal) .f32 0x00000000#32))) bitsLt_bf16_f32

/-- Its column 0 is one. -/
theorem onesCol_zero (b : Fin 2048) : onesCol (ix2 b (0 : Fin 64)) = 1 := by
  unfold onesCol
  rw [truncf_apply, select_apply, broadcast_apply, broadcast_apply]
  have hc : cmpi CmpIPredicate.eq (iota Kind.tc S2048x64 32 [1] iota_S2048x64_d1_w32) (broadcast S2048x64 0#32)
      (ix2 b (0 : Fin 64)) = 1#1 := by
    show IntOp.cmpi .eq (iota Kind.tc S2048x64 32 [1] iota_S2048x64_d1_w32 (ix2 b (0 : Fin 64))) (0#32) = 1#1
    rw [iota_single_apply]
    rfl
  rw [hc, select_one]
  exact IdealRules.sign_bit.ideal_onePat .f32

/-- The update of the block at bin n and column d, from the weights P and the values M' beside the ones-column:
    column 64 of the product is the sum of the weights. -/
theorem k2_pay1_apply (bufb : Vec Ideal S512x64 .f32) (P : FVec Ideal S2048x512 .bf16) (M' : FVec Ideal S2048x64 .bf16)
    (n : Fin 512) (d : Fin 64) :
    k2_pay1 bufb P M' (iota .tc S2048x64 32 [1] iota_S2048x64_d1_w32) (ix2 n d)
      = bufb (ix2 n d) + Cert.Spec.lam * ((∑ b : Fin 2048, P (ix2 b n) * M' (ix2 b d))
          - (∑ b : Fin 2048, P (ix2 b n) * 1) * bufb (ix2 n d)) := by
  unfold k2_pay1
  rw [addf_apply, mulf_apply, broadcast_apply, subf_apply, mulf_apply, broadcastTo_a1_ab_apply, slice2_axis1_eq,
    slice2_axis1_eq, aug_apply, aug_apply]
  have hL : ∀ (b : Fin 2048) (j : Fin 128), j.val = d.val →
      concatenate S2048x128 1 [⟨S2048x64, M'⟩, ⟨S2048x64, onesCol⟩] concatenates_S2048x64_S2048x64_S2048x128_d1 (ix2 b j)
        = M' (ix2 b d) :=
    fun b j hj => concat_cols_left M' onesCol _ b j d hj.symm
  have hR : ∀ (b : Fin 2048) (j : Fin 128), j.val = 64 →
      concatenate S2048x128 1 [⟨S2048x64, M'⟩, ⟨S2048x64, onesCol⟩] concatenates_S2048x64_S2048x64_S2048x128_d1 (ix2 b j)
        = 1 :=
    fun b j hj => (concat_cols_right M' onesCol _ b j (0 : Fin 64) (by rw [hj]; rfl)).trans (onesCol_zero b)
  exact congrArg₂ (· + ·) rfl (congrArg₂ (· * ·) rfl (congrArg₂ (· - ·)
    (Finset.sum_congr rfl fun b _ => congrArg (P (ix2 b n) * ·) (hL b _ (Nat.zero_add _)))
    (congrArg (· * bufb (ix2 n d)) (Finset.sum_congr rfl fun b _ => congrArg (P (ix2 b n) * ·) (hR b _ rfl)))))

/-- THE BLOCK'S UPDATE at bin q of the block and column d, from the six blocks the body loads: the prototypes x0, the
    buffer x1, the keys x2, the values x3, the stored row maxima x4 and row sums x5. -/
theorem k2_upd_apply (x0 x1 : Vec Ideal S512x64 .f32) (x2 x3 : Vec Ideal S2048x64 .f32) (x4 x5 : Vec Ideal S2048x1 .f32)
    (q : Fin 512) (d : Fin 64) :
    k2_pay1 x1 (k2_pay2 x0 x2 x4 x5) (k2_pay3 x3) (iota .tc S2048x64 32 [1] iota_S2048x64_d1_w32) (ix2 q d)
      = updRow (fun b d => x2 (ix2 b d)) (fun b d => x3 (ix2 b d)) (fun b => x4 (ix2 b (0 : Fin 1)))
          (fun b => x5 (ix2 b (0 : Fin 1))) (fun dd => x0 (ix2 q dd)) (x1 (ix2 q d)) d := by
  rw [k2_pay1_apply]
  have hw : ∀ b : Fin 2048, k2_pay2 x0 x2 x4 x5 (ix2 b q)
      = wRow (fun b d => x2 (ix2 b d)) (fun b => x4 (ix2 b (0 : Fin 1))) (fun b => x5 (ix2 b (0 : Fin 1)))
          (fun dd => x0 (ix2 q dd)) b := fun b => k2_pay2_apply x0 x2 x4 x5 b q
  have hm : ∀ b : Fin 2048, k2_pay3 x3 (ix2 b d) = x3 (ix2 b d) := fun b => k2_pay3_apply x3 _
  unfold updRow
  exact congrArg (x1 (ix2 q d) + Cert.Spec.lam * ·) (congrArg₂ (· - ·)
    (Finset.sum_congr rfl fun b _ => congrArg₂ (· * ·) (hw b) (hm b))
    (congrArg (· * x1 (ix2 q d)) (Finset.sum_congr rfl fun b _ => congrArg (· * 1) (hw b))))

end Cert.KPay

end
-- ==== Proof.KIVal2.lean ====
/- The value of region 2 over the extended reals: the array its output ends holding is, entry by entry, the buffer's entry plus
   λ times (the weighted sum of m minus the weights' sum times the entry), of the arrays the region finds. -/
import proofs.«103804_j5325759447207_2_alg».proof.Proof.KIReg2
import proofs.«103804_j5325759447207_2_alg».proof.Proof.Spec
import proofs.«103804_j5325759447207_2_alg».proof.Proof.KRow
import proofs.«103804_j5325759447207_2_alg».proof.Proof.KPay2
import Idealize.ShloMosaic.Lib.Pipeline.Value
import Idealize.ShloMosaic.Lib.StableHlo.Run
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-! # The value of region 2: the buffer update

The region's grid is 128 points; point `t` reads rows `512 t … 512 t + 511` of the prototypes and of the buffer, the four
whole arrays k, m, the row maxima and the row sums, and writes rows `512 t … 512 t + 511` of the result. -/

open Cert.Spec
open Cert.KPay (scoreRow wRow updRow)

theorem hz2' : (![0, 0] : Fin 2 → Nat) = fun _ => 0 := funext fun a => by fin_cases a <;> rfl

/-- The block indices at every point: the two row-blocked inputs and the output move with the point, the four whole arrays
    stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The input blocks -/

theorem iblk2_w2 (c : Dev nD) (t : Fin cfg2.N) : (iblk2 V c 2 t : Vec Ideal S2048x64 .f32) = V c main_v4_0 := by
  have e := idx2 t
  funext y
  unfold iblk2
  rw [View.read_apply]
  show V c main_v4_0 _ = V c main_v4_0 y
  congr 1
  funext a
  apply Fin.ext
  match a with
  | ⟨0, _⟩ => show win2_2.index t 0 * 2048 + 1 * (y 0).val = (y 0).val; omega
  | ⟨1, _⟩ => show win2_2.index t 1 * 64 + 1 * (y 1).val = (y 1).val; omega

theorem iblk2_w3 (c : Dev nD) (t : Fin cfg2.N) : (iblk2 V c 3 t : Vec Ideal S2048x64 .f32) = V c main_v4_1 := by
  have e := idx2 t
  funext y
  unfold iblk2
  rw [View.read_apply]
  show V c main_v4_1 _ = V c main_v4_1 y
  congr 1
  funext a
  apply Fin.ext
  match a with
  | ⟨0, _⟩ => show win2_3.index t 0 * 2048 + 1 * (y 0).val = (y 0).val; omega
  | ⟨1, _⟩ => show win2_3.index t 1 * 64 + 1 * (y 1).val = (y 1).val; omega

theorem iblk2_w4 (c : Dev nD) (t : Fin cfg2.N) : (iblk2 V c 4 t : Vec Ideal S2048x1 .f32) = V c main_v5_1 := by
  have e := idx2 t
  funext y
  unfold iblk2
  rw [View.read_apply]
  show V c main_v5_1 _ = V c main_v5_1 y
  congr 1
  funext a
  apply Fin.ext
  match a with
  | ⟨0, _⟩ => show win2_4.index t 0 * 2048 + 1 * (y 0).val = (y 0).val; omega
  | ⟨1, _⟩ => show win2_4.index t 1 * 1 + 1 * (y 1).val = (y 1).val; omega

theorem iblk2_w5 (c : Dev nD) (t : Fin cfg2.N) : (iblk2 V c 5 t : Vec Ideal S2048x1 .f32) = V c main_v5_2 := by
  have e := idx2 t
  funext y
  unfold iblk2
  rw [View.read_apply]
  show V c main_v5_2 _ = V c main_v5_2 y
  congr 1
  funext a
  apply Fin.ext
  match a with
  | ⟨0, _⟩ => show win2_5.index t 0 * 2048 + 1 * (y 0).val = (y 0).val; omega
  | ⟨1, _⟩ => show win2_5.index t 1 * 1 + 1 * (y 1).val = (y 1).val; omega

/-- Block `t` of the prototypes at a block index is the array at row `512 t +` the block's row. -/
theorem iblk2_w0_apply (c : Dev nD) (t : Fin cfg2.N) (y : S512x64.Idx) (i : S65536x64.Idx)
    (h0 : (i 0).val = t.val * 512 + (y 0).val) (h1 : (i 1).val = (y 1).val) :
    (iblk2 V c 0 t : Vec Ideal S512x64 .f32) y = V c main_arg6 i := by
  have e := idx2 t
  unfold iblk2
  rw [View.read_apply]
  show V c main_arg6 _ = V c main_arg6 i
  congr 1
  funext a
  apply Fin.ext
  match a with
  | ⟨0, _⟩ => show win2_0.index t 0 * 512 + 1 * (y 0).val = (i 0).val; omega
  | ⟨1, _⟩ => show win2_0.index t 1 * 64 + 1 * (y 1).val = (i 1).val; omega
/-- Block `t` of the buffer likewise. -/
theorem iblk2_w1_apply (c : Dev nD) (t : Fin cfg2.N) (y : S512x64.Idx) (i : S65536x64.Idx)
    (h0 : (i 0).val = t.val * 512 + (y 0).val) (h1 : (i 1).val = (y 1).val) :
    (iblk2 V c 1 t : Vec Ideal S512x64 .f32) y = V c main_arg7 i := by
  have e := idx2 t
  unfold iblk2
  rw [View.read_apply]
  show V c main_arg7 _ = V c main_arg7 i
  congr 1
  funext a
  apply Fin.ext
  match a with
  | ⟨0, _⟩ => show win2_1.index t 0 * 512 + 1 * (y 0).val = (i 0).val; omega
  | ⟨1, _⟩ => show win2_1.index t 1 * 64 + 1 * (y 1).val = (i 1).val; omega

/-! ## One buffer entry's update from its prototype row -/

/-- The specification's score at a bin is the row form's at the bin's prototype row. -/
theorem score_eq_scoreRow (k : Fin 2048 → Fin 64 → EReal) (p : A2 65536 64) (b : Fin 2048) (n : Fin 65536) :
    score k p b n = scoreRow k (fun d => p (ix2 n d)) b := rfl

/-- The shape of the body's store at literal block coordinates: the update of the buffer block's entry from the prototype
    block's row. -/
abbrev PayIsUpd : Prop :=
  ∀ (x0 x1 : Vec Ideal S512x64 .f32) (x2 x3 : Vec Ideal S2048x64 .f32) (x4 x5 : Vec Ideal S2048x1 .f32) (q : Fin 512) (d : Fin 64),
    k2_pay1 x1 (k2_pay2 x0 x2 x4 x5) (k2_pay3 x3) (iota .tc S2048x64 32 [1] iota_S2048x64_d1_w32) (ix2 q d)
      = updRow (fun b d => x2 (ix2 b d)) (fun b d => x3 (ix2 b d)) (fun b => x4 (ix2 b 0)) (fun b => x5 (ix2 b 0))
          (fun dd => x0 (ix2 q dd)) (x1 (ix2 q d)) d

theorem pay2_at (hpay : PayIsUpd) (x0 x1 : Vec Ideal S512x64 .f32) (x2 x3 : Vec Ideal S2048x64 .f32) (x4 x5 : Vec Ideal S2048x1 .f32)
    (j : S512x64.Idx) :
    k2_pay1 x1 (k2_pay2 x0 x2 x4 x5) (k2_pay3 x3) (iota .tc S2048x64 32 [1] iota_S2048x64_d1_w32) j
      = updRow (fun b d => x2 (ix2 b d)) (fun b d => x3 (ix2 b d)) (fun b => x4 (ix2 b 0)) (fun b => x5 (ix2 b 0))
          (fun dd => x0 (ix2 (j 0) dd)) (x1 (ix2 (j 0) (j 1))) (j 1) := by
  obtain ⟨q, d, rfl⟩ : ∃ (q : Fin 512) (d : Fin 64), j = ix2 q d := ⟨j 0, j 1, eq_ix2 j⟩
  exact hpay x0 x1 x2 x3 x4 x5 q d

/-- The update at a block index, the two blocks read where the array index says. -/
theorem upd_of_blocks (k m : Fin 2048 → Fin 64 → EReal) (mx ls : Fin 2048 → EReal) (X0 X1 : Vec Ideal S512x64 .f32)
    (P B : S65536x64.Idx → EReal) (t : ℕ) (j : S512x64.Idx) (i : S65536x64.Idx)
    (h0 : (i 0).val = t * 512 + (j 0).val) (h1 : (i 1).val = (j 1).val)
    (hX0 : ∀ (y : S512x64.Idx) (i' : S65536x64.Idx), (i' 0).val = t * 512 + (y 0).val → (i' 1).val = (y 1).val → X0 y = P i')
    (hX1 : ∀ (y : S512x64.Idx) (i' : S65536x64.Idx), (i' 0).val = t * 512 + (y 0).val → (i' 1).val = (y 1).val → X1 y = B i') :
    updRow k m mx ls (fun dd => X0 (ix2 (j 0) dd)) (X1 (ix2 (j 0) (j 1))) (j 1)
      = updRow k m mx ls (fun dd => P (ix2 (i 0) dd)) (B (ix2 (i 0) (i 1))) (i 1) := by
  have hd : (j 1 : Fin 64) = i 1 := Fin.ext h1.symm
  have e0 : (fun dd : Fin 64 => X0 (ix2 (j 0) dd)) = fun dd => P (ix2 (i 0) dd) :=
    funext fun dd => hX0 _ _ h0 rfl
  have e1 : X1 (ix2 (j 0) (j 1)) = B (ix2 (i 0) (i 1)) := hX1 _ _ h0 h1
  rw [e0, e1, hd]

/-! ## What a point writes back, and the array after the region -/

/-- The arrays the region finds, read at literal coordinates. -/
abbrev K2 (c : Dev nD) : Fin 2048 → Fin 64 → EReal := fun b d => V c main_v4_0 (ix2 b d)
abbrev M2 (c : Dev nD) : Fin 2048 → Fin 64 → EReal := fun b d => V c main_v4_1 (ix2 b d)
abbrev MX2 (c : Dev nD) : Fin 2048 → EReal := fun b => V c main_v5_1 (ix2 b 0)
abbrev LS2 (c : Dev nD) : Fin 2048 → EReal := fun b => V c main_v5_2 (ix2 b 0)
abbrev P2 (c : Dev nD) : A2 65536 64 := V c main_arg6
abbrev B2 (c : Dev nD) : A2 65536 64 := V c main_arg7
/-- The updated buffer, entry by entry, of the arrays the region finds. -/
abbrev G6 (c : Dev nD) : S65536x64.Idx → EReal := fun i =>
  updRow (K2 V c) (M2 V c) (MX2 V c) (LS2 V c) (fun dd => P2 V c (ix2 (i 0) dd)) (B2 V c (ix2 (i 0) (i 1))) (i 1)

theorem flushed2_6_eq (hpay : PayIsUpd) (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  unfold out2_6
  rw [View.canon_unit_zero hz2']
  simp only [View.ld_unit_zero (S := S512x64) hz2', View.ld_unit_zero (S := S2048x64) hz2', View.ld_unit_zero (S := S2048x1) hz2']
  rw [iblk2_w2, iblk2_w3, iblk2_w4, iblk2_w5]
  have e := idx2 t
  funext j
  show k2_pay1 (iblk2 V c 1 t) (k2_pay2 (iblk2 V c 0 t) (V c main_v4_0) (V c main_v5_1) (V c main_v5_2)) (k2_pay3 (V c main_v4_1))
      (iota .tc S2048x64 32 [1] iota_S2048x64_d1_w32) j = G6 V c (((cfg2.win 6).blk t).view.emb j)
  refine (pay2_at hpay (iblk2 V c 0 t) (iblk2 V c 1 t) _ _ _ _ j).trans ?_
  exact upd_of_blocks (K2 V c) (M2 V c) (MX2 V c) (LS2 V c) (iblk2 V c 0 t) (iblk2 V c 1 t) (V c main_arg6) (V c main_arg7) t.val j
    (((cfg2.win 6).blk t).view.emb j)
    (by show win2_6.index t 0 * 512 + 1 * (j 0).val = t.val * 512 + (j 0).val; omega)
    (by show win2_6.index t 1 * 64 + 1 * (j 1).val = (j 1).val; omega)
    (fun y i' => iblk2_w0_apply V c t y i') (fun y i' => iblk2_w1_apply V c t y i')

/-- An index of the array is in point `t`'s block iff each coordinate is in the block's range on its axis. -/
theorem mem_blk2_6 (t : Fin cfg2.N) (i : S65536x64.Idx) :
    i ∈ ((cfg2.win 6).blk t).view.set ↔ ∀ a : Fin 2, win2_6.index t a * S512x64.size a ≤ (i a).val ∧ (i a).val < win2_6.index t a * S512x64.size a + S512x64.size a := by
  show i ∈ ((View.whole main_v6).slice (win2_6.rect t)).set ↔ _
  rw [View.set_slice_whole, Rect.mem_set_unit]
  exact Iff.rfl

/-- THE UPDATED BUFFER's array after the region: the point that covers bin `n` is `n / 512`. -/
theorem final2_6_of (hpay : PayIsUpd) (c : Dev nD) : (dat2 V c).arrAt 6 cfg2.N = G6 V c :=
  (dat2 V c).arrAt_eq_of_cover 6 (G6 V c) (fun t _ => flushed2_6_eq V hpay c t) fun i => by
    have h0 : (i 0).val < 65536 := (i 0).isLt
    have h1 : (i 1).val < 64 := (i 1).isLt
    have hN : cfg2.N = 128 := N_2
    let t : Fin cfg2.N := ⟨(i 0).val / 512, by rw [hN]; omega⟩
    have e := idx2 t
    have ht : t.val = (i 0).val / 512 := rfl
    refine ⟨t, flush2_6 t, ?_⟩
    rw [mem_blk2_6]
    intro a
    match a with
    | ⟨0, _⟩ => show win2_6.index t (0 : Fin 2) * 512 ≤ (i 0).val ∧ (i 0).val < win2_6.index t (0 : Fin 2) * 512 + 512; omega
    | ⟨1, _⟩ => show win2_6.index t (1 : Fin 2) * 64 ≤ (i 1).val ∧ (i 1).val < win2_6.index t (1 : Fin 2) * 64 + 64; omega

/-- The same with the specification's score spelt: each entry is the buffer's plus λ times (the weighted sum of m minus the
    weights' sum times the entry), the weights rebuilt from the rows' maxima and sums. -/
theorem final2_6_spec_of (hpay : PayIsUpd) (c : Dev nD) : (dat2 V c).arrAt 6 cfg2.N = fun i =>
    B2 V c (ix2 (i 0) (i 1)) + lam * ((∑ b : Fin 2048, (Ideal.exp (score (K2 V c) (P2 V c) b (i 0) - MX2 V c b) * Ideal.div one (LS2 V c b)) * M2 V c b (i 1))
      - (∑ b : Fin 2048, (Ideal.exp (score (K2 V c) (P2 V c) b (i 0) - MX2 V c b) * Ideal.div one (LS2 V c b)) * 1) * B2 V c (ix2 (i 0) (i 1))) :=
  final2_6_of V hpay c

/-! ## With the store's value at literal block coordinates -/

/-- THE UPDATED BUFFER's array after the region, of the arrays the region finds. -/
theorem final2_6 (c : Dev nD) : (dat2 V c).arrAt 6 cfg2.N = G6 V c := final2_6_of V Cert.KPay.k2_upd_apply c

/-- The same with the specification's score spelt. -/
theorem final2_6_spec (c : Dev nD) : (dat2 V c).arrAt 6 cfg2.N = fun i =>
    B2 V c (ix2 (i 0) (i 1)) + lam * ((∑ b : Fin 2048, (Ideal.exp (score (K2 V c) (P2 V c) b (i 0) - MX2 V c b) * Ideal.div one (LS2 V c b)) * M2 V c b (i 1))
      - (∑ b : Fin 2048, (Ideal.exp (score (K2 V c) (P2 V c) b (i 0) - MX2 V c b) * Ideal.div one (LS2 V c b)) * 1) * B2 V c (ix2 (i 0) (i 1))) :=
  final2_6_spec_of V Cert.KPay.k2_upd_apply c

end Cert.KernelIdeal.H

end
-- ==== Proof.KSpecEq.lean ====
/-
  The blocked specification equals the one-piece specification on real data. A row's 65536 bins are the 64 × 1024
  pairs (block, position); over real scores the running maximum, sum and weighted sum after the last block are the
  row's maximum, its sum of exponentials and its weighted sum, so the weights and the retrieved value agree, and
  with them the updated buffer. Real data also makes the projections and the scores real.
-/
import proofs.«103804_j5325759447207_2_alg».proof.Proof.Spec
import proofs.«103804_j5325759447207_2_alg».proof.Proof.LibOnlineSoftmax
import proofs.«103804_j5325759447207_2_alg».proof.Proof.Consts
import proofs.«103804_j5325759447207_2_alg».proof.Proof.KSpec

noncomputable section

namespace Cert.KSpecEq

open Cert.Spec Cert.KSpec Cert.OnlineSoftmax Idealize.ShloMosaic Idealize.ShloMosaic.ValueIdx

/-! ## Bins as (block, position) pairs -/

/-- Every bin is a position of a block. -/
theorem binOf_surj (n : Fin 65536) : ∃ (t : Fin 64) (q : Fin 1024), binOf t q = n := by
  have hn : n.val < 65536 := n.isLt
  exact ⟨⟨n.val / 1024, by omega⟩, ⟨n.val % 1024, Nat.mod_lt _ (by decide)⟩,
    Fin.ext (by show n.val / 1024 * 1024 + n.val % 1024 = n.val; omega)⟩

/-- A sum over the bins is the sum over the blocks of the sums over the positions. -/
theorem sum_bins {M : Type} [AddCommMonoid M] (f : Fin 65536 → M) (g : ℕ → Fin 1024 → M)
    (hg : ∀ (t : ℕ) (h : t < 64) (q : Fin 1024), g t q = f (binOf ⟨t, h⟩ q)) :
    ∑ n, f n = ∑ t ∈ Finset.range 64, ∑ q, g t q := by
  rw [Finset.sum_range (fun t => ∑ q, g t q)]
  refine (Equiv.sum_comp (finProdFinEquiv (m := 64) (n := 1024)) (fun n : Fin (64 * 1024) => f n)).symm.trans ?_
  rw [Fintype.sum_prod_type]
  refine Finset.sum_congr rfl fun t _ => Finset.sum_congr rfl fun q _ => ?_
  rw [hg t.val t.isLt q]
  exact congrArg f (Fin.ext (by
    show q.val + 1024 * t.val = t.val * 1024 + q.val
    omega))

/-! ## Real data by blocks -/

/-- Row `b`'s real scores by blocks (junk `0` past the last block). -/
def sR (sr : Fin 2048 → Fin 65536 → ℝ) (b : Fin 2048) : ℕ → Fin 1024 → ℝ :=
  fun t q => if h : t < 64 then sr b (binOf ⟨t, h⟩ q) else 0

/-- Column `d` of the real buffer by blocks (junk `0` past the last block). -/
def vR (br : (⟨2, ![65536, 64]⟩ : Shape).Idx → ℝ) (d : Fin 64) : ℕ → Fin 1024 → ℝ :=
  fun t q => if h : t < 64 then br (ix2 (binOf ⟨t, h⟩ q) d) else 0

theorem sR_lt (sr : Fin 2048 → Fin 65536 → ℝ) (b : Fin 2048) (t : ℕ) (h : t < 64) (q : Fin 1024) :
    sR sr b t q = sr b (binOf ⟨t, h⟩ q) := dif_pos h

theorem vR_lt (br : (⟨2, ![65536, 64]⟩ : Shape).Idx → ℝ) (d : Fin 64) (t : ℕ) (h : t < 64) (q : Fin 1024) :
    vR br d t q = br (ix2 (binOf ⟨t, h⟩ q) d) := dif_pos h

/-- The blocks of coerced real scores are the coerced real blocks. -/
theorem sblk_coe (sr : Fin 2048 → Fin 65536 → ℝ) (b : Fin 2048) :
    sblk (fun b n => ((sr b n : ℝ) : EReal)) b = fun t q => ((sR sr b t q : ℝ) : EReal) := by
  funext t q
  unfold sblk sR
  by_cases h : t < 64
  · rw [dif_pos h, dif_pos h]
  · rw [dif_neg h, dif_neg h, EReal.coe_zero]

/-- The blocks of a coerced real buffer column are the coerced real blocks. -/
theorem vblk_coe (br : (⟨2, ![65536, 64]⟩ : Shape).Idx → ℝ) (d : Fin 64) :
    vblk (fun i => ((br i : ℝ) : EReal)) d = fun t q => ((vR br d t q : ℝ) : EReal) := by
  funext t q
  unfold vblk vR
  by_cases h : t < 64
  · rw [dif_pos h, dif_pos h]
  · rw [dif_neg h, dif_neg h, EReal.coe_zero]

/-- A row's maximum score, as a real. -/
def Mrow (sr : Fin 2048 → Fin 65536 → ℝ) (b : Fin 2048) : ℝ := Mr (sR sr b) 64

/-- A row's sum of exponentials of score less maximum, as a real. -/
def Lrow (sr : Fin 2048 → Fin 65536 → ℝ) (b : Fin 2048) : ℝ := Lr (sR sr b) 64

theorem Lrow_ne (sr : Fin 2048 → Fin 65536 → ℝ) (b : Fin 2048) : Lrow sr b ≠ 0 := (Lr_pos (sR sr b) 63).ne'

/-- The running state against the zero values, after the last block. -/
theorem run_zero_coe (sr : Fin 2048 → Fin 65536 → ℝ) (b : Fin 2048) :
    run (sblk (fun b n => ((sr b n : ℝ) : EReal)) b) (fun _ _ => (0 : EReal)) 64
      = (((Mrow sr b : ℝ) : EReal), ((Lrow sr b : ℝ) : EReal), ((Ar (sR sr b) (fun _ _ => (0 : ℝ)) 64 : ℝ) : EReal)) := by
  rw [sblk_coe]
  exact run_coe (sR sr b) (fun _ _ => (0 : ℝ)) 63

theorem kmax_coe (sr : Fin 2048 → Fin 65536 → ℝ) (b : Fin 2048) :
    kmax (fun b n => ((sr b n : ℝ) : EReal)) b = ((Mrow sr b : ℝ) : EReal) := by
  unfold kmax; rw [run_zero_coe]

theorem ksum_coe (sr : Fin 2048 → Fin 65536 → ℝ) (b : Fin 2048) :
    ksum (fun b n => ((sr b n : ℝ) : EReal)) b = ((Lrow sr b : ℝ) : EReal) := by
  unfold ksum; rw [run_zero_coe]

/-- The running state against a buffer column, after the last block. -/
theorem st_coe (sr : Fin 2048 → Fin 65536 → ℝ) (br : (⟨2, ![65536, 64]⟩ : Shape).Idx → ℝ) (b : Fin 2048) (d : Fin 64) :
    st (fun b n => ((sr b n : ℝ) : EReal)) (fun i => ((br i : ℝ) : EReal)) b d 64
      = (((Mrow sr b : ℝ) : EReal), ((Lrow sr b : ℝ) : EReal), ((Ar (sR sr b) (vR br d) 64 : ℝ) : EReal)) := by
  unfold st
  rw [sblk_coe, vblk_coe]
  exact run_coe (sR sr b) (vR br d) 63

/-! ## The one-piece quantities over real scores -/

/-- The one-piece row maximum is the coerced real maximum. -/
theorem rowMax_coe (sr : Fin 2048 → Fin 65536 → ℝ) (b : Fin 2048) :
    Cert.Spec.rowMax (fun b n => ((sr b n : ℝ) : EReal)) b = ((Mrow sr b : ℝ) : EReal) := by
  unfold Cert.Spec.rowMax
  rw [max_eq_right bot_le]
  apply le_antisymm
  · rw [Finset.fold_max_le]
    refine ⟨bot_le, fun n _ => ?_⟩
    obtain ⟨t, q, rfl⟩ := binOf_surj n
    have h := le_Mr (sR sr b) 63 t.val (by have := t.isLt; omega) q
    rw [sR_lt sr b t.val t.isLt q] at h
    exact EReal.coe_le_coe_iff.mpr h
  · obtain ⟨t', ht', q, hq⟩ := exists_eq_Mr (sR sr b) 63
    rw [Finset.le_fold_max]
    refine Or.inr ⟨binOf ⟨t', by omega⟩ q, Finset.mem_univ _, ?_⟩
    rw [sR_lt sr b t' (by omega) q] at hq
    exact EReal.coe_le_coe_iff.mpr (le_of_eq hq.symm)

/-- The row's sum of exponentials over the bins is the blocked one. -/
theorem sum_exp_eq (sr : Fin 2048 → Fin 65536 → ℝ) (b : Fin 2048) :
    ∑ n : Fin 65536, Real.exp (sr b n - Mrow sr b) = Lrow sr b :=
  sum_bins (fun n => Real.exp (sr b n - Mrow sr b)) (fun t q => Real.exp (sR sr b t q - Mr (sR sr b) 64))
    (fun t h q => by rw [sR_lt sr b t h q]; rfl)

/-- The softmax weight over real scores, as a real. -/
def wr (sr : Fin 2048 → Fin 65536 → ℝ) (b : Fin 2048) (n : Fin 65536) : ℝ := Real.exp (sr b n - Mrow sr b) / Lrow sr b

/-- The one-piece weight is the coerced real weight. -/
theorem attn_coe (sr : Fin 2048 → Fin 65536 → ℝ) (b : Fin 2048) (n : Fin 65536) :
    Cert.Spec.attn (fun b n => ((sr b n : ℝ) : EReal)) b n = ((wr sr b n : ℝ) : EReal) := by
  have hsum : (∑ n' : Fin 65536, Ideal.exp (((sr b n' : ℝ) : EReal) - ((Mrow sr b : ℝ) : EReal))) = ((Lrow sr b : ℝ) : EReal) := by
    rw [← sum_exp_eq, coe_sum]
    exact Finset.sum_congr rfl fun n' _ => by rw [← EReal.coe_sub, Ideal.exp_coe]
  unfold Cert.Spec.attn Cert.Spec.expw Cert.Spec.rowSum Cert.Spec.expw
  rw [rowMax_coe]
  exact (congrArg (fun z => Ideal.div (Ideal.exp (((sr b n : ℝ) : EReal) - ((Mrow sr b : ℝ) : EReal))) (0 + z)) hsum).trans
    (exp_div _ _ _ (Lrow_ne sr b))

/-- The rebuilt weight is the coerced real weight. -/
theorem kattn_coe (sr : Fin 2048 → Fin 65536 → ℝ) (b : Fin 2048) (n : Fin 65536) :
    kattn (fun b n => ((sr b n : ℝ) : EReal)) b n = ((wr sr b n : ℝ) : EReal) := by
  unfold kattn
  rw [kmax_coe, ksum_coe, Cert.Consts.one_eq]
  exact exp_mul_inv _ _ _ (Lrow_ne sr b)

/-! ## The retrieved value -/

/-- The blocked retrieved value over real data: the sum of weight times buffer entry. -/
theorem kret_coe (sr : Fin 2048 → Fin 65536 → ℝ) (br : (⟨2, ![65536, 64]⟩ : Shape).Idx → ℝ) (b : Fin 2048) (d : Fin 64) :
    kret (fun b n => ((sr b n : ℝ) : EReal)) (fun i => ((br i : ℝ) : EReal)) b d
      = ((∑ n : Fin 65536, wr sr b n * br (ix2 n d) : ℝ) : EReal) := by
  unfold kret
  rw [st_coe]
  dsimp only
  rw [Cert.Consts.one_eq, acc_mul_inv _ _ (Lrow_ne sr b)]
  refine congrArg (fun r : ℝ => (r : EReal)) ?_
  refine (Ar_div_Lr (sR sr b) (vR br d) 63).trans ?_
  exact (sum_bins (fun n => wr sr b n * br (ix2 n d))
    (fun t q => Real.exp (sR sr b t q - Mr (sR sr b) (63 + 1)) / Lr (sR sr b) (63 + 1) * vR br d t q)
    (fun t h q => by rw [sR_lt sr b t h q, vR_lt br d t h q]; rfl)).symm

/-- The one-piece retrieved value over real data: the same sum. -/
theorem retrieved_coe (sr : Fin 2048 → Fin 65536 → ℝ) (br : (⟨2, ![65536, 64]⟩ : Shape).Idx → ℝ) (b : Fin 2048) (d : Fin 64) :
    Cert.Spec.retrieved (fun b n => ((sr b n : ℝ) : EReal)) (fun i => ((br i : ℝ) : EReal)) b d
      = ((∑ n : Fin 65536, wr sr b n * br (ix2 n d) : ℝ) : EReal) := by
  unfold Cert.Spec.retrieved
  rw [coe_sum]
  exact Finset.sum_congr rfl fun n _ => by rw [attn_coe, ← EReal.coe_mul]

/-- Real scores, as a function into the reals. -/
theorem exists_real_scores (s : Fin 2048 → Fin 65536 → EReal) (hs : ∀ b n, ∃ r : ℝ, s b n = (r : EReal)) :
    ∃ sr : Fin 2048 → Fin 65536 → ℝ, s = fun b n => ((sr b n : ℝ) : EReal) :=
  ⟨fun b n => (hs b n).choose, funext fun b => funext fun n => (hs b n).choose_spec⟩

/-- A real buffer, as a function into the reals. -/
theorem exists_real_buf (buf : A2 65536 64) (hbuf : ∀ i, ∃ r : ℝ, buf i = (r : EReal)) :
    ∃ br : (⟨2, ![65536, 64]⟩ : Shape).Idx → ℝ, buf = fun i => ((br i : ℝ) : EReal) :=
  ⟨fun i => (hbuf i).choose, funext fun i => (hbuf i).choose_spec⟩

/-- ON REAL DATA THE BLOCKED RETRIEVED VALUE IS THE ONE-PIECE ONE. -/
theorem kret_eq (s : Fin 2048 → Fin 65536 → EReal) (buf : A2 65536 64)
    (hs : ∀ b n, ∃ r : ℝ, s b n = (r : EReal)) (hbuf : ∀ i, ∃ r : ℝ, buf i = (r : EReal)) (b : Fin 2048) (d : Fin 64) :
    kret s buf b d = Cert.Spec.retrieved s buf b d := by
  obtain ⟨sr, rfl⟩ := exists_real_scores s hs
  obtain ⟨br, rfl⟩ := exists_real_buf buf hbuf
  rw [kret_coe, retrieved_coe]

/-- On real scores the rebuilt weight is the one-piece weight. -/
theorem kattn_eq (s : Fin 2048 → Fin 65536 → EReal) (hs : ∀ b n, ∃ r : ℝ, s b n = (r : EReal)) (b : Fin 2048) (n : Fin 65536) :
    kattn s b n = Cert.Spec.attn s b n := by
  obtain ⟨sr, rfl⟩ := exists_real_scores s hs
  rw [kattn_coe, attn_coe]

/-- ON REAL SCORES THE BLOCKED UPDATED BUFFER IS THE ONE-PIECE ONE. -/
theorem kupd_eq (s : Fin 2048 → Fin 65536 → EReal) (m : Fin 2048 → Fin 64 → EReal) (buf : A2 65536 64)
    (hs : ∀ b n, ∃ r : ℝ, s b n = (r : EReal)) (n : Fin 65536) (d : Fin 64) :
    kupd s m buf n d = Cert.Spec.updated s m buf n d := by
  unfold kupd Cert.Spec.updated
  have h1 : (∑ b : Fin 2048, kattn s b n * m b d) = ∑ b : Fin 2048, Cert.Spec.attn s b n * m b d :=
    Finset.sum_congr rfl fun b _ => by rw [kattn_eq s hs b n]
  have h2 : (∑ b : Fin 2048, kattn s b n * 1) = 0 + ∑ b : Fin 2048, Cert.Spec.attn s b n := by
    rw [zero_add]
    exact Finset.sum_congr rfl fun b _ => by rw [kattn_eq s hs b n, mul_one]
  rw [h1, h2]

/-! ## Real data gives real projections and real scores -/

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    rw [Finset.sum_insert ha]
    exact real_add (h a (Finset.mem_insert_self a S)) (ih fun i hi => h i (Finset.mem_insert_of_mem hi))

/-- Real inputs, weight and bias give a real projection. -/
theorem proj_real (x c : A2 2048 512) (W : A2 64 1024) (bias : A1 64)
    (hx : ∀ i, ∃ r : ℝ, x i = (r : EReal)) (hc : ∀ i, ∃ r : ℝ, c i = (r : EReal))
    (hW : ∀ i, ∃ r : ℝ, W i = (r : EReal)) (hb : ∀ i, ∃ r : ℝ, bias i = (r : EReal)) (b : Fin 2048) (d : Fin 64) :
    ∃ r : ℝ, Cert.Spec.proj x c W bias b d = (r : EReal) := by
  unfold Cert.Spec.proj Cert.Spec.proj2
  exact real_add (real_add (real_sum _ _ fun j _ => real_mul (hx _) (hW _)) (real_sum _ _ fun j _ => real_mul (hc _) (hW _))) (hb _)

/-- Real keys and prototypes give real scores. -/
theorem score_real (k : Fin 2048 → Fin 64 → EReal) (p : A2 65536 64)
    (hk : ∀ b d, ∃ r : ℝ, k b d = (r : EReal)) (hp : ∀ i, ∃ r : ℝ, p i = (r : EReal)) (b : Fin 2048) (n : Fin 65536) :
    ∃ r : ℝ, Cert.Spec.score k p b n = (r : EReal) := by
  unfold Cert.Spec.score
  rw [Cert.Consts.one_coe, Ideal.div_coe one_ne_zero]
  refine real_mul (real_sub ⟨0, EReal.coe_zero.symm⟩ (real_sub (real_add (real_sum _ _ fun d _ => real_mul (hk b d) (hk b d))
    (real_sum _ _ fun d _ => real_mul (hp _) (hp _))) (real_mul ⟨2, Cert.Consts.two_coe⟩ (real_sum _ _ fun d _ => real_mul (hk b d) (hp _))))) ⟨_, rfl⟩

end Cert.KSpecEq

end
-- ==== Proof.Finite.lean ====
/-
  From the precondition to real data: the precondition says, of each of the eight argument arrays, that every entry's
  absolute value is below +∞; on the extended reals that leaves exactly the reals.
-/
import proofs.«103804_j5325759447207_2_alg».proof.Pre_finite_inputs
import proofs.«103804_j5325759447207_2_alg».proof.Proof.Consts
import Idealize.ShloMosaic.Lib.ReduceAll
import Idealize.ShloMosaic.Lib.ValueIdx

noncomputable section

namespace Cert.Finite

open Cert.Pre_finite_inputs Idealize.ShloMosaic Idealize.ShloMosaic.ValueIdx

/-- The scalar shape has one index. -/
instance : Subsingleton (⟨0, ![]⟩ : Shape).Idx := ⟨fun a b => funext fun d => d.elim0⟩

/-- An extended real whose absolute value is below +∞ is a real. -/
theorem real_of_abs_lt (x : EReal)
    (h : FloatOps.cmpf (F := Ideal) (φ := .f32) .olt (FloatOps.hostAbsf x) (FloatOps.ofBits .f32 0x7F800000#32) = 1#1) :
    ∃ r : ℝ, x = r := by
  have h' : Ideal.cmp .olt (max x (-x)) (Ideal.ofBits .f32 0x7F800000#32) = 1#1 := h
  rw [Cert.Consts.pos_inf] at h'
  unfold Ideal.cmp at h'
  have hlt : max x (-x) < ⊤ := by
    by_contra hc
    simp [hc] at h'
  induction x using EReal.rec with
  | bot => simp at hlt
  | coe r => exact ⟨r, rfl⟩
  | top => simp at hlt

/-- One array: if "every |entry| is below +∞" reduced by `and` from 1 is 1, every entry is a real. -/
theorem all_real {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ix0 = 1#1) (i : s.Idx) : ∃ r : ℝ, x i = r :=
  real_of_abs_lt (x i) (Host.reduce_andi_all _ _ h hu ix0 e i)

/-- The precondition at the ideal values: every entry of every argument array is a real. -/
theorem real_of_pre [Cert.Pre_finite_inputs.Facts]
    (x0 x1 : FVec Ideal S2048x512 .f32) (x2 : FVec Ideal S64x1024 .f32) (x3 : FVec Ideal S64 .f32)
    (x4 : FVec Ideal S64x1024 .f32) (x5 : FVec Ideal S64 .f32) (x6 x7 : FVec Ideal S65536x64 .f32)
    (h : Cert.Pre_finite_inputs.fn (F := Ideal) x0 x1 x2 x3 x4 x5 x6 x7 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) ∧ (∀ i, ∃ r : ℝ, x6 i = r) ∧ (∀ i, ∃ r : ℝ, x7 i = r) := by
  have e := congrFun h ix0
  unfold Cert.Pre_finite_inputs.fn Cert.Pre_finite_inputs.fn_part1 Cert.Pre_finite_inputs.fn_part2 at e
  dsimp only at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real x0 _ _ _ h0, all_real x1 _ _ _ h1, all_real x2 _ _ _ h2, all_real x3 _ _ _ h3,
    all_real x4 _ _ _ h4, all_real x5 _ _ _ h5, all_real x6 _ _ _ h6, all_real x7 _ _ _ h7⟩

end Cert.Finite

end
-- ==== Proof.KIValue.lean ====
/-
  The kernel's two results are the specification's. Region 0 leaves the two projections of the arguments (its weights'
  column halves come from the four slices before it); region 1 leaves, row by row, the blocked retrieved value, maximum
  and sum of the scores of those keys against the prototypes; region 2 rebuilds the weights from them and updates the
  buffer. On the real data the precondition grants, the blocked forms are the one-piece ones.
-/
import proofs.«103804_j5325759447207_2_alg».proof.Defs
import proofs.«103804_j5325759447207_2_alg».proof.Proof.KIGlue
import proofs.«103804_j5325759447207_2_alg».proof.Proof.KIVal0
import proofs.«103804_j5325759447207_2_alg».proof.Proof.KIVal1
import proofs.«103804_j5325759447207_2_alg».proof.Proof.KIVal2
import proofs.«103804_j5325759447207_2_alg».proof.Proof.KRow
import proofs.«103804_j5325759447207_2_alg».proof.Proof.KPay0
import proofs.«103804_j5325759447207_2_alg».proof.Proof.KPay2
import proofs.«103804_j5325759447207_2_alg».proof.Proof.KSpecEq
import proofs.«103804_j5325759447207_2_alg».proof.Proof.Finite

set_option maxRecDepth 16384

noncomputable section

namespace Cert.KernelIdeal.H

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arguments, and what the precondition says of them -/

/-- The eight argument arrays of device c. -/
abbrev a0 (c : Dev nD) : Cert.Spec.A2 2048 512 := m ((c.tc : Thread nD τ).loc main_arg0)
abbrev a1 (c : Dev nD) : Cert.Spec.A2 2048 512 := m ((c.tc : Thread nD τ).loc main_arg1)
abbrev a2 (c : Dev nD) : Cert.Spec.A2 64 1024 := m ((c.tc : Thread nD τ).loc main_arg2)
abbrev a3 (c : Dev nD) : Cert.Spec.A1 64 := m ((c.tc : Thread nD τ).loc main_arg3)
abbrev a4 (c : Dev nD) : Cert.Spec.A2 64 1024 := m ((c.tc : Thread nD τ).loc main_arg4)
abbrev a5 (c : Dev nD) : Cert.Spec.A1 64 := m ((c.tc : Thread nD τ).loc main_arg5)
abbrev a6 (c : Dev nD) : Cert.Spec.A2 65536 64 := m ((c.tc : Thread nD τ).loc main_arg6)
abbrev a7 (c : Dev nD) : Cert.Spec.A2 65536 64 := m ((c.tc : Thread nD τ).loc main_arg7)

/-- Under the precondition every entry of every argument is a real. -/
theorem real_args [Cert.Pre_finite_inputs.Facts] (hpre : Cert.Pre_KernelIdeal m) (c : Dev nD) :
    (∀ i, ∃ r : ℝ, a0 m c i = (r : EReal)) ∧ (∀ i, ∃ r : ℝ, a1 m c i = (r : EReal)) ∧ (∀ i, ∃ r : ℝ, a2 m c i = (r : EReal))
      ∧ (∀ i, ∃ r : ℝ, a3 m c i = (r : EReal)) ∧ (∀ i, ∃ r : ℝ, a4 m c i = (r : EReal)) ∧ (∀ i, ∃ r : ℝ, a5 m c i = (r : EReal))
      ∧ (∀ i, ∃ r : ℝ, a6 m c i = (r : EReal)) ∧ (∀ i, ∃ r : ℝ, a7 m c i = (r : EReal)) :=
  Cert.Finite.real_of_pre _ _ _ _ _ _ _ _ (hpre c)

/-! ## Region 0's results: the two projections of the arguments -/

/-- The key array region 1 finds is the key projection of the arguments. -/
theorem V2_key (c : Dev nD) (b : Fin 2048) (d : Fin 64) :
    (V2 m ρ c main_v4_0 : S2048x64.Idx → EReal) (ix2 b d) = Cert.Spec.proj (a0 m c) (a1 m c) (a2 m c) (a3 m c) b d := by
  rw [V2_main_v4_0, final0_8 (V1 m ρ) c]
  show Cert.Spec.proj2 (V1 m ρ c main_arg0) (V1 m ρ c main_arg1) (V1 m ρ c main_v0) (V1 m ρ c main_v1) (V1 m ρ c main_arg3) b d = _
  rw [V1_main_arg0, V1_main_arg1, V1_main_v0_half, V1_main_v1_half, V1_main_arg3]
  rfl

/-- The content array is the content projection of the arguments. -/
theorem V2_content (c : Dev nD) (b : Fin 2048) (d : Fin 64) :
    (V2 m ρ c main_v4_1 : S2048x64.Idx → EReal) (ix2 b d) = Cert.Spec.proj (a0 m c) (a1 m c) (a4 m c) (a5 m c) b d := by
  rw [V2_main_v4_1, final0_9 (V1 m ρ) c]
  show Cert.Spec.proj2 (V1 m ρ c main_arg0) (V1 m ρ c main_arg1) (V1 m ρ c main_v2) (V1 m ρ c main_v3) (V1 m ρ c main_arg5) b d = _
  rw [V1_main_arg0, V1_main_arg1, V1_main_v2_half, V1_main_v3_half, V1_main_arg5]
  rfl

/-! ## Region 1's entry, in the specification's terms -/

theorem kA_V2 (c : Dev nD) : kA (V2 m ρ) c = Cert.Spec.proj (a0 m c) (a1 m c) (a2 m c) (a3 m c) :=
  funext fun b => funext fun d => V2_key m ρ c b d

theorem pA_V2 (c : Dev nD) : pA (V2 m ρ) c = a6 m c := V2_main_arg6 m ρ c

theorem bA_V2 (c : Dev nD) : bA (V2 m ρ) c = a7 m c := V2_main_arg7 m ρ c

theorem sA_V2 (c : Dev nD) :
    sA (V2 m ρ) c = Cert.Spec.score (Cert.Spec.proj (a0 m c) (a1 m c) (a2 m c) (a3 m c)) (a6 m c) := by
  unfold sA; rw [kA_V2, pA_V2]

/-- Under the precondition the scores are real. -/
theorem scores_real [Cert.Pre_finite_inputs.Facts] (hpre : Cert.Pre_KernelIdeal m) (c : Dev nD) (b : Fin 2048) (n : Fin 65536) :
    ∃ r : ℝ, Cert.Spec.score (Cert.Spec.proj (a0 m c) (a1 m c) (a2 m c) (a3 m c)) (a6 m c) b n = (r : EReal) := by
  obtain ⟨h0, h1, h2, h3, -, -, h6, -⟩ := real_args m hpre c
  exact Cert.KSpecEq.score_real _ _ (fun b d => Cert.KSpecEq.proj_real _ _ _ _ h0 h1 h2 h3 b d) h6 b n

/-! ## The first result -/

/-- THE RETRIEVED VALUE the kernel leaves is the specification's. -/
theorem val_r [Cert.Pre_finite_inputs.Facts] (hpre : Cert.Pre_KernelIdeal m) (c : Dev nD) :
    (dat1 (V2 m ρ) c).arrAt 3 cfg1.N
      = Cert.Spec.R (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) (m ((c.tc : Thread nD τ).loc main_arg7)) := by
  obtain ⟨-, -, -, -, -, -, -, h7⟩ := real_args m hpre c
  rw [final1_r (V2 m ρ) c, sA_V2, bA_V2]
  funext i
  exact Cert.KSpecEq.kret_eq _ _ (scores_real m hpre c) h7 (i 0) (i 1)

/-! ## Region 2's entry, in the specification's terms -/

/-- The row form of the update, with the stored maximum and sum of the scores, is the blocked update. -/
theorem updRow_eq_kupd (k mm : Fin 2048 → Fin 64 → EReal) (p buf : Cert.Spec.A2 65536 64) (n : Fin 65536) (d : Fin 64) :
    Cert.KPay.updRow k mm (Cert.KSpec.kmax (Cert.Spec.score k p)) (Cert.KSpec.ksum (Cert.Spec.score k p))
        (fun dd => p (ix2 n dd)) (buf (ix2 n d)) d
      = Cert.KSpec.kupd (Cert.Spec.score k p) mm buf n d := rfl

theorem V3_key (c : Dev nD) : (fun (b : Fin 2048) (d : Fin 64) => (V3 m ρ c main_v4_0 : S2048x64.Idx → EReal) (ix2 b d))
    = Cert.Spec.proj (a0 m c) (a1 m c) (a2 m c) (a3 m c) :=
  funext fun b => funext fun d => (congrFun (V3_main_v4_0 m ρ c) (ix2 b d)).trans (V2_key m ρ c b d)

theorem V3_content (c : Dev nD) : (fun (b : Fin 2048) (d : Fin 64) => (V3 m ρ c main_v4_1 : S2048x64.Idx → EReal) (ix2 b d))
    = Cert.Spec.proj (a0 m c) (a1 m c) (a4 m c) (a5 m c) :=
  funext fun b => funext fun d => (congrFun (V3_main_v4_1 m ρ c) (ix2 b d)).trans (V2_content m ρ c b d)

theorem V3_max (c : Dev nD) : (fun b : Fin 2048 => (V3 m ρ c main_v5_1 : S2048x1.Idx → EReal) (ix2 b 0))
    = Cert.KSpec.kmax (Cert.Spec.score (Cert.Spec.proj (a0 m c) (a1 m c) (a2 m c) (a3 m c)) (a6 m c)) := by
  funext b
  rw [V3_main_v5_1, final1_max (V2 m ρ) c, sA_V2]

theorem V3_sum (c : Dev nD) : (fun b : Fin 2048 => (V3 m ρ c main_v5_2 : S2048x1.Idx → EReal) (ix2 b 0))
    = Cert.KSpec.ksum (Cert.Spec.score (Cert.Spec.proj (a0 m c) (a1 m c) (a2 m c) (a3 m c)) (a6 m c)) := by
  funext b
  rw [V3_main_v5_2, final1_sum (V2 m ρ) c, sA_V2]

/-- The update in row form, of the specification's quantities, is the specification's second result. -/
theorem updRow_spec [Cert.Pre_finite_inputs.Facts] (hpre : Cert.Pre_KernelIdeal m) (c : Dev nD) (i : S65536x64.Idx) :
    Cert.KPay.updRow (Cert.Spec.proj (a0 m c) (a1 m c) (a2 m c) (a3 m c)) (Cert.Spec.proj (a0 m c) (a1 m c) (a4 m c) (a5 m c))
        (Cert.KSpec.kmax (Cert.Spec.score (Cert.Spec.proj (a0 m c) (a1 m c) (a2 m c) (a3 m c)) (a6 m c)))
        (Cert.KSpec.ksum (Cert.Spec.score (Cert.Spec.proj (a0 m c) (a1 m c) (a2 m c) (a3 m c)) (a6 m c)))
        (fun dd => a6 m c (ix2 (i 0) dd)) (a7 m c (ix2 (i 0) (i 1))) (i 1)
      = Cert.Spec.NB (a0 m c) (a1 m c) (a2 m c) (a3 m c) (a4 m c) (a5 m c) (a6 m c) (a7 m c) i :=
  (updRow_eq_kupd _ _ (a6 m c) (a7 m c) (i 0) (i 1)).trans
    (Cert.KSpecEq.kupd_eq _ _ _ (scores_real m hpre c) (i 0) (i 1))

/-! ## The second result -/

/-- The row form of the update depends only on its seven arguments. -/
theorem updRow_congr {k k' mm mm' : Fin 2048 → Fin 64 → EReal} {mx mx' ls ls' : Fin 2048 → EReal} {prow prow' : Fin 64 → EReal}
    {bufv bufv' : EReal} (hk : k = k') (hm : mm = mm') (hmx : mx = mx') (hls : ls = ls') (hp : prow = prow') (hb : bufv = bufv')
    (d : Fin 64) : Cert.KPay.updRow k mm mx ls prow bufv d = Cert.KPay.updRow k' mm' mx' ls' prow' bufv' d := by
  subst hk hm hmx hls hp hb; rfl

/-- THE UPDATED BUFFER the kernel leaves is the specification's, from the array region 2 leaves in row form. -/
theorem val_nb_from [Cert.Pre_finite_inputs.Facts] (hpre : Cert.Pre_KernelIdeal m) (c : Dev nD)
    (hfin : (dat2 (V3 m ρ) c).arrAt 6 cfg2.N = fun i : S65536x64.Idx =>
      Cert.KPay.updRow (fun b d => (V3 m ρ c main_v4_0 : S2048x64.Idx → EReal) (ix2 b d))
        (fun b d => (V3 m ρ c main_v4_1 : S2048x64.Idx → EReal) (ix2 b d))
        (fun b => (V3 m ρ c main_v5_1 : S2048x1.Idx → EReal) (ix2 b 0))
        (fun b => (V3 m ρ c main_v5_2 : S2048x1.Idx → EReal) (ix2 b 0))
        (fun dd => (V3 m ρ c main_arg6 : S65536x64.Idx → EReal) (ix2 (i 0) dd))
        ((V3 m ρ c main_arg7 : S65536x64.Idx → EReal) (ix2 (i 0) (i 1))) (i 1)) :
    (dat2 (V3 m ρ) c).arrAt 6 cfg2.N
      = Cert.Spec.NB (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [hfin]
  funext i
  exact (updRow_congr (V3_key m ρ c) (V3_content m ρ c) (V3_max m ρ c) (V3_sum m ρ c)
    (funext fun dd => congrFun (V3_main_arg6 m ρ c) (ix2 (i 0) dd)) (congrFun (V3_main_arg7 m ρ c) (ix2 (i 0) (i 1))) (i 1)).trans
    (updRow_spec m hpre c i)

/-- THE UPDATED BUFFER the kernel leaves is the specification's, given the update payload's value at literal coordinates. -/
theorem val_nb_of [Cert.Pre_finite_inputs.Facts] (hpay : PayIsUpd) (hpre : Cert.Pre_KernelIdeal m) (c : Dev nD) :
    (dat2 (V3 m ρ) c).arrAt 6 cfg2.N
      = Cert.Spec.NB (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  val_nb_from m ρ hpre c (final2_6_of (V3 m ρ) hpay c)

/-- THE UPDATED BUFFER the kernel leaves is the specification's. -/
theorem val_nb [Cert.Pre_finite_inputs.Facts] (hpre : Cert.Pre_KernelIdeal m) (c : Dev nD) :
    (dat2 (V3 m ρ) c).arrAt 6 cfg2.N
      = Cert.Spec.NB (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  val_nb_of m ρ Cert.KPay.k2_upd_apply hpre c

end Cert.KernelIdeal.H

end
-- ==== Proof.RefSpec.lean ====
/-
  The reference program read against the specification: every stage of the reference, at an index, is the
  specification's function of the argument arrays. The projection's 1024-term contraction splits into the two
  512-term halves of the concatenated input; the row maximum is the fold of max over the row from −∞; the
  negation is 0 − y; a row of squares summed from 0 is the bare sum.
-/
import proofs.«103804_j5325759447207_2_alg».proof.Proof.Gen.ReferenceIdeal.Read
import proofs.«103804_j5325759447207_2_alg».proof.Proof.Spec
import proofs.«103804_j5325759447207_2_alg».proof.Proof.Consts
import Idealize.ShloMosaic.Lib.ValueIdx
import Idealize.ShloMosaic.Lib.Pipeline.Value
import Idealize.ShloMosaic.PureOps.Ideal.Laws

noncomputable section

namespace Cert.RefSpec

open Cert.ReferenceIdeal Cert.ReferenceIdeal.Gen Cert.ReferenceIdeal.Read Idealize.ShloMosaic Idealize.ShloMosaic.ValueIdx

/-- The contents of an f32 buffer of shape `s` on the extended reals. -/
abbrev Arr (s : Shape) : Type := (⟨s, .f32⟩ : BufTy).Contents (Elt Ideal)

/-! ## The concatenated input -/

/-- A column below 512 of the concatenation reads the first array. -/
theorem v0_left (x0 x1 : Arr S2048x512) (b : Fin 2048) (j : Fin 512) :
    val_main_v0 (F := Ideal) x0 x1 (ix2 b (⟨j.val, by have h : j.val < 512 := j.isLt; omega⟩ : Fin 1024)) = x0 (ix2 b j) := by
  unfold val_main_v0
  exact concatenate_pair_apply_left (1 : Fin S2048x1024.rank) x0 x1 concatenates_S2048x512_S2048x512_S2048x1024_d1 _ rfl (ix2 b j)
    (fun a => match a with
      | ⟨0, _⟩ => rfl
      | ⟨1, _⟩ => rfl)

/-- A column 512 + j of the concatenation reads the second array at j. -/
theorem v0_right (x0 x1 : Arr S2048x512) (b : Fin 2048) (j : Fin 512) :
    val_main_v0 (F := Ideal) x0 x1 (ix2 b (⟨512 + j.val, by have h : j.val < 512 := j.isLt; omega⟩ : Fin 1024)) = x1 (ix2 b j) := by
  unfold val_main_v0
  refine concatenate_pair_apply_right (1 : Fin S2048x1024.rank) x0 x1 concatenates_S2048x512_S2048x512_S2048x1024_d1 _ rfl rfl (ix2 b j)
    (fun a => match a with
      | ⟨0, _⟩ => fun _ => rfl
      | ⟨1, _⟩ => fun h => absurd rfl h) ?_
  show j.val + 512 = 512 + j.val
  omega

/-! ## The two projections -/

/-- The key projection: the concatenated input against the transposed key weight, plus the key bias. -/
theorem key_eq (x0 x1 : Arr S2048x512) (W : Arr S64x1024) (bias : Arr S64) (b : Fin 2048) (d : Fin 64) :
    val_main_v5 (F := Ideal) x0 x1 W bias (ix2 b d) = Cert.Spec.proj x0 x1 W bias b d := by
  rw [val_main_v5_apply, val_main_v2_apply, val_main_v4_apply, val_main_v3_apply, Ideal.addf_def]
  unfold Cert.Spec.proj Cert.Spec.proj2
  refine congrArg₂ (· + ·) ?_ (congrArg bias (funext fun a => Fin.ext (by match a with | ⟨0, _⟩ => rfl)))
  refine (Fin.sum_univ_add (a := 512) (b := 512) (fun k : Fin 1024 =>
    ((val_main_v0 (F := Ideal) x0 x1 (lidx_main_v2 (ix2 b d) k) * val_main_v1 (F := Ideal) W (ridx_main_v2 (ix2 b d) k) : EReal)))).trans ?_
  refine congrArg₂ (· + ·) (Finset.sum_congr rfl fun j _ => ?_) (Finset.sum_congr rfl fun j _ => ?_)
  · have e : lidx_main_v2 (ix2 b d) (Fin.castAdd 512 j) = ix2 b (⟨j.val, by have h : j.val < 512 := j.isLt; omega⟩ : Fin 1024) :=
      funext fun a => Fin.ext (by match a with | ⟨0, _⟩ => rfl | ⟨1, _⟩ => rfl)
    show val_main_v0 (F := Ideal) x0 x1 (lidx_main_v2 (ix2 b d) (Fin.castAdd 512 j)) * val_main_v1 (F := Ideal) W (ridx_main_v2 (ix2 b d) (Fin.castAdd 512 j)) = _
    rw [e, v0_left, val_main_v1_apply]
    exact congrArg (x0 (ix2 b j) * W ·) (funext fun a => Fin.ext (by match a with | ⟨0, _⟩ => rfl | ⟨1, _⟩ => rfl))
  · have e : lidx_main_v2 (ix2 b d) (Fin.natAdd 512 j) = ix2 b (⟨512 + j.val, by have h : j.val < 512 := j.isLt; omega⟩ : Fin 1024) :=
      funext fun a => Fin.ext (by match a with | ⟨0, _⟩ => rfl | ⟨1, _⟩ => rfl)
    show val_main_v0 (F := Ideal) x0 x1 (lidx_main_v2 (ix2 b d) (Fin.natAdd 512 j)) * val_main_v1 (F := Ideal) W (ridx_main_v2 (ix2 b d) (Fin.natAdd 512 j)) = _
    rw [e, v0_right, val_main_v1_apply]
    exact congrArg (x1 (ix2 b j) * W ·) (funext fun a => Fin.ext (by match a with | ⟨0, _⟩ => rfl | ⟨1, _⟩ => rfl))

/-- The content projection: the same against the content weight and bias. -/
theorem content_eq (x0 x1 : Arr S2048x512) (W : Arr S64x1024) (bias : Arr S64) (b : Fin 2048) (d : Fin 64) :
    val_main_v10 (F := Ideal) x0 x1 W bias (ix2 b d) = Cert.Spec.proj x0 x1 W bias b d := by
  rw [val_main_v10_apply, val_main_v7_apply, val_main_v9_apply, val_main_v8_apply, Ideal.addf_def]
  unfold Cert.Spec.proj Cert.Spec.proj2
  refine congrArg₂ (· + ·) ?_ (congrArg bias (funext fun a => Fin.ext (by match a with | ⟨0, _⟩ => rfl)))
  refine (Fin.sum_univ_add (a := 512) (b := 512) (fun k : Fin 1024 =>
    ((val_main_v0 (F := Ideal) x0 x1 (lidx_main_v7 (ix2 b d) k) * val_main_v6 (F := Ideal) W (ridx_main_v7 (ix2 b d) k) : EReal)))).trans ?_
  refine congrArg₂ (· + ·) (Finset.sum_congr rfl fun j _ => ?_) (Finset.sum_congr rfl fun j _ => ?_)
  · have e : lidx_main_v7 (ix2 b d) (Fin.castAdd 512 j) = ix2 b (⟨j.val, by have h : j.val < 512 := j.isLt; omega⟩ : Fin 1024) :=
      funext fun a => Fin.ext (by match a with | ⟨0, _⟩ => rfl | ⟨1, _⟩ => rfl)
    show val_main_v0 (F := Ideal) x0 x1 (lidx_main_v7 (ix2 b d) (Fin.castAdd 512 j)) * val_main_v6 (F := Ideal) W (ridx_main_v7 (ix2 b d) (Fin.castAdd 512 j)) = _
    rw [e, v0_left, val_main_v6_apply]
    exact congrArg (x0 (ix2 b j) * W ·) (funext fun a => Fin.ext (by match a with | ⟨0, _⟩ => rfl | ⟨1, _⟩ => rfl))
  · have e : lidx_main_v7 (ix2 b d) (Fin.natAdd 512 j) = ix2 b (⟨512 + j.val, by have h : j.val < 512 := j.isLt; omega⟩ : Fin 1024) :=
      funext fun a => Fin.ext (by match a with | ⟨0, _⟩ => rfl | ⟨1, _⟩ => rfl)
    show val_main_v0 (F := Ideal) x0 x1 (lidx_main_v7 (ix2 b d) (Fin.natAdd 512 j)) * val_main_v6 (F := Ideal) W (ridx_main_v7 (ix2 b d) (Fin.natAdd 512 j)) = _
    rw [e, v0_right, val_main_v6_apply]
    exact congrArg (x1 (ix2 b j) * W ·) (funext fun a => Fin.ext (by match a with | ⟨0, _⟩ => rfl | ⟨1, _⟩ => rfl))

/-- The key array the reference holds, by coordinates. -/
abbrev ky (x0 x1 : Arr S2048x512) (x2 : Arr S64x1024) (x3 : Arr S64) : Fin 2048 → Fin 64 → EReal :=
  fun b d => val_main_v5 (F := Ideal) x0 x1 x2 x3 (ix2 b d)

/-- The content array the reference holds, by coordinates. -/
abbrev ct (x0 x1 : Arr S2048x512) (x4 : Arr S64x1024) (x5 : Arr S64) : Fin 2048 → Fin 64 → EReal :=
  fun b d => val_main_v10 (F := Ideal) x0 x1 x4 x5 (ix2 b d)

/-- The score array the reference holds, by coordinates. -/
abbrev sc (x0 x1 : Arr S2048x512) (x2 : Arr S64x1024) (x3 : Arr S64) (x6 : Arr S65536x64) : Fin 2048 → Fin 65536 → EReal :=
  fun b n => val_main_v27 (F := Ideal) x0 x1 x2 x3 x6 (ix2 b n)

theorem ky_eq (x0 x1 : Arr S2048x512) (x2 : Arr S64x1024) (x3 : Arr S64) : ky x0 x1 x2 x3 = Cert.Spec.proj x0 x1 x2 x3 :=
  funext fun b => funext fun d => key_eq x0 x1 x2 x3 b d

theorem ct_eq (x0 x1 : Arr S2048x512) (x4 : Arr S64x1024) (x5 : Arr S64) : ct x0 x1 x4 x5 = Cert.Spec.proj x0 x1 x4 x5 :=
  funext fun b => funext fun d => content_eq x0 x1 x4 x5 b d

/-! ## The score -/

/-- The pattern of +0 is the extended real 0. -/
theorem zero_bits : FloatOps.ofBits (F := Ideal) .f32 0x00000000#32 = (0 : EReal) := Ideal.ofBits_zero_f32

/-- Minus the squared distance, over the key array `K` the reference holds. -/
theorem score_eq (x0 x1 : Arr S2048x512) (x2 : Arr S64x1024) (x3 : Arr S64) (x6 : Arr S65536x64) (b : Fin 2048) (n : Fin 65536) :
    val_main_v27 (F := Ideal) x0 x1 x2 x3 x6 (ix2 b n)
      = Cert.Spec.score (ky x0 x1 x2 x3) x6 b n := by
  rw [val_main_v27_apply, val_main_v25_apply, val_main_v24_apply, val_main_v19_apply, val_main_v23_apply,
    val_main_v17_apply, val_main_v13_apply, val_main_v12_apply, val_main_v18_apply, val_main_v16_apply, val_main_v15_apply,
    val_main_v22_apply, val_main_v21_apply, val_main_v26_apply, val_main_cst_apply, val_main_cst_0_apply,
    val_main_cst_1_apply, val_main_cst_2_apply, zero_bits, zero_add, zero_add]
  unfold Cert.Spec.score
  refine congrArg₂ Ideal.div ?_ rfl
  show -_ = _
  refine (neg_eq_zero_sub _).trans (congrArg (0 - ·) ?_)
  refine congrArg₂ (· - ·) (congrArg₂ (· + ·) ?_ ?_) (congrArg₂ (· * ·) rfl ?_)
  · refine Finset.sum_congr rfl fun k _ => ?_
    rw [val_main_v11_apply]
    exact congrArg (fun i => val_main_v5 (F := Ideal) x0 x1 x2 x3 i * val_main_v5 (F := Ideal) x0 x1 x2 x3 i)
      (funext fun a => Fin.ext (by match a with | ⟨0, _⟩ => rfl | ⟨1, _⟩ => rfl))
  · refine Finset.sum_congr rfl fun k _ => ?_
    rw [val_main_v14_apply]
    exact congrArg (fun i => x6 i * x6 i) (funext fun a => Fin.ext (by match a with | ⟨0, _⟩ => rfl | ⟨1, _⟩ => rfl))
  · refine Finset.sum_congr rfl fun k _ => ?_
    rw [val_main_v20_apply]
    exact congrArg₂ (fun i i' => val_main_v5 (F := Ideal) x0 x1 x2 x3 i * x6 i')
      (funext fun a => Fin.ext (by match a with | ⟨0, _⟩ => rfl | ⟨1, _⟩ => rfl))
      (funext fun a => Fin.ext (by match a with | ⟨0, _⟩ => rfl | ⟨1, _⟩ => rfl))

theorem sc_eq (x0 x1 : Arr S2048x512) (x2 : Arr S64x1024) (x3 : Arr S64) (x6 : Arr S65536x64) :
    sc x0 x1 x2 x3 x6 = Cert.Spec.score (Cert.Spec.proj x0 x1 x2 x3) x6 :=
  funext fun b => funext fun n => (score_eq x0 x1 x2 x3 x6 b n).trans (congrArg (fun k => Cert.Spec.score k x6 b n) (ky_eq x0 x1 x2 x3))

/-! ## The row maximum -/

/-- The pattern of −∞ is the bottom of the extended reals. -/
theorem neg_inf_bits : FloatOps.ofBits (F := Ideal) .f32 0xFF800000#32 = (⊥ : EReal) := Cert.Consts.neg_inf

/-- A row index with a column put back is (row, column). -/
theorem lift_row (h : S2048x65536.Reduces [1] S2048) (b : Fin 2048) (k : Fin (S2048x65536.size 1)) :
    h.lift (ix1 b) k = ix2 b (⟨k.val, k.isLt⟩ : Fin 65536) := by
  funext c; apply Fin.ext
  match c with
  | ⟨0, _⟩ => rfl
  | ⟨1, _⟩ => rfl

/-- The row maximum: the fold of max from −∞ over the row, once more against −∞. -/
theorem rowMax_eq (x0 x1 : Arr S2048x512) (x2 : Arr S64x1024) (x3 : Arr S64) (x6 : Arr S65536x64) (b : Fin 2048) :
    val_main_v30 (F := Ideal) x0 x1 x2 x3 x6 (ix1 b)
      = Cert.Spec.rowMax (sc x0 x1 x2 x3 x6) b := by
  rw [val_main_v30_apply, val_main_v29_apply, val_main_cst_4_apply, neg_inf_bits]
  unfold Cert.Spec.rowMax val_main_v28
  show max ⊥ _ = _
  refine congrArg (max ⊥) ?_
  have h : S2048x65536.Reduces [1] S2048 := by decide
  rw [Host.reduce_eq_fold_single FloatOps.maximumf _ _ reducesTo_S2048x65536_S2048_d1 h h_S_, val_main_cst_3_apply, neg_inf_bits]
  have hf : (val_main_v27 (F := Ideal) x0 x1 x2 x3 x6 ∘ h.lift (ix1 b))
      = fun n : Fin 65536 => val_main_v27 (F := Ideal) x0 x1 x2 x3 x6 (ix2 b n) :=
    funext fun k => congrArg (val_main_v27 (F := Ideal) x0 x1 x2 x3 x6) (lift_row h b k)
  exact congrArg (fun f => Finset.fold max (⊥ : EReal) f (Finset.univ : Finset (Fin 65536))) hf

/-! ## The softmax weights -/

/-- The unnormalised weight: the exponential of the score less the row maximum. -/
theorem expw_eq (x0 x1 : Arr S2048x512) (x2 : Arr S64x1024) (x3 : Arr S64) (x6 : Arr S65536x64) (b : Fin 2048) (n : Fin 65536) :
    val_main_v34 (F := Ideal) x0 x1 x2 x3 x6 (ix2 b n) = Cert.Spec.expw (sc x0 x1 x2 x3 x6) b n := by
  rw [val_main_v34_apply, val_main_v33_apply, val_main_v32_apply, val_main_v31_apply]
  unfold Cert.Spec.expw
  show Ideal.exp (_ - _) = _
  refine congrArg Ideal.exp (congrArg (val_main_v27 (F := Ideal) x0 x1 x2 x3 x6 (ix2 b n) - ·) ?_)
  exact Eq.trans (congrArg (val_main_v30 (F := Ideal) x0 x1 x2 x3 x6) (funext fun a => Fin.ext (by match a with | ⟨0, _⟩ => rfl)))
    (rowMax_eq x0 x1 x2 x3 x6 b)

/-- The row sum of the unnormalised weights, from 0. -/
theorem rowSum_eq (x0 x1 : Arr S2048x512) (x2 : Arr S64x1024) (x3 : Arr S64) (x6 : Arr S65536x64) (b : Fin 2048) :
    val_main_v35 (F := Ideal) x0 x1 x2 x3 x6 (ix1 b) = Cert.Spec.rowSum (sc x0 x1 x2 x3 x6) b := by
  rw [val_main_v35_apply, val_main_cst_5_apply, zero_bits]
  unfold Cert.Spec.rowSum
  refine congrArg (0 + ·) (Finset.sum_congr rfl fun k _ => ?_)
  exact Eq.trans (congrArg (val_main_v34 (F := Ideal) x0 x1 x2 x3 x6) (funext fun a => Fin.ext (by match a with | ⟨0, _⟩ => rfl | ⟨1, _⟩ => rfl)))
    (expw_eq x0 x1 x2 x3 x6 b k)

/-- The softmax weight. -/
theorem attn_eq (x0 x1 : Arr S2048x512) (x2 : Arr S64x1024) (x3 : Arr S64) (x6 : Arr S65536x64) (b : Fin 2048) (n : Fin 65536) :
    val_main_v38 (F := Ideal) x0 x1 x2 x3 x6 (ix2 b n) = Cert.Spec.attn (sc x0 x1 x2 x3 x6) b n := by
  rw [val_main_v38_apply, val_main_v37_apply, val_main_v36_apply]
  unfold Cert.Spec.attn
  show Ideal.div _ _ = _
  refine congrArg₂ Ideal.div (expw_eq x0 x1 x2 x3 x6 b n) ?_
  exact Eq.trans (congrArg (val_main_v35 (F := Ideal) x0 x1 x2 x3 x6) (funext fun a => Fin.ext (by match a with | ⟨0, _⟩ => rfl)))
    (rowSum_eq x0 x1 x2 x3 x6 b)

/-! ## The two results -/

/-- The first result: the retrieved value. -/
theorem ref_r (x0 x1 : Arr S2048x512) (x2 : Arr S64x1024) (x3 : Arr S64) (x6 x7 : Arr S65536x64) :
    Cert.ReferenceIdeal.Read.val_main_v39 x0 x1 x2 x3 x6 x7 = Cert.Spec.R x0 x1 x2 x3 x6 x7 := by
  funext i
  obtain ⟨b, d, rfl⟩ : ∃ (b : Fin 2048) (d : Fin 64), i = ix2 b d := ⟨i 0, i 1, eq_ix2 i⟩
  rw [val_main_v39_apply]
  show _ = Cert.Spec.retrieved (Cert.Spec.score (Cert.Spec.proj x0 x1 x2 x3) x6) x7 b d
  rw [← sc_eq]
  unfold Cert.Spec.retrieved
  refine Finset.sum_congr rfl fun k _ => ?_
  refine congrArg₂ (· * ·) ?_ (congrArg x7 (funext fun a => Fin.ext (by match a with | ⟨0, _⟩ => rfl | ⟨1, _⟩ => rfl)))
  exact Eq.trans (congrArg (val_main_v38 (F := Ideal) x0 x1 x2 x3 x6) (funext fun a => Fin.ext (by match a with | ⟨0, _⟩ => rfl | ⟨1, _⟩ => rfl)))
    (attn_eq x0 x1 x2 x3 x6 b k)

/-- The second result: the updated buffer. -/
theorem ref_nb (x0 x1 : Arr S2048x512) (x2 x4 : Arr S64x1024) (x3 x5 : Arr S64) (x6 x7 : Arr S65536x64) :
    Cert.ReferenceIdeal.Read.val_main_v49 x0 x1 x2 x3 x4 x5 x6 x7 = Cert.Spec.NB x0 x1 x2 x3 x4 x5 x6 x7 := by
  funext i
  obtain ⟨n, d, rfl⟩ : ∃ (n : Fin 65536) (d : Fin 64), i = ix2 n d := ⟨i 0, i 1, eq_ix2 i⟩
  rw [val_main_v49_apply, val_main_v48_apply, val_main_v47_apply, val_main_cst_7_apply, val_main_v46_apply, val_main_v45_apply,
    val_main_v44_apply, val_main_v43_apply, val_main_v40_apply, val_main_cst_6_apply, zero_bits, val_main_v42_apply]
  show _ = Cert.Spec.updated (Cert.Spec.score (Cert.Spec.proj x0 x1 x2 x3) x6) (Cert.Spec.proj x0 x1 x4 x5) x7 n d
  rw [← sc_eq, ← ct_eq]
  unfold Cert.Spec.updated
  show x7 (ix2 n d) + Ideal.ofBits .f32 0x384CCCCD#32 * (_ - _ * x7 (ix2 n d)) = _
  refine congrArg (x7 (ix2 n d) + ·) (congrArg₂ (· * ·) rfl (congrArg₂ (· - ·) ?_ (congrArg (· * x7 (ix2 n d)) (congrArg (0 + ·) ?_))))
  · refine Finset.sum_congr rfl fun k _ => ?_
    rw [val_main_v41_apply]
    refine congrArg₂ (· * ·) ?_ (congrArg (val_main_v10 (F := Ideal) x0 x1 x4 x5) (funext fun a => Fin.ext (by match a with | ⟨0, _⟩ => rfl | ⟨1, _⟩ => rfl)))
    exact Eq.trans (congrArg (val_main_v38 (F := Ideal) x0 x1 x2 x3 x6) (funext fun a => Fin.ext (by match a with | ⟨0, _⟩ => rfl | ⟨1, _⟩ => rfl)))
      (attn_eq x0 x1 x2 x3 x6 k n)
  · refine Finset.sum_congr rfl fun k _ => ?_
    exact Eq.trans (congrArg (val_main_v38 (F := Ideal) x0 x1 x2 x3 x6) (funext fun a => Fin.ext (by match a with | ⟨0, _⟩ => rfl | ⟨1, _⟩ => rfl)))
      (attn_eq x0 x1 x2 x3 x6 k n)

end Cert.RefSpec

end
-- ==== Proof.Bridge.lean ====
/- The two idealized programs, run from memories that agree on the arguments, end with equal results: the kernel's two
   result arrays are the specification's functions of the arguments (its three regions read as values, the running softmax
   equal to the softmax in one piece because finite inputs make every score real), and so are the reference's. -/
import proofs.«103804_j5325759447207_2_alg».proof.Defs
import proofs.«103804_j5325759447207_2_alg».proof.Proof.KIValue
import proofs.«103804_j5325759447207_2_alg».proof.Proof.RefSpec

noncomputable section

namespace Cert.Proof

open Idealize.ShloMosaic Idealize.SL.Sem

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Spec.R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.NB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.H.val_r m ρ hpre c), (h c).2.1.trans (Cert.KernelIdeal.H.val_nb m ρ hpre c), (h c).2.2⟩)
      (Cert.KernelIdeal.H.results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v39_eq, Cert.RefSpec.ref_r,
        (hagree c).1, (hagree c).2.1, (hagree c).2.2.1, (hagree c).2.2.2.1, (hagree c).2.2.2.2.2.2.1, (hagree c).2.2.2.2.2.2.2]
    · rw [(h c).2.1, Cert.ReferenceIdeal.Read.val_main_v49_eq, Cert.RefSpec.ref_nb,
        (hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof

end
-- ==== Proof.lean ====
/- The certificate's five conjuncts, assembled. The two kernel programs run three kernel regions one after the
   other — the two projections k = [x | ctx]·Wkᵀ + bk and m = [x | ctx]·Wcᵀ + bc; a pass over the prototype rows in
   blocks that carries a running row maximum, a running sum of exponentials and a running weighted sum of buffer rows
   (rescaled whenever the maximum grows) and divides at the last block; a pass over blocks of bins that rebuilds the
   normalised weights from the stored maximum and sum and updates the buffer — while the reference computes the same
   softmax of −‖k − p‖² in one piece. The reference's frame is its generated run with the results dropped; the ideal pass
   rewrote nothing, so the idealization conjunct is trivial. -/
import proofs.«103804_j5325759447207_2_alg».proof.Defs
import proofs.«103804_j5325759447207_2_alg».proof.Proof.Gen.Kernel
import proofs.«103804_j5325759447207_2_alg».proof.Proof.Gen.Kernel.Skeleton
import proofs.«103804_j5325759447207_2_alg».proof.Proof.Gen.Kernel.Launch
import proofs.«103804_j5325759447207_2_alg».proof.Proof.Gen.Kernel.Regions
import proofs.«103804_j5325759447207_2_alg».proof.Proof.Gen.Kernel.Points
import proofs.«103804_j5325759447207_2_alg».proof.Proof.Gen.KernelIdeal
import proofs.«103804_j5325759447207_2_alg».proof.Proof.Gen.KernelIdeal.Skeleton
import proofs.«103804_j5325759447207_2_alg».proof.Proof.Gen.KernelIdeal.Launch
import proofs.«103804_j5325759447207_2_alg».proof.Proof.Gen.KernelIdeal.Regions
import proofs.«103804_j5325759447207_2_alg».proof.Proof.Gen.KernelIdeal.Points
import proofs.«103804_j5325759447207_2_alg».proof.Proof.Gen.ReferenceIdeal
import proofs.«103804_j5325759447207_2_alg».proof.Proof.Gen.ReferenceIdeal.Run
import proofs.«103804_j5325759447207_2_alg».proof.Proof.Gen.ReferenceIdeal.Read
import proofs.«103804_j5325759447207_2_alg».proof.Proof.Gen.Pre_finite_inputs
import proofs.«103804_j5325759447207_2_alg».proof.Proof.KRun
import proofs.«103804_j5325759447207_2_alg».proof.Proof.KIRun
import proofs.«103804_j5325759447207_2_alg».proof.Proof.Bridge
import Idealize.ShloMosaic.Adequacy
import Idealize.ShloMosaic.Init

noncomputable section

namespace Cert.Proof

open Idealize.ShloMosaic Idealize.SL.Sem

/-- The reference is a host program: its generated run says every execution ends with the arguments as launched. -/
theorem frame_ri [Cert.ReferenceIdeal.Facts] [Cert.Pre_finite_inputs.Facts] : Cert.frame_ReferenceIdeal := fun m ρ _ =>
  (θ_run Cert.ReferenceIdeal.defs _ _).mono (fun _ h c => (h c).2.2)
    (Cert.ReferenceIdeal.Value.run (F := Ideal) m ρ)

/-- The word-level program's three regions run one after the other and leave every argument array as launched. -/
theorem frame_k [Cert.Kernel.Facts] [Cert.Pre_finite_inputs.Facts] : Cert.frame_Kernel := fun m ρ _ => Cert.Kernel.H.frame m ρ

/-- The same for the idealized program. -/
theorem frame_ki [Cert.KernelIdeal.Facts] [Cert.Pre_finite_inputs.Facts] : Cert.frame_KernelIdeal := fun m ρ _ => Cert.KernelIdeal.H.frame m ρ

theorem claim : Cert.Claim := ⟨Cert.Kernel.Gen.facts, Cert.KernelIdeal.Gen.facts, Cert.ReferenceIdeal.Gen.facts, Cert.Pre_finite_inputs.Gen.facts, by
  exact ⟨frame_k, frame_ki, frame_ri, trivial, algebraic⟩⟩

end Cert.Proof

end
